-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x360x360 : Shape := ⟨4, ![2, 256, 360, 360]⟩
abbrev S3x1024 : Shape := ⟨2, ![3, 1024]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S2x256x360x360 : S_.BroadcastsInDim S2x256x360x360 (![] : Fin 0 → Fin S2x256x360x360.rank)
  reducesTo_S2x256x360x360_S_d0_1_2_3 : S2x256x360x360.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S32x1 .f32) (main_arg10 : FVec F S1 .f32) (main_v33 : IVec S_ 1) : IVec S_ 1 :=
  let main_v34 : FVec F S32x1 .f32 := Host.absf main_arg9
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x32 .f32) (main_arg8 : FVec F S32 .f32) (main_arg9 : FVec F S32x1 .f32) (main_arg10 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S2x256x360x360 .f32) (main_arg1 : IVec S3x1024 32) (main_arg2 : IVec S3x1024 32) (main_arg3 : FVec F S256x256 .f32) (main_arg4 : FVec F S256 .f32) (main_arg5 : FVec F S256x128 .f32) (main_arg6 : FVec F S128 .f32) (main_arg7 : FVec F S128x32 .f32) (main_arg8 : FVec F S32 .f32) (main_arg9 : FVec F S32x1 .f32) (main_arg10 : FVec F S1 .f32) : IVec S_ 1 :=
  let main_v0 : FVec F S2x256x360x360 .f32 := Host.absf main_arg0
  let main_cst : FVec F S_ .f32 := constant S_ .f32 0x7F800000#32
  let main_v1 : FVec F S2x256x360x360 .f32 := broadcastInDim S2x256x360x360 ![] bcast_S_S2x256x360x360 main_cst
  let main_v2 : IVec S2x256x360x360 1 := cmpf .olt main_v0 main_v1
  let main_c : IVec S_ 1 := constantI S_ 1 1#1
  let main_v3 : IVec S_ 1 := (fun x v => Host.reduce IntOp.andi x v reducesTo_S2x256x360x360_S_d0_1_2_3 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_v13 main_v16
-- ==== Kernel.lean ====
abbrev S2x256x360x360 : Shape := ⟨4, ![2, 256, 360, 360]⟩
abbrev S3x1024 : Shape := ⟨2, ![3, 1024]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x4 : Shape := ⟨2, ![1024, 4]⟩
abbrev S1024x1x256x1x1 : Shape := ⟨5, ![1024, 1, 256, 1, 1]⟩
abbrev S1024x256 : Shape := ⟨2, ![1024, 256]⟩
abbrev S1x1024x256 : Shape := ⟨3, ![1, 1024, 256]⟩
abbrev S2x1024x256 : Shape := ⟨3, ![2, 1024, 256]⟩
abbrev S2x1024x32 : Shape := ⟨3, ![2, 1024, 32]⟩
abbrev S1x1024x32 : Shape := ⟨3, ![1, 1024, 32]⟩
abbrev S1x256 : Shape := ⟨2, ![1, 256]⟩
abbrev S1024x128 : Shape := ⟨2, ![1024, 128]⟩
abbrev S1x128 : Shape := ⟨2, ![1, 128]⟩
abbrev S1024x32 : Shape := ⟨2, ![1024, 32]⟩
abbrev S32x1024 : Shape := ⟨2, ![32, 1024]⟩
abbrev S1024x1024 : Shape := ⟨2, ![1024, 1024]⟩
abbrev S256x32 : Shape := ⟨2, ![256, 32]⟩
abbrev S32x256 : Shape := ⟨2, ![32, 256]⟩
abbrev S256x1 : Shape := ⟨2, ![256, 1]⟩

abbrev nBuf : Space → Nat
  | .hbm => 106
  | .vmem => 18
  | .smem => 0
  | _ => 0

abbrev bufTy : (tb : Table) → Fin (tcTables nBuf tb) → BufTy
  | .hbm, ⟨0, _⟩ => ⟨S2x256x360x360, .f32⟩
  | .hbm, ⟨1, _⟩ => ⟨S3x1024, .i32⟩
  | .hbm, ⟨2, _⟩ => ⟨S3x1024, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S1x1024, .i32⟩
  | .hbm, ⟨12, _⟩ => ⟨S1024, .i32⟩
  | .hbm, ⟨13, _⟩ => ⟨S1x1024, .i32⟩
  | .hbm, ⟨14, _⟩ => ⟨S1024, .i32⟩
  | .hbm, ⟨15, _⟩ => ⟨S1x1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1024x1, .i32⟩
  | .hbm, ⟨48, _⟩ => ⟨S1024x1, .i32⟩
  | .hbm, ⟨49, _⟩ => ⟨S1024x1, .i32⟩
  | .hbm, ⟨50, _⟩ => ⟨S1024x4, .i32⟩
  | .hbm, ⟨51, _⟩ => ⟨S1024x1x256x1x1, .f32⟩
  | .hbm, ⟨52, _⟩ => ⟨S1024x256, .f32⟩
  | .hbm, ⟨53, _⟩ => ⟨S1x1024, .i32⟩
  | .hbm, ⟨54, _⟩ => ⟨S1024, .i32⟩
  | .hbm, ⟨55, _⟩ => ⟨S1x1024, .i32⟩
  | .hbm, ⟨56, _⟩ => ⟨S1024, .i32⟩
  | .hbm, ⟨57, _⟩ => ⟨S1x1024, .i32⟩
  | .hbm, ⟨58, _⟩ => ⟨S1024, .i32⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1024, .i32⟩
  | .hbm, ⟨76, _⟩ => ⟨S1024, .i1⟩
  | .hbm, ⟨77, _⟩ => ⟨S_, .i32⟩
  | .hbm, ⟨78, _⟩ => ⟨S1024, .i32⟩
  | .hbm, ⟨79, _⟩ => ⟨S1024, .i32⟩
  | .hbm, ⟨80, _⟩ => ⟨S1024, .i32⟩
  | .hbm, ⟨81, _⟩ => ⟨S_, .i32⟩
  | .hbm, ⟨82, _⟩ => ⟨S1024, .i32⟩
  | .hbm, ⟨83, _⟩ => ⟨S1024, .i1⟩
  | .hbm, ⟨84, _⟩ => ⟨S_, .i32⟩
  | .hbm, ⟨85, _⟩ => ⟨S1024, .i32⟩
  | .hbm, ⟨86, _⟩ => ⟨S1024, .i32⟩
  | .hbm, ⟨87, _⟩ => ⟨S1024, .i32⟩
  | .hbm, ⟨88, _⟩ => ⟨S1024x1, .i32⟩
  | .hbm, ⟨89, _⟩ => ⟨S1024x1, .i32⟩
  | .hbm, ⟨90, _⟩ => ⟨S1024x1, .i32⟩
  | .hbm, ⟨91, _⟩ => ⟨S1024x1, .i32⟩
  | .hbm, ⟨92, _⟩ => ⟨S1024x4, .i32⟩
  | .hbm, ⟨93, _⟩ => ⟨S1024x1x256x1x1, .f32⟩
  | .hbm, ⟨94, _⟩ => ⟨S1024x256, .f32⟩
  | .hbm, ⟨95, _⟩ => ⟨S1x1024x256, .f32⟩
  | .hbm, ⟨96, _⟩ => ⟨S1x1024x256, .f32⟩
  | .hbm, ⟨97, _⟩ => ⟨S2x1024x256, .f32⟩
  | .hbm, ⟨98, _⟩ => ⟨S2x1024x32, .f32⟩
  | .hbm, ⟨99, _⟩ => ⟨S1x1024x32, .f32⟩
  | .hbm, ⟨100, _⟩ => ⟨S1024x32, .f32⟩
  | .hbm, ⟨101, _⟩ => ⟨S1x1024x32, .f32⟩
  | .hbm, ⟨102, _⟩ => ⟨S1024x32, .f32⟩
  | .hbm, ⟨103, _⟩ => ⟨S32x1024, .f32⟩
  | .hbm, ⟨104, _⟩ => ⟨S32, .f32⟩
  | .hbm, ⟨105, _⟩ => ⟨S1024x1024, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S128x32, .f32⟩
  | .local _ .vmem, ⟨7, _⟩ => ⟨S1x1024x32, .f32⟩
  | .local _ .vmem, ⟨8, _⟩ => ⟨S1x1024x32, .f32⟩
  | .local _ .vmem, ⟨9, _⟩ => ⟨S256x32, .f32⟩
  | .local _ .vmem, ⟨10, _⟩ => ⟨S256x32, .f32⟩
  | .local _ .vmem, ⟨11, _⟩ => ⟨S32x256, .f32⟩
  | .local _ .vmem, ⟨12, _⟩ => ⟨S32x256, .f32⟩
  | .local _ .vmem, ⟨13, _⟩ => ⟨S32, .f32⟩
  | .local _ .vmem, ⟨14, _⟩ => ⟨S32, .f32⟩
  | .local _ .vmem, ⟨15, _⟩ => ⟨S1, .f32⟩
  | .local _ .vmem, ⟨16, _⟩ => ⟨S256x256, .f32⟩
  | .local _ .vmem, ⟨17, _⟩ => ⟨S256x256, .f32⟩
  | _, _ => ⟨S2x256x360x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_c_2 : Ref sig .tc := ⟨.hbm, 25, rfl⟩
abbrev main_v11 : Ref sig .tc := ⟨.hbm, 26, rfl⟩
abbrev main_c_3 : Ref sig .tc := ⟨.hbm, 27, rfl⟩
abbrev main_c_4 : Ref sig .tc := ⟨.hbm, 28, rfl⟩
abbrev main_v12 : Ref sig .tc := ⟨.hbm, 29, rfl⟩
abbrev main_c_5 : Ref sig .tc := ⟨.hbm, 30, rfl⟩
abbrev main_v13 : Ref sig .tc := ⟨.hbm, 31, rfl⟩
abbrev main_c_6 : Ref sig .tc := ⟨.hbm, 32, rfl⟩
abbrev main_v14 : Ref sig .tc := ⟨.hbm, 33, rfl⟩
abbrev main_v15 : Ref sig .tc := ⟨.hbm, 34, rfl⟩
abbrev main_c_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_8 : Ref sig .tc := ⟨.hbm, 39, rfl⟩
abbrev main_v19 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_12 : Ref sig .tc := ⟨.hbm, 66, rfl⟩
abbrev main_c_13 : Ref sig .tc := ⟨.hbm, 67, rfl⟩
abbrev main_v42 : Ref sig .tc := ⟨.hbm, 68, rfl⟩
abbrev main_c_14 : Ref sig .tc := ⟨.hbm, 69, rfl⟩
abbrev main_c_15 : Ref sig .tc := ⟨.hbm, 70, rfl⟩
abbrev main_v43 : Ref sig .tc := ⟨.hbm, 71, rfl⟩
abbrev main_c_16 : Ref sig .tc := ⟨.hbm, 72, rfl⟩
abbrev main_v44 : Ref sig .tc := ⟨.hbm, 73, rfl⟩
abbrev main_c_17 : Ref sig .tc := ⟨.hbm, 74, rfl⟩
abbrev main_v45 : Ref sig .tc := ⟨.hbm, 75, rfl⟩
abbrev main_v46 : Ref sig .tc := ⟨.hbm, 76, rfl⟩
abbrev main_c_18 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_19 : Ref sig .tc := ⟨.hbm, 81, rfl⟩
abbrev main_v50 : Ref sig .tc := ⟨.hbm, 82, rfl⟩
abbrev main_v51 : Ref sig .tc := ⟨.hbm, 83, rfl⟩
abbrev main_c_20 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S3x1024_S1x1024_0_0 : S3x1024.Slices ![0, 0] S1x1024
  shapeCasts_S1x1024_S1024 : S1x1024.ShapeCasts S1024
  slices_S3x1024_S1x1024_1_0 : S3x1024.Slices ![1, 0] S1x1024
  slices_S3x1024_S1x1024_2_0 : S3x1024.Slices ![2, 0] S1x1024
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  concatenates_S1024x1_S1024x1_S1024x1_S1024x1_S1024x4_d1 : Shape.Concatenates [S1024x1, S1024x1, S1024x1, S1024x1] S1024x4 1
  shapeCasts_S1024x1x256x1x1_S1024x256 : S1024x1x256x1x1.ShapeCasts S1024x256
  bcast_S1024x256_S1x1024x256_1_2 : S1024x256.BroadcastsInDim S1x1024x256 (![1, 2] : Fin 2 → Fin S1x1024x256.rank)
  concatenates_S1x1024x256_S1x1024x256_S2x1024x256_d0 : Shape.Concatenates [S1x1024x256, S1x1024x256] S2x1024x256 0
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x32_S128x32_0_0 : ∀ a, (![0, 0] : Fin 2 → Nat) a + S128x32.size a ≤ S128x32.size a
  h_S128x32 : 0 < S128x32.numel
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  slices_S2x1024x32_S1x1024x32_0_0_0 : S2x1024x32.Slices ![0, 0, 0] S1x1024x32
  slices_S2x1024x32_S1x1024x32_1_0_0 : S2x1024x32.Slices ![1, 0, 0] S1x1024x32
  transposes_S1024x32_S32x1024_1_0 : S1024x32.Transposes [1, 0] S32x1024
  shapeCasts_S32x1_S32 : S32x1.ShapeCasts S32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32_S32_0 : ∀ a, (![0] : Fin 1 → Nat) a + S32.size a ≤ S32.size a
  h_S32 : 0 < S32.numel
  shapeCasts_S32_S32 : S32.ShapeCasts S32
  inb_S1_S1_0 : ∀ a, (![0] : Fin 1 → Nat) a + S1.size a ≤ S1.size a
  h_S1 : 0 < S1.numel
  inpos_S1_p0 : ∀ a, (![0] : Fin 1 → Nat) a < S1.size a
  slices_S256x32_o0_0_S256x1 : S256x32.Slices ![0, 0] S256x1
  slices_S32x256_o0_0_S1x256 : S32x256.Slices ![0, 0] S1x256
  broadcasts_S256x1_S256x256 : S256x1.Broadcasts S256x256
  broadcasts_S1x256_S256x256 : S1x256.Broadcasts S256x256
  slices_S32_o0_S1 : S32.Slices ![0] S1
  slices_S256x32_o0_1_S256x1 : S256x32.Slices ![0, 1] S256x1
  slices_S32x256_o1_0_S1x256 : S32x256.Slices ![1, 0] S1x256
  slices_S32_o1_S1 : S32.Slices ![1] S1
  slices_S256x32_o0_2_S256x1 : S256x32.Slices ![0, 2] S256x1
  slices_S32x256_o2_0_S1x256 : S32x256.Slices ![2, 0] S1x256
  slices_S32_o2_S1 : S32.Slices ![2] S1
  slices_S256x32_o0_3_S256x1 : S256x32.Slices ![0, 3] S256x1
  slices_S32x256_o3_0_S1x256 : S32x256.Slices ![3, 0] S1x256
  slices_S32_o3_S1 : S32.Slices ![3] S1
  slices_S256x32_o0_4_S256x1 : S256x32.Slices ![0, 4] S256x1
  slices_S32x256_o4_0_S1x256 : S32x256.Slices ![4, 0] S1x256
  slices_S32_o4_S1 : S32.Slices ![4] S1
  slices_S256x32_o0_5_S256x1 : S256x32.Slices ![0, 5] S256x1
  slices_S32x256_o5_0_S1x256 : S32x256.Slices ![5, 0] S1x256
  slices_S32_o5_S1 : S32.Slices ![5] S1
  slices_S256x32_o0_6_S256x1 : S256x32.Slices ![0, 6] S256x1
  slices_S32x256_o6_0_S1x256 : S32x256.Slices ![6, 0] S1x256
  slices_S32_o6_S1 : S32.Slices ![6] S1
  slices_S256x32_o0_7_S256x1 : S256x32.Slices ![0, 7] S256x1
  slices_S32x256_o7_0_S1x256 : S32x256.Slices ![7, 0] S1x256
  slices_S32_o7_S1 : S32.Slices ![7] S1
  slices_S256x32_o0_8_S256x1 : S256x32.Slices ![0, 8] S256x1
  slices_S32x256_o8_0_S1x256 : S32x256.Slices ![8, 0] S1x256
  slices_S32_o8_S1 : S32.Slices ![8] S1
  slices_S256x32_o0_9_S256x1 : S256x32.Slices ![0, 9] S256x1
  slices_S32x256_o9_0_S1x256 : S32x256.Slices ![9, 0] S1x256
  slices_S32_o9_S1 : S32.Slices ![9] S1
  slices_S256x32_o0_10_S256x1 : S256x32.Slices ![0, 10] S256x1
  slices_S32x256_o10_0_S1x256 : S32x256.Slices ![10, 0] S1x256
  slices_S32_o10_S1 : S32.Slices ![10] S1
  slices_S256x32_o0_11_S256x1 : S256x32.Slices ![0, 11] S256x1
  slices_S32x256_o11_0_S1x256 : S32x256.Slices ![11, 0] S1x256
  slices_S32_o11_S1 : S32.Slices ![11] S1
  slices_S256x32_o0_12_S256x1 : S256x32.Slices ![0, 12] S256x1
  slices_S32x256_o12_0_S1x256 : S32x256.Slices ![12, 0] S1x256
  slices_S32_o12_S1 : S32.Slices ![12] S1
  slices_S256x32_o0_13_S256x1 : S256x32.Slices ![0, 13] S256x1
  slices_S32x256_o13_0_S1x256 : S32x256.Slices ![13, 0] S1x256
  slices_S32_o13_S1 : S32.Slices ![13] S1
  slices_S256x32_o0_14_S256x1 : S256x32.Slices ![0, 14] S256x1
  slices_S32x256_o14_0_S1x256 : S32x256.Slices ![14, 0] S1x256
  slices_S32_o14_S1 : S32.Slices ![14] S1
  slices_S256x32_o0_15_S256x1 : S256x32.Slices ![0, 15] S256x1
  slices_S32x256_o15_0_S1x256 : S32x256.Slices ![15, 0] S1x256
  slices_S32_o15_S1 : S32.Slices ![15] S1
  slices_S256x32_o0_16_S256x1 : S256x32.Slices ![0, 16] S256x1
  slices_S32x256_o16_0_S1x256 : S32x256.Slices ![16, 0] S1x256
  slices_S32_o16_S1 : S32.Slices ![16] S1
  slices_S256x32_o0_17_S256x1 : S256x32.Slices ![0, 17] S256x1
  slices_S32x256_o17_0_S1x256 : S32x256.Slices ![17, 0] S1x256
  slices_S32_o17_S1 : S32.Slices ![17] S1
  slices_S256x32_o0_18_S256x1 : S256x32.Slices ![0, 18] S256x1
  slices_S32x256_o18_0_S1x256 : S32x256.Slices ![18, 0] S1x256
  slices_S32_o18_S1 : S32.Slices ![18] S1
  slices_S256x32_o0_19_S256x1 : S256x32.Slices ![0, 19] S256x1
  slices_S32x256_o19_0_S1x256 : S32x256.Slices ![19, 0] S1x256
  slices_S32_o19_S1 : S32.Slices ![19] S1
  slices_S256x32_o0_20_S256x1 : S256x32.Slices ![0, 20] S256x1
  slices_S32x256_o20_0_S1x256 : S32x256.Slices ![20, 0] S1x256
  slices_S32_o20_S1 : S32.Slices ![20] S1
  slices_S256x32_o0_21_S256x1 : S256x32.Slices ![0, 21] S256x1
  slices_S32x256_o21_0_S1x256 : S32x256.Slices ![21, 0] S1x256
  slices_S32_o21_S1 : S32.Slices ![21] S1
  slices_S256x32_o0_22_S256x1 : S256x32.Slices ![0, 22] S256x1
  slices_S32x256_o22_0_S1x256 : S32x256.Slices ![22, 0] S1x256
  slices_S32_o22_S1 : S32.Slices ![22] S1
  slices_S256x32_o0_23_S256x1 : S256x32.Slices ![0, 23] S256x1
  slices_S32x256_o23_0_S1x256 : S32x256.Slices ![23, 0] S1x256
  slices_S32_o23_S1 : S32.Slices ![23] S1
  slices_S256x32_o0_24_S256x1 : S256x32.Slices ![0, 24] S256x1
  slices_S32x256_o24_0_S1x256 : S32x256.Slices ![24, 0] S1x256
  slices_S32_o24_S1 : S32.Slices ![24] S1
  slices_S256x32_o0_25_S256x1 : S256x32.Slices ![0, 25] S256x1
  slices_S32x256_o25_0_S1x256 : S32x256.Slices ![25, 0] S1x256
  slices_S32_o25_S1 : S32.Slices ![25] S1
  slices_S256x32_o0_26_S256x1 : S256x32.Slices ![0, 26] S256x1
  slices_S32x256_o26_0_S1x256 : S32x256.Slices ![26, 0] S1x256
  slices_S32_o26_S1 : S32.Slices ![26] S1
  slices_S256x32_o0_27_S256x1 : S256x32.Slices ![0, 27] S256x1
  slices_S32x256_o27_0_S1x256 : S32x256.Slices ![27, 0] S1x256
  slices_S32_o27_S1 : S32.Slices ![27] S1
  slices_S256x32_o0_28_S256x1 : S256x32.Slices ![0, 28] S256x1
  slices_S32x256_o28_0_S1x256 : S32x256.Slices ![28, 0] S1x256
  slices_S32_o28_S1 : S32.Slices ![28] S1
  slices_S256x32_o0_29_S256x1 : S256x32.Slices ![0, 29] S256x1
  slices_S32x256_o29_0_S1x256 : S32x256.Slices ![29, 0] S1x256
  slices_S32_o29_S1 : S32.Slices ![29] S1
  slices_S256x32_o0_30_S256x1 : S256x32.Slices ![0, 30] S256x1
  slices_S32x256_o30_0_S1x256 : S32x256.Slices ![30, 0] S1x256
  slices_S32_o30_S1 : S32.Slices ![30] S1
  slices_S256x32_o0_31_S256x1 : S256x32.Slices ![0, 31] S256x1
  slices_S32x256_o31_0_S1x256 : S32x256.Slices ![31, 0] S1x256
  slices_S32_o31_S1 : S32.Slices ![31] S1
  gather_S2x256x360x360_S1024x4_S1024x1x256x1x1_1234_n_n_n_0123_1_125611_wf : GatherDims.WF S2x256x360x360 S1024x4 S1024x1x256x1x1 [1, 2, 3, 4] [] [] [0, 1, 2, 3] [] 1 ![1, 256, 1, 1]
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x128_S128x32_S1024x32_1_0_0_1_n_n_wf : DotDims.WF S1024x128 S128x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S2x1024x256.size a
  hwx0_0 : ∀ i : grid0.Coords, EltTy.bits .f32 = 32 ∨ (Rect.block (s := S2x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x32.size a ≤ S2x1024x32.size a
  hwx0_6 : ∀ i : grid0.Coords, EltTy.bits .f32 = 32 ∨ (Rect.block (s := S2x1024x32) S1x1024x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x32.size a ≤ S1024x32.size a
  hwx1_0 : ∀ i : grid1.Coords, EltTy.bits .f32 = 32 ∨ (Rect.block (s := S1024x32) S256x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x1024.size a
  hwx1_1 : ∀ i : grid1.Coords, EltTy.bits .f32 = 32 ∨ (Rect.block (s := S32x1024) S32x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S1024x1024.size a
  hwx1_5 : ∀ i : grid1.Coords, EltTy.bits .f32 = 32 ∨ (Rect.block (s := S1024x1024) S256x256.size (cc1_transform_5 i) (hinb1_5 i)).WholeWords (EltTy.packing .f32)

variable [Facts₀]

def gather_S2x256x360x360_S1024x4_S1024x1x256x1x1_1234_n_n_n_0123_1_125611 : GatherDims S2x256x360x360 S1024x4 S1024x1x256x1x1 where
  offsetDims := [1, 2, 3, 4]
  collapsedSliceDims := []
  operandBatchingDims := []
  startIndicesBatchingDims := []
  startIndexMap := [0, 1, 2, 3]
  indexVectorDim := 1
  sliceSizes := ![1, 256, 1, 1]
  wf := gather_S2x256x360x360_S1024x4_S1024x1x256x1x1_1234_n_n_n_0123_1_125611_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf

abbrev win0_0 : Pipeline.Window sig grid0 :=
  Pipeline.Window.ofSpec (Memref.whole main_v64) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x1024x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v67) S256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S32x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v71) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x256x360x360 : Shape := ⟨4, ![2, 256, 360, 360]⟩
abbrev S3x1024 : Shape := ⟨2, ![3, 1024]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S2x360x360x256 : Shape := ⟨4, ![2, 360, 360, 256]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x3 : Shape := ⟨2, ![1024, 3]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024x1024x32 : Shape := ⟨3, ![1024, 1024, 32]⟩
abbrev S1x1x32 : Shape := ⟨3, ![1, 1, 32]⟩
abbrev S1024x1024x1 : Shape := ⟨3, ![1024, 1024, 1]⟩
abbrev S1x1x1 : Shape := ⟨3, ![1, 1, 1]⟩
abbrev S1024x1024 : Shape := ⟨2, ![1024, 1024]⟩

abbrev nBuf : Space → Nat
  | .hbm => 121
  | .vmem => 0
  | .smem => 0
  | _ => 0

abbrev bufTy : (tb : Table) → Fin (tcTables nBuf tb) → BufTy
  | .hbm, ⟨0, _⟩ => ⟨S2x256x360x360, .f32⟩
  | .hbm, ⟨1, _⟩ => ⟨S3x1024, .i32⟩
  | .hbm, ⟨2, _⟩ => ⟨S3x1024, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S2x360x360x256, .f32⟩
  | .hbm, ⟨12, _⟩ => ⟨S1x1024, .i32⟩
  | .hbm, ⟨13, _⟩ => ⟨S1024, .i32⟩
  | .hbm, ⟨14, _⟩ => ⟨S1x1024, .i32⟩
  | .hbm, ⟨15, _⟩ => ⟨S1024, .i32⟩
  | .hbm, ⟨16, _⟩ => ⟨S1x1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S1024x3, .i32⟩
  | .hbm, ⟨43, _⟩ => ⟨S1024x256, .f32⟩
  | .hbm, ⟨44, _⟩ => ⟨S1024x256, .f32⟩
  | .hbm, ⟨45, _⟩ => ⟨S1x256, .f32⟩
  | .hbm, ⟨46, _⟩ => ⟨S1024x256, .f32⟩
  | .hbm, ⟨47, _⟩ => ⟨S1024x256, .f32⟩
  | .hbm, ⟨48, _⟩ => ⟨S_, .f32⟩
  | .hbm, ⟨49, _⟩ => ⟨S1024x256, .f32⟩
  | .hbm, ⟨50, _⟩ => ⟨S1024x256, .f32⟩
  | .hbm, ⟨51, _⟩ => ⟨S1024x128, .f32⟩
  | .hbm, ⟨52, _⟩ => ⟨S1x128, .f32⟩
  | .hbm, ⟨53, _⟩ => ⟨S1024x128, .f32⟩
  | .hbm, ⟨54, _⟩ => ⟨S1024x128, .f32⟩
  | .hbm, ⟨55, _⟩ => ⟨S_, .f32⟩
  | .hbm, ⟨56, _⟩ => ⟨S1024x128, .f32⟩
  | .hbm, ⟨57, _⟩ => ⟨S1024x128, .f32⟩
  | .hbm, ⟨58, _⟩ => ⟨S1x1024, .i32⟩
  | .hbm, ⟨59, _⟩ => ⟨S1024, .i32⟩
  | .hbm, ⟨60, _⟩ => ⟨S1x1024, .i32⟩
  | .hbm, ⟨61, _⟩ => ⟨S1024, .i32⟩
  | .hbm, ⟨62, _⟩ => ⟨S1x1024, .i32⟩
  | .hbm, ⟨63, _⟩ => ⟨S1024, .i32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S_, .i32⟩
  | .hbm, ⟨72, _⟩ => ⟨S1024, .i32⟩
  | .hbm, ⟨73, _⟩ => ⟨S1024, .i1⟩
  | .hbm, ⟨74, _⟩ => ⟨S_, .i32⟩
  | .hbm, ⟨75, _⟩ => ⟨S1024, .i32⟩
  | .hbm, ⟨76, _⟩ => ⟨S1024, .i32⟩
  | .hbm, ⟨77, _⟩ => ⟨S1024, .i32⟩
  | .hbm, ⟨78, _⟩ => ⟨S_, .i32⟩
  | .hbm, ⟨79, _⟩ => ⟨S1024, .i32⟩
  | .hbm, ⟨80, _⟩ => ⟨S1024, .i1⟩
  | .hbm, ⟨81, _⟩ => ⟨S_, .i32⟩
  | .hbm, ⟨82, _⟩ => ⟨S1024, .i32⟩
  | .hbm, ⟨83, _⟩ => ⟨S1024, .i32⟩
  | .hbm, ⟨84, _⟩ => ⟨S1024, .i32⟩
  | .hbm, ⟨85, _⟩ => ⟨S1024x1, .i32⟩
  | .hbm, ⟨86, _⟩ => ⟨S1024x1, .i32⟩
  | .hbm, ⟨87, _⟩ => ⟨S1024x1, .i32⟩
  | .hbm, ⟨88, _⟩ => ⟨S1024x3, .i32⟩
  | .hbm, ⟨89, _⟩ => ⟨S1024x256, .f32⟩
  | .hbm, ⟨90, _⟩ => ⟨S1024x256, .f32⟩
  | .hbm, ⟨91, _⟩ => ⟨S1x256, .f32⟩
  | .hbm, ⟨92, _⟩ => ⟨S1024x256, .f32⟩
  | .hbm, ⟨93, _⟩ => ⟨S1024x256, .f32⟩
  | .hbm, ⟨94, _⟩ => ⟨S_, .f32⟩
  | .hbm, ⟨95, _⟩ => ⟨S1024x256, .f32⟩
  | .hbm, ⟨96, _⟩ => ⟨S1024x256, .f32⟩
  | .hbm, ⟨97, _⟩ => ⟨S1024x128, .f32⟩
  | .hbm, ⟨98, _⟩ => ⟨S1x128, .f32⟩
  | .hbm, ⟨99, _⟩ => ⟨S1024x128, .f32⟩
  | .hbm, ⟨100, _⟩ => ⟨S1024x128, .f32⟩
  | .hbm, ⟨101, _⟩ => ⟨S_, .f32⟩
  | .hbm, ⟨102, _⟩ => ⟨S1024x128, .f32⟩
  | .hbm, ⟨103, _⟩ => ⟨S1024x128, .f32⟩
  | .hbm, ⟨104, _⟩ => ⟨S1024x1x128, .f32⟩
  | .hbm, ⟨105, _⟩ => ⟨S1x1024x128, .f32⟩
  | .hbm, ⟨106, _⟩ => ⟨S1024x1024x128, .f32⟩
  | .hbm, ⟨107, _⟩ => ⟨S1024x1024x128, .f32⟩
  | .hbm, ⟨108, _⟩ => ⟨S1024x1024x128, .f32⟩
  | .hbm, ⟨109, _⟩ => ⟨S1024x1024x32, .f32⟩
  | .hbm, ⟨110, _⟩ => ⟨S1x1x32, .f32⟩
  | .hbm, ⟨111, _⟩ => ⟨S1024x1024x32, .f32⟩
  | .hbm, ⟨112, _⟩ => ⟨S1024x1024x32, .f32⟩
  | .hbm, ⟨113, _⟩ => ⟨S_, .f32⟩
  | .hbm, ⟨114, _⟩ => ⟨S1024x1024x32, .f32⟩
  | .hbm, ⟨115, _⟩ => ⟨S1024x1024x32, .f32⟩
  | .hbm, ⟨116, _⟩ => ⟨S1024x1024x1, .f32⟩
  | .hbm, ⟨117, _⟩ => ⟨S1x1x1, .f32⟩
  | .hbm, ⟨118, _⟩ => ⟨S1024x1024x1, .f32⟩
  | .hbm, ⟨119, _⟩ => ⟨S1024x1024x1, .f32⟩
  | .hbm, ⟨120, _⟩ => ⟨S1024x1024, .f32⟩
  | _, _ => ⟨S2x256x360x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call3_cst : Ref sig .tc := ⟨.hbm, 101, rfl⟩
abbrev main_call3_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call4_cst : Ref sig .tc := ⟨.hbm, 113, rfl⟩
abbrev main_call4_v0 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]

class Facts₀ : Prop where
  transposes_S2x256x360x360_S2x360x360x256_0_2_3_1 : S2x256x360x360.Transposes [0, 2, 3, 1] S2x360x360x256
  slices_S3x1024_S1x1024_0_0 : S3x1024.Slices ![0, 0] S1x1024
  shapeCasts_S1x1024_S1024 : S1x1024.ShapeCasts S1024
  slices_S3x1024_S1x1024_1_0 : S3x1024.Slices ![1, 0] S1x1024
  slices_S3x1024_S1x1024_2_0 : S3x1024.Slices ![2, 0] S1x1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x1_S1024x3_d1 : Shape.Concatenates [S1024x1, S1024x1, S1024x1] S1024x3 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S32_S1x1x32_2 : S32.BroadcastsInDim S1x1x32 (![2] : Fin 1 → Fin S1x1x32.rank)
  bcast_S1x1x32_S1024x1024x32_0_1_2 : S1x1x32.BroadcastsInDim S1024x1024x32 (![0, 1, 2] : Fin 3 → Fin S1024x1024x32.rank)
  bcast_S_S1024x1024x32 : S_.BroadcastsInDim S1024x1024x32 (![] : Fin 0 → Fin S1024x1024x32.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  shapeCasts_S1024x1024x1_S1024x1024 : S1024x1024x1.ShapeCasts S1024x1024
  gather_S2x360x360x256_S1024x3_S1024x256_1_012_n_n_012_1_111256_wf : GatherDims.WF S2x360x360x256 S1024x3 S1024x256 [1] [0, 1, 2] [] [0, 1, 2] [] 1 ![1, 1, 1, 256]
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x1024x128_S128x32_S1024x1024x32_2_0_01_1_n_n_wf : DotDims.WF S1024x1024x128 S128x32 S1024x1024x32 [2] [0] [0, 1] [1] [] []
  dot_S1024x1024x32_S32x1_S1024x1024x1_2_0_01_1_n_n_wf : DotDims.WF S1024x1024x32 S32x1 S1024x1024x1 [2] [0] [0, 1] [1] [] []

variable [Facts₀]

def gather_S2x360x360x256_S1024x3_S1024x256_1_012_n_n_012_1_111256 : GatherDims S2x360x360x256 S1024x3 S1024x256 where
  offsetDims := [1]
  collapsedSliceDims := [0, 1, 2]
  operandBatchingDims := []
  startIndicesBatchingDims := []
  startIndexMap := [0, 1, 2]
  indexVectorDim := 1
  sliceSizes := ![1, 1, 1, 256]
  wf := gather_S2x360x360x256_S1024x3_S1024x256_1_012_n_n_012_1_111256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024x128_S128x32_S1024x1024x32_2_0_01_1_n_n : DotDims S1024x1024x128 S128x32 S1024x1024x32 where
  lhsContracting := [2]
  rhsContracting := [0]
  lhsNonContracting := [0, 1]
  rhsNonContracting := [1]
  lhsBatch := []
  rhsBatch := []
  wf := dot_S1024x1024x128_S128x32_S1024x1024x32_2_0_01_1_n_n_wf
def dot_S1024x1024x32_S32x1_S1024x1024x1_2_0_01_1_n_n : DotDims S1024x1024x32 S32x1 S1024x1024x1 where
  lhsContracting := [2]
  rhsContracting := [0]
  lhsNonContracting := [0, 1]
  rhsNonContracting := [1]
  lhsBatch := []
  rhsBatch := []
  wf := dot_S1024x1024x32_S32x1_S1024x1024x1_2_0_01_1_n_n_wf

class Facts : Prop extends Facts₀ where

variable [Facts]
-- ==== Proof.BitsStaging.lean ====
/- The staging vocabulary of the frame run of the kernel program: per TensorCore region,
   at a parameter `V` (the core's buffer contents when the region is entered), every window's block at a grid
   point, the closed form of what the body leaves in the output window's staging buffer, and the pipeline's
   proof data; then the buffer contents at every boundary of @main as a fold from the launch memory.
   Definitions and their projections only: nothing here runs a body. -/
import proofs.«156606_j7370163880501_2_alg».proof.Proof.Gen.Kernel.Launch
import proofs.«156606_j7370163880501_2_alg».proof.Proof.Gen.Kernel.Skeleton
import proofs.«156606_j7370163880501_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the TensorCore's buffer contents when a region is entered
variable (V : (c : Dev nD) → (b : Ref sig .tc) → Buf (Elt F) ((c : Thread nD τ).loc b))

/-! # Region 0: the projection kernel (grid 2; six input windows, one output window) -/

/-- Window `w`'s block at grid point `t`: the part of the window's array, as the region finds it, that the window's
    index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body accesses: every load and the one store span a whole staging buffer. -/
abbrev r0_0 : Rect S1x1024x256 := Rect.unit (s := S1x1024x256) ![0, 0, 0] S1x1024x256.size inb_S1x1024x256_S1x1024x256_0_0_0
abbrev r0_1 : Rect S256x256 := Rect.unit (s := S256x256) ![0, 0] S256x256.size inb_S256x256_S256x256_0_0
abbrev r0_2 : Rect S256 := Rect.unit (s := S256) ![0] S256.size inb_S256_S256_0
abbrev r0_3 : Rect S256x128 := Rect.unit (s := S256x128) ![0, 0] S256x128.size inb_S256x128_S256x128_0_0
abbrev r0_4 : Rect S128 := Rect.unit (s := S128) ![0] S128.size inb_S128_S128_0
abbrev r0_5 : Rect S128x32 := Rect.unit (s := S128x32) ![0, 0] S128x32.size inb_S128x32_S128x32_0_0
abbrev r0_6 : Rect S1x1024x32 := Rect.unit (s := S1x1024x32) ![0, 0, 0] S1x1024x32.size inb_S1x1024x32_S1x1024x32_0_0_0

/-- What the body leaves in the output window's staging buffer, as a function of the six input blocks: its one
    store spans the whole buffer, and its payload is the three-layer projection of the loaded blocks. -/
def out0_6 (x0 : Vec F S1x1024x256 .f32) (x1 : Vec F S256x256 .f32) (x2 : Vec F S256 .f32) (x3 : Vec F S256x128 .f32)
    (x4 : Vec F S128 .f32) (x5 : Vec F S128x32 .f32) : Vec F S1x1024x32 .f32 :=
  View.canon [⟨r0_6, k0_pay1 (View.ld x0 r0_0) (View.ld x1 r0_1) (View.ld x2 r0_2) (View.ld x3 r0_3) (View.ld x4 r0_4) (View.ld x5 r0_5)⟩]

/-- The proof data of pipeline 0 on core `c`: the arrays as the region finds them; after the body at point `t` each
    input's buffer still at its block and the output's at `out0_6` of the input blocks; the invariant carries the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

/-! # Region 1: the pairwise kernel (grid 4x4; five input windows, one output window) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body accesses: every load and the one store span a whole staging buffer. -/
abbrev r1_0 : Rect S256x32 := Rect.unit (s := S256x32) ![0, 0] S256x32.size inb_S256x32_S256x32_0_0
abbrev r1_1 : Rect S32x256 := Rect.unit (s := S32x256) ![0, 0] S32x256.size inb_S32x256_S32x256_0_0
abbrev r1_2 : Rect S32 := Rect.unit (s := S32) ![0] S32.size inb_S32_S32_0
abbrev r1_3 : Rect S32 := Rect.unit (s := S32) ![0] S32.size inb_S32_S32_0
abbrev r1_4 : Rect S1 := Rect.unit (s := S1) ![0] S1.size inb_S1_S1_0
abbrev r1_5 : Rect S256x256 := Rect.unit (s := S256x256) ![0, 0] S256x256.size inb_S256x256_S256x256_0_0

/-- The value the body stores, as a function of its five loads in window order: `x0` the row block (256x32), `x1`
    the transposed column block (32x256), `x2` the bias (32), `x3` the last layer's weights (32), `x4` the last
    bias (1). The printed body's chain of partial sums over the 32 features, part after part, each part's named
    results feeding the next, then the addition of the last bias. -/
def pay1_5 (x0 : Vec F S256x32 .f32) (x1 : Vec F S32x256 .f32) (x2 x3 : Vec F S32 .f32) (x4 : Vec F S1 .f32) : FVec F S256x256 .f32 :=
  have v1 := k1_pay2 x0; have v3 := k1_pay3 x1; have v4 := x2; have v6 := k1_pay4 x3; have v8 := k1_pay5 x4
  have v41 := k1_pay6 x0 x1 x2 x3; have v46 := k1_pay7 x0 x1; have v47 := k1_pay8 x2
  have v89 := k1_pay9 v1 v3 v4 v6 v41 v46 v47; have v102 := k1_pay10 v1 v3 v4; have v103 := k1_pay11 v6
  have v153 := k1_pay12 v1 v3 v4 v6 v89 v102 v103; have v158 := k1_pay13 v1 v3; have v160 := k1_pay14 v4
  have v201 := k1_pay15 v1 v3 v4 v6 v153 v158 v160; have v216 := k1_pay16 v1 v3 v4 v6
  have v265 := k1_pay17 v1 v3 v4 v6 v201 v216; have v270 := k1_pay18 v1 v3; have v273 := k1_pay19 v4
  have v329 := k1_pay20 v1 v3 v4 v6 v265 v270 v273
  have v377 := k1_pay21 v1 v3 v4 v6 v329; have v386 := k1_pay22 v1 v3 v4
  have v441 := k1_pay23 v1 v3 v4 v6 v377 v386; have v442 := k1_pay24 v1
  have v489 := k1_pay25 v1 v3 v4 v6 v441 v442; have v498 := k1_pay26 v1 v3 v4; have v499 := k1_pay27 v6
  k1_pay1 v1 v3 v4 v6 v8 v489 v498 v499

/-- What the body leaves in the output window's staging buffer, as a function of the five input blocks: its one
    store spans the whole buffer, its payload `pay1_5` of the loaded blocks. -/
def out1_5 (x0 : Vec F S256x32 .f32) (x1 : Vec F S32x256 .f32) (x2 : Vec F S32 .f32) (x3 : Vec F S32 .f32) (x4 : Vec F S1 .f32) :
    Vec F S256x256 .f32 :=
  View.canon [⟨r1_5, pay1_5 (View.ld x0 r1_0) (View.ld x1 r1_1) (View.ld x2 r1_2) (View.ld x3 r1_3) (View.ld x4 r1_4)⟩]

/-- The proof data of pipeline 1 on core `c`: the arrays as the region finds them; after the body at point `t` each
    input's buffer still at its block and the output's at `out1_5` of the input blocks; the invariant carries the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

end Regions

/-! # The buffer contents at each boundary of @main: a fold from the launch memory -/

variable (m : (ℓ : Loc nD τ sig) → Buf (Elt F) ℓ)

/-- Core `c`'s buffers at launch. -/
abbrev X0 (c : Dev nD) : Valuation τ sig (Elt F) := fun b => m ((c : Dev nD), b)
/-- After the first stretch of host operations: what region 0 is entered from. -/
abbrev X1 (c : Dev nD) : Valuation τ sig (Elt F) := StableHlo.after hostOps0 (X0 m c)
/-- Region 0's entry contents, read at the TensorCore's references. -/
abbrev E0 (c : Dev nD) : (b : Ref sig .tc) → Buf (Elt F) ((c : Thread nD τ).loc b) :=
  fun b => StableHlo.after hostOps0 (fun b => m ((c : Dev nD), b)) (Proc.devRef .tc b)
/-- At region 0's exit: its windows' arrays at what the pipeline leaves (an input as entered, the output with every
    point's write-back folded in), every other buffer as entered. -/
def X2 (c : Dev nD) : Valuation τ sig (Elt F) :=
  Pipeline.withArrays spec0 c (StableHlo.after hostOps0 (fun b => m ((c : Dev nD), b))) fun w => (dat0 (E0 m) c).arrAt w cfg0.N
theorem X2_arr (c : Dev nD) (w : Fin cfg0.W) :
    X2 m c (Proc.devRef .tc (Pipeline.arrRef spec0 w)) = (dat0 (E0 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- After the second stretch of host operations: what region 1 is entered from. -/
abbrev X3 (c : Dev nD) : Valuation τ sig (Elt F) := StableHlo.after hostOps1 (X2 m c)
/-- Region 1's entry contents, read at the TensorCore's references. -/
abbrev E1 (c : Dev nD) : (b : Ref sig .tc) → Buf (Elt F) ((c : Thread nD τ).loc b) :=
  fun b => StableHlo.after hostOps1 (X2 m c) (Proc.devRef .tc b)
/-- At region 1's exit, which is @main's end: its windows' arrays at what the pipeline leaves, every other buffer
    as entered. -/
def Xend (c : Dev nD) : Valuation τ sig (Elt F) :=
  Pipeline.withArrays spec1 c (StableHlo.after hostOps1 (X2 m c)) fun w => (dat1 (E1 m) c).arrAt w cfg1.N
theorem Xend_arr (c : Dev nD) (w : Fin cfg1.W) :
    Xend m c (Proc.devRef .tc (Pipeline.arrRef spec1 w)) = (dat1 (E1 m) c).arrAt w cfg1.N := by
  unfold Xend; exact Pipeline.withArrays_arr spec1 launch1.win.arr_inj c _ _ w
theorem Xend_of_ne (c : Dev nD) (b : Ref sig .tc) (hb : ∀ w, Pipeline.arrRef spec1 w ≠ b) :
    Xend m c (Proc.devRef .tc b) = X3 m c (Proc.devRef .tc b) := by
  unfold Xend; exact Pipeline.withArrays_of_ne spec1 c _ _ b hb

/-! # The proof data family -/

/-- No pipeline has a prefetched table. -/
abbrev adm : (p : Fin 2) → (pcfgs (F := F) p).Adm := fun p => (cfgs p).toPCfg_adm
/-- Every pipeline's proof data, each at its region's entry contents: a literal match, so that the family at a
    numeral reduces to that region's data. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

end Cert.Kernel.Fr

end
-- ==== Proof.BitsBody0.lean ====
/- Region 0 of the kernel program (the projection kernel): the body's triple on whole staging
   buffers, what every input buffer holds when the body is called, and the pipeline's body obligation at every
   grid point. -/
import proofs.«156606_j7370163880501_2_alg».proof.Proof.BitsStaging

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds the window's block at every point, whether or not the pipeline
    fetched it there (an unfetched point has the block index of the point before), for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds the window's block at every point, whether or not the pipeline
    fetched it there (an unfetched point has the block index of the point before), for any proof data whose array is
    the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds the window's block at every point, whether or not the pipeline
    fetched it there (an unfetched point has the block index of the point before), for any proof data whose array is
    the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds the window's block at every point, whether or not the pipeline
    fetched it there (an unfetched point has the block index of the point before), for any proof data whose array is
    the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds the window's block at every point, whether or not the pipeline
    fetched it there (an unfetched point has the block index of the point before), for any proof data whose array is
    the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds the window's block at every point, whether or not the pipeline
    fetched it there (an unfetched point has the block index of the point before), for any proof data whose array is
    the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The one store spans the output buffer -/

/-- The store's rectangle is the whole buffer, so it covers every index. -/
theorem cover0_6 (p0 : Vec F S1x1024x32 .f32) (y : S1x1024x32.Idx) :
    ∃ pc ∈ ([⟨r0_6, p0⟩] : List (View.Piece (Elt F) S1x1024x32 .f32)), y ∈ pc.1.set :=
  View.cover_of_tiled [⟨r0_6, p0⟩] S1x1024x32.size (by rfl) y

/-! ## The body's triple -/

set_option maxHeartbeats 1000000 in
/-- The body on whole staging buffers — the six inputs' reading `x0 … x5`, the output's holding anything — runs
    without fault to its continuation, the inputs' buffers as they were and the output's reading `out0_6` of the
    inputs: it loads each input whole, loads the output buffer once (the value is never used: owning the buffer at
    some contents is all that load needs), and stores the projection's value over the whole output buffer. -/
theorem sound_kernel0 (c : Dev nD) (E : Set ℕ) (i : grid0.Coords)
    (arg0 : Memref sig .tc .vmem S1x1024x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128x32 .f32) (harg5 : arg5.IsWhole) (arg6 : Memref sig .tc .vmem S1x1024x32 .f32) (harg6 : arg6.IsWhole)
    (x0 : Vec F S1x1024x256 .f32) (x1 : Vec F S256x256 .f32) (x2 : Vec F S256 .f32) (x3 : Vec F S256x128 .f32) (x4 : Vec F S128 .f32) (x5 : Vec F S128x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__project_kernel i arg0 harg0 arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`: the invariant, the core's debts, and every window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input's buffer holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.BitsBody1.lean ====
/- Region 1 of the kernel program (the pairwise kernel): the body's triple on whole staging
   buffers, what every input buffer holds when the body is called, and the pipeline's body obligation at every
   grid point. -/
import proofs.«156606_j7370163880501_2_alg».proof.Proof.BitsStaging

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds the window's block at every point, whether or not the pipeline
    fetched it there (an unfetched point has the block index of the point before), for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds the window's block at every point, whether or not the pipeline
    fetched it there (an unfetched point has the block index of the point before), for any proof data whose array is
    the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds the window's block at every point, whether or not the pipeline
    fetched it there (an unfetched point has the block index of the point before), for any proof data whose array is
    the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds the window's block at every point, whether or not the pipeline
    fetched it there (an unfetched point has the block index of the point before), for any proof data whose array is
    the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds the window's block at every point, whether or not the pipeline
    fetched it there (an unfetched point has the block index of the point before), for any proof data whose array is
    the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The one store spans the output buffer -/

/-- The store's rectangle is the whole buffer, so it covers every index. -/
theorem cover1_5 (p0 : Vec F S256x256 .f32) (y : S256x256.Idx) :
    ∃ pc ∈ ([⟨r1_5, p0⟩] : List (View.Piece (Elt F) S256x256 .f32)), y ∈ pc.1.set :=
  View.cover_of_tiled [⟨r1_5, p0⟩] S256x256.size (by rfl) y

/-! ## The body's triple -/

set_option maxHeartbeats 4000000 in
/-- The body on whole staging buffers — the five inputs' reading `x0 … x4`, the output's holding anything — runs
    without fault to its continuation, the inputs' buffers as they were and the output's reading `out1_5` of the
    inputs: its first part loads each input whole, the later parts only compute, and at the end it loads the output
    buffer once (the value is never used: owning the buffer at some contents is all that load needs) and stores the
    accumulated value over the whole output buffer. -/
theorem sound_kernel1 (c : Dev nD) (E : Set ℕ) (i : grid1.Coords)
    (arg0 : Memref sig .tc .vmem S256x32 .f32) (harg0 : arg0.IsWhole) (arg1 : Memref sig .tc .vmem S32x256 .f32) (harg1 : arg1.IsWhole) (arg2 : Memref sig .tc .vmem S32 .f32) (harg2 : arg2.IsWhole) (arg3 : Memref sig .tc .vmem S32 .f32) (harg3 : arg3.IsWhole) (arg4 : Memref sig .tc .vmem S1 .f32) (harg4 : arg4.IsWhole) (arg5 : Memref sig .tc .vmem S256x256 .f32) (harg5 : arg5.IsWhole)
    (x0 : Vec F S256x32 .f32) (x1 : Vec F S32x256 .f32) (x2 : Vec F S32 .f32) (x3 : Vec F S32 .f32) (x4 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__pair_kernel i arg0 harg0 arg1 harg1 arg2 harg2 arg3 harg3 arg4 harg4 arg5 harg5) K := by
  simp only [cc1__pair_kernel_eq_skeleton]; unfold cc1__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`: the invariant, the core's debts, and every window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's buffer holds its block, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.BitsRun.lean ====
/- The frame run of the kernel program: @main as four segments — the first stretch of host
   operations, the projection region, the second stretch, the pairwise region — composed by the library's launch
   over segments; every unscoped buffer's final contents named (`Xend`), and each argument array read back through
   the fold to its launch contents. -/
import proofs.«156606_j7370163880501_2_alg».proof.Proof.BitsBody0
import proofs.«156606_j7370163880501_2_alg».proof.Proof.BitsBody1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundary contents read at the TensorCore's references -/

/-- Region 0's exit contents. -/
abbrev V2 (c : Dev nD) : (b : Ref sig .tc) → Buf (Elt F) ((c : Thread nD τ).loc b) := fun b => X2 m c (Proc.devRef .tc b)
/-- Region 1's exit contents. -/
abbrev V4 (c : Dev nD) : (b : Ref sig .tc) → Buf (Elt F) ((c : Thread nD τ).loc b) := fun b => Xend m c (Proc.devRef .tc b)

/-- At a region's exit each of its arrays holds what the pipeline leaves, and every other buffer what it held at
    entry. -/
theorem hF0 (c : Dev nD) (w : Fin cfg0.W) : (dat0 (E0 m) c).arrAt w cfg0.N = V2 m c (Pipeline.arrRef spec0 w) :=
  (X2_arr m c w).symm
theorem hrest0 (c : Dev nD) : ∀ b, b ∉ Finset.univ.image (Pipeline.arrRef spec0) → V2 m c b = E0 m c b :=
  fun b hb => X2_of_ne m c b fun w e => hb (Finset.mem_image.mpr ⟨w, Finset.mem_univ _, e⟩)
theorem hF1 (c : Dev nD) (w : Fin cfg1.W) : (dat1 (E1 m) c).arrAt w cfg1.N = V4 m c (Pipeline.arrRef spec1 w) :=
  (Xend_arr m c w).symm
theorem hrest1 (c : Dev nD) : ∀ b, b ∉ Finset.univ.image (Pipeline.arrRef spec1) → V4 m c b = E1 m c b :=
  fun b hb => Xend_of_ne m c b fun w e => hb (Finset.mem_image.mpr ⟨w, Finset.mem_univ _, e⟩)

/-! ## No host operation writes an argument -/

/-- Every buffer the first stretch writes: each operation's result, in order. -/
def wr0 : List (Ref sig .tc) := [main_v0, main_v1, main_v2, main_v3, main_v4, main_v5, main_c, main_v6, main_v7, main_c_0, main_v8, main_v9, main_v10, main_c_1, main_c_2, main_v11, main_c_3, main_c_4, main_v12, main_c_5, main_v13, main_c_6, main_v14, main_v15, main_c_7, main_v16, main_v17, main_v18, main_c_8, main_v19, main_v20, main_c_9, main_v21, main_v22, main_v23, main_v24, main_v25, main_v26, main_v27, main_v28, main_v29, main_v30, main_v31, main_v32, main_v33, main_v34, main_v35, main_v36, main_c_10, main_v37, main_v38, main_c_11, main_v39, main_v40, main_v41, main_c_12, main_c_13, main_v42, main_c_14, main_c_15, main_v43, main_c_16, main_v44, main_c_17, main_v45, main_v46, main_c_18, main_v47, main_v48, main_v49, main_c_19, main_v50, main_v51, main_c_20, main_v52, main_v53, main_v54, main_v55, main_v56, main_v57, main_v58, main_v59, main_v60, main_v61, main_v62, main_v63, main_v64]
/-- Every buffer the second stretch writes. -/
def wr1 : List (Ref sig .tc) := [main_v66, main_v67, main_v68, main_v69, main_v70, main_v71]

set_option maxHeartbeats 4000000 in
/-- Each operation of the first stretch writes its one result, which the list holds. -/
theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- Each operation of the second stretch writes its one result, which the list holds. -/
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-! ## The arguments end as launched

No host operation writes an argument and no region writes one: a region reads an argument through an input window,
whose array the pipeline leaves as entered, or does not touch it at all. So the fold at an argument's buffer walks
back to the launch memory. -/

theorem Xend_main_arg0 (c : Dev nD) : Xend m c (Proc.devRef .tc main_arg0) = m ((c : Thread nD τ).loc main_arg0) :=
  calc Xend m c (Proc.devRef .tc main_arg0)
    _ = X3 m c (Proc.devRef .tc main_arg0) := Xend_of_ne m c main_arg0 (by decide)
    _ = X2 m c (Proc.devRef .tc main_arg0) := StableHlo.after_of_writes_sub (r := main_arg0) _ _ hostOps1_writes (by decide)
    _ = X1 m c (Proc.devRef .tc main_arg0) := X2_of_ne m c main_arg0 (by decide)
    _ = X0 m c (Proc.devRef .tc main_arg0) := StableHlo.after_of_writes_sub (r := main_arg0) _ _ hostOps0_writes (by decide)
    _ = m ((c : Thread nD τ).loc main_arg0) := rfl

theorem Xend_main_arg1 (c : Dev nD) : Xend m c (Proc.devRef .tc main_arg1) = m ((c : Thread nD τ).loc main_arg1) :=
  calc Xend m c (Proc.devRef .tc main_arg1)
    _ = X3 m c (Proc.devRef .tc main_arg1) := Xend_of_ne m c main_arg1 (by decide)
    _ = X2 m c (Proc.devRef .tc main_arg1) := StableHlo.after_of_writes_sub (r := main_arg1) _ _ hostOps1_writes (by decide)
    _ = X1 m c (Proc.devRef .tc main_arg1) := X2_of_ne m c main_arg1 (by decide)
    _ = X0 m c (Proc.devRef .tc main_arg1) := StableHlo.after_of_writes_sub (r := main_arg1) _ _ hostOps0_writes (by decide)
    _ = m ((c : Thread nD τ).loc main_arg1) := rfl

theorem Xend_main_arg2 (c : Dev nD) : Xend m c (Proc.devRef .tc main_arg2) = m ((c : Thread nD τ).loc main_arg2) :=
  calc Xend m c (Proc.devRef .tc main_arg2)
    _ = X3 m c (Proc.devRef .tc main_arg2) := Xend_of_ne m c main_arg2 (by decide)
    _ = X2 m c (Proc.devRef .tc main_arg2) := StableHlo.after_of_writes_sub (r := main_arg2) _ _ hostOps1_writes (by decide)
    _ = X1 m c (Proc.devRef .tc main_arg2) := X2_of_ne m c main_arg2 (by decide)
    _ = X0 m c (Proc.devRef .tc main_arg2) := StableHlo.after_of_writes_sub (r := main_arg2) _ _ hostOps0_writes (by decide)
    _ = m ((c : Thread nD τ).loc main_arg2) := rfl

theorem Xend_main_arg3 (c : Dev nD) : Xend m c (Proc.devRef .tc main_arg3) = m ((c : Thread nD τ).loc main_arg3) :=
  calc Xend m c (Proc.devRef .tc main_arg3)
    _ = X3 m c (Proc.devRef .tc main_arg3) := Xend_of_ne m c main_arg3 (by decide)
    _ = X2 m c (Proc.devRef .tc main_arg3) := StableHlo.after_of_writes_sub (r := main_arg3) _ _ hostOps1_writes (by decide)
    _ = X1 m c (Proc.devRef .tc main_arg3) := (X2_arr m c 1).trans (((dat0 (E0 m) c).arrAt_in 1 rfl _).trans (A_eq0 (E0 m) c 1))
    _ = X0 m c (Proc.devRef .tc main_arg3) := StableHlo.after_of_writes_sub (r := main_arg3) _ _ hostOps0_writes (by decide)
    _ = m ((c : Thread nD τ).loc main_arg3) := rfl

theorem Xend_main_arg4 (c : Dev nD) : Xend m c (Proc.devRef .tc main_arg4) = m ((c : Thread nD τ).loc main_arg4) :=
  calc Xend m c (Proc.devRef .tc main_arg4)
    _ = X3 m c (Proc.devRef .tc main_arg4) := Xend_of_ne m c main_arg4 (by decide)
    _ = X2 m c (Proc.devRef .tc main_arg4) := StableHlo.after_of_writes_sub (r := main_arg4) _ _ hostOps1_writes (by decide)
    _ = X1 m c (Proc.devRef .tc main_arg4) := (X2_arr m c 2).trans (((dat0 (E0 m) c).arrAt_in 2 rfl _).trans (A_eq0 (E0 m) c 2))
    _ = X0 m c (Proc.devRef .tc main_arg4) := StableHlo.after_of_writes_sub (r := main_arg4) _ _ hostOps0_writes (by decide)
    _ = m ((c : Thread nD τ).loc main_arg4) := rfl

theorem Xend_main_arg5 (c : Dev nD) : Xend m c (Proc.devRef .tc main_arg5) = m ((c : Thread nD τ).loc main_arg5) :=
  calc Xend m c (Proc.devRef .tc main_arg5)
    _ = X3 m c (Proc.devRef .tc main_arg5) := Xend_of_ne m c main_arg5 (by decide)
    _ = X2 m c (Proc.devRef .tc main_arg5) := StableHlo.after_of_writes_sub (r := main_arg5) _ _ hostOps1_writes (by decide)
    _ = X1 m c (Proc.devRef .tc main_arg5) := (X2_arr m c 3).trans (((dat0 (E0 m) c).arrAt_in 3 rfl _).trans (A_eq0 (E0 m) c 3))
    _ = X0 m c (Proc.devRef .tc main_arg5) := StableHlo.after_of_writes_sub (r := main_arg5) _ _ hostOps0_writes (by decide)
    _ = m ((c : Thread nD τ).loc main_arg5) := rfl

theorem Xend_main_arg6 (c : Dev nD) : Xend m c (Proc.devRef .tc main_arg6) = m ((c : Thread nD τ).loc main_arg6) :=
  calc Xend m c (Proc.devRef .tc main_arg6)
    _ = X3 m c (Proc.devRef .tc main_arg6) := Xend_of_ne m c main_arg6 (by decide)
    _ = X2 m c (Proc.devRef .tc main_arg6) := StableHlo.after_of_writes_sub (r := main_arg6) _ _ hostOps1_writes (by decide)
    _ = X1 m c (Proc.devRef .tc main_arg6) := (X2_arr m c 4).trans (((dat0 (E0 m) c).arrAt_in 4 rfl _).trans (A_eq0 (E0 m) c 4))
    _ = X0 m c (Proc.devRef .tc main_arg6) := StableHlo.after_of_writes_sub (r := main_arg6) _ _ hostOps0_writes (by decide)
    _ = m ((c : Thread nD τ).loc main_arg6) := rfl

theorem Xend_main_arg7 (c : Dev nD) : Xend m c (Proc.devRef .tc main_arg7) = m ((c : Thread nD τ).loc main_arg7) :=
  calc Xend m c (Proc.devRef .tc main_arg7)
    _ = X3 m c (Proc.devRef .tc main_arg7) := Xend_of_ne m c main_arg7 (by decide)
    _ = X2 m c (Proc.devRef .tc main_arg7) := StableHlo.after_of_writes_sub (r := main_arg7) _ _ hostOps1_writes (by decide)
    _ = X1 m c (Proc.devRef .tc main_arg7) := (X2_arr m c 5).trans (((dat0 (E0 m) c).arrAt_in 5 rfl _).trans (A_eq0 (E0 m) c 5))
    _ = X0 m c (Proc.devRef .tc main_arg7) := StableHlo.after_of_writes_sub (r := main_arg7) _ _ hostOps0_writes (by decide)
    _ = m ((c : Thread nD τ).loc main_arg7) := rfl

theorem Xend_main_arg8 (c : Dev nD) : Xend m c (Proc.devRef .tc main_arg8) = m ((c : Thread nD τ).loc main_arg8) :=
  calc Xend m c (Proc.devRef .tc main_arg8)
    _ = X3 m c (Proc.devRef .tc main_arg8) := (Xend_arr m c 2).trans (((dat1 (E1 m) c).arrAt_in 2 rfl _).trans (A_eq1 (E1 m) c 2))
    _ = X2 m c (Proc.devRef .tc main_arg8) := StableHlo.after_of_writes_sub (r := main_arg8) _ _ hostOps1_writes (by decide)
    _ = X1 m c (Proc.devRef .tc main_arg8) := X2_of_ne m c main_arg8 (by decide)
    _ = X0 m c (Proc.devRef .tc main_arg8) := StableHlo.after_of_writes_sub (r := main_arg8) _ _ hostOps0_writes (by decide)
    _ = m ((c : Thread nD τ).loc main_arg8) := rfl

theorem Xend_main_arg9 (c : Dev nD) : Xend m c (Proc.devRef .tc main_arg9) = m ((c : Thread nD τ).loc main_arg9) :=
  calc Xend m c (Proc.devRef .tc main_arg9)
    _ = X3 m c (Proc.devRef .tc main_arg9) := Xend_of_ne m c main_arg9 (by decide)
    _ = X2 m c (Proc.devRef .tc main_arg9) := StableHlo.after_of_writes_sub (r := main_arg9) _ _ hostOps1_writes (by decide)
    _ = X1 m c (Proc.devRef .tc main_arg9) := X2_of_ne m c main_arg9 (by decide)
    _ = X0 m c (Proc.devRef .tc main_arg9) := StableHlo.after_of_writes_sub (r := main_arg9) _ _ hostOps0_writes (by decide)
    _ = m ((c : Thread nD τ).loc main_arg9) := rfl

theorem Xend_main_arg10 (c : Dev nD) : Xend m c (Proc.devRef .tc main_arg10) = m ((c : Thread nD τ).loc main_arg10) :=
  calc Xend m c (Proc.devRef .tc main_arg10)
    _ = X3 m c (Proc.devRef .tc main_arg10) := (Xend_arr m c 4).trans (((dat1 (E1 m) c).arrAt_in 4 rfl _).trans (A_eq1 (E1 m) c 4))
    _ = X2 m c (Proc.devRef .tc main_arg10) := StableHlo.after_of_writes_sub (r := main_arg10) _ _ hostOps1_writes (by decide)
    _ = X1 m c (Proc.devRef .tc main_arg10) := X2_of_ne m c main_arg10 (by decide)
    _ = X0 m c (Proc.devRef .tc main_arg10) := StableHlo.after_of_writes_sub (r := main_arg10) _ _ hostOps0_writes (by decide)
    _ = m ((c : Thread nD τ).loc main_arg10) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's effect on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (Xend m c) ∗ ∃ r, prngReg c r)

/-! ## The regions as segments -/

set_option backward.isDefEq.respectTransparency.types false in
/-- Region 0 over the thread state: entered with every unscoped buffer at the contents of the boundary before it,
    left with them at the contents of the boundary after it. Its windows' arrays are split out of the unscoped
    buffers at entry and put back at exit at what the pipeline leaves; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of the boundary before it,
    left with them at the contents of the boundary after it. Its windows' arrays are split out of the unscoped
    buffers at entry and put back at exit at what the pipeline leaves; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m) ]

set_option maxHeartbeats 40000000 in
/-- @main is the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and in every final state every unscoped buffer of every core holds
    `Xend`. -/
theorem run_all : θ_run defs (onTc (τ := τ) (main (F := F))) ⟨m, fun _ => 0, ρ⟩
    (fun r => ∀ c : Dev nD, ∀ b ∈ Pipeline.ucRefs τ sig, r.2.mem ((c : Thread nD τ).1, b) = Xend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Xend m c b)
    (hfin := fun c s' => by
      iintro ⟨⟨Hh, -⟩, HSI⟩
      unfold StableHlo.held
      imodintro
      iapply (pointsTo_read_all (Pipeline.ucRefs τ sig) (fun b => (((c : Thread nD τ)).1, b)) (Xend m c) s')
      isplitl [Hh] <;> iassumption)
    (hQ := fun s h => h)

/-- THE FRAME: the frame claim's statement at any float instance — every weakly fair execution of @main terminates,
    nothing faulting, and every final state has the eleven argument arrays as launched: each is an unscoped buffer,
    so the run's post reads it, and the fold at it walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (Xend_main_arg0 m c),
      (h c _ (mem_uc main_arg1 (by decide))).trans (Xend_main_arg1 m c),
      (h c _ (mem_uc main_arg2 (by decide))).trans (Xend_main_arg2 m c),
      (h c _ (mem_uc main_arg3 (by decide))).trans (Xend_main_arg3 m c),
      (h c _ (mem_uc main_arg4 (by decide))).trans (Xend_main_arg4 m c),
      (h c _ (mem_uc main_arg5 (by decide))).trans (Xend_main_arg5 m c),
      (h c _ (mem_uc main_arg6 (by decide))).trans (Xend_main_arg6 m c),
      (h c _ (mem_uc main_arg7 (by decide))).trans (Xend_main_arg7 m c),
      (h c _ (mem_uc main_arg8 (by decide))).trans (Xend_main_arg8 m c),
      (h c _ (mem_uc main_arg9 (by decide))).trans (Xend_main_arg9 m c),
      (h c _ (mem_uc main_arg10 (by decide))).trans (Xend_main_arg10 m c)⟩) (run_all m ρ)

end Cert.Kernel.Fr

end
-- ==== Proof.IdealStaging.lean ====
/- The staging vocabulary of the frame run of the idealized kernel program: per TensorCore region,
   at a parameter `V` (the core's buffer contents when the region is entered), every window's block at a grid
   point, the closed form of what the body leaves in the output window's staging buffer, and the pipeline's
   proof data; then the buffer contents at every boundary of @main as a fold from the launch memory.
   Definitions and their projections only: nothing here runs a body. -/
import proofs.«156606_j7370163880501_2_alg».proof.Proof.Gen.KernelIdeal.Launch
import proofs.«156606_j7370163880501_2_alg».proof.Proof.Gen.KernelIdeal.Skeleton
import proofs.«156606_j7370163880501_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the TensorCore's buffer contents when a region is entered
variable (V : (c : Dev nD) → (b : Ref sig .tc) → Buf (Elt F) ((c : Thread nD τ).loc b))

/-! # Region 0: the projection kernel (grid 2; six input windows, one output window) -/

/-- Window `w`'s block at grid point `t`: the part of the window's array, as the region finds it, that the window's
    index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangles the body accesses: every load and the one store span a whole staging buffer. -/
abbrev r0_0 : Rect S1x1024x256 := Rect.unit (s := S1x1024x256) ![0, 0, 0] S1x1024x256.size inb_S1x1024x256_S1x1024x256_0_0_0
abbrev r0_1 : Rect S256x256 := Rect.unit (s := S256x256) ![0, 0] S256x256.size inb_S256x256_S256x256_0_0
abbrev r0_2 : Rect S256 := Rect.unit (s := S256) ![0] S256.size inb_S256_S256_0
abbrev r0_3 : Rect S256x128 := Rect.unit (s := S256x128) ![0, 0] S256x128.size inb_S256x128_S256x128_0_0
abbrev r0_4 : Rect S128 := Rect.unit (s := S128) ![0] S128.size inb_S128_S128_0
abbrev r0_5 : Rect S128x32 := Rect.unit (s := S128x32) ![0, 0] S128x32.size inb_S128x32_S128x32_0_0
abbrev r0_6 : Rect S1x1024x32 := Rect.unit (s := S1x1024x32) ![0, 0, 0] S1x1024x32.size inb_S1x1024x32_S1x1024x32_0_0_0

/-- What the body leaves in the output window's staging buffer, as a function of the six input blocks: its one
    store spans the whole buffer, and its payload is the three-layer projection of the loaded blocks. -/
def out0_6 (x0 : Vec F S1x1024x256 .f32) (x1 : Vec F S256x256 .f32) (x2 : Vec F S256 .f32) (x3 : Vec F S256x128 .f32)
    (x4 : Vec F S128 .f32) (x5 : Vec F S128x32 .f32) : Vec F S1x1024x32 .f32 :=
  View.canon [⟨r0_6, k0_pay1 (View.ld x0 r0_0) (View.ld x1 r0_1) (View.ld x2 r0_2) (View.ld x3 r0_3) (View.ld x4 r0_4) (View.ld x5 r0_5)⟩]

/-- The proof data of pipeline 0 on core `c`: the arrays as the region finds them; after the body at point `t` each
    input's buffer still at its block and the output's at `out0_6` of the input blocks; the invariant carries the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

/-! # Region 1: the pairwise kernel (grid 4x4; five input windows, one output window) -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body accesses: every load and the one store span a whole staging buffer. -/
abbrev r1_0 : Rect S256x32 := Rect.unit (s := S256x32) ![0, 0] S256x32.size inb_S256x32_S256x32_0_0
abbrev r1_1 : Rect S32x256 := Rect.unit (s := S32x256) ![0, 0] S32x256.size inb_S32x256_S32x256_0_0
abbrev r1_2 : Rect S32 := Rect.unit (s := S32) ![0] S32.size inb_S32_S32_0
abbrev r1_3 : Rect S32 := Rect.unit (s := S32) ![0] S32.size inb_S32_S32_0
abbrev r1_4 : Rect S1 := Rect.unit (s := S1) ![0] S1.size inb_S1_S1_0
abbrev r1_5 : Rect S256x256 := Rect.unit (s := S256x256) ![0, 0] S256x256.size inb_S256x256_S256x256_0_0

/-- The value the body stores, as a function of its five loads in window order: `x0` the row block (256x32), `x1`
    the transposed column block (32x256), `x2` the bias (32), `x3` the last layer's weights (32), `x4` the last
    bias (1). The printed body's chain of partial sums over the 32 features, part after part, each part's named
    results feeding the next, then the addition of the last bias. -/
def pay1_5 (x0 : Vec F S256x32 .f32) (x1 : Vec F S32x256 .f32) (x2 x3 : Vec F S32 .f32) (x4 : Vec F S1 .f32) : FVec F S256x256 .f32 :=
  have v1 := k1_pay2 x0; have v3 := k1_pay3 x1; have v4 := x2; have v6 := k1_pay4 x3; have v8 := k1_pay5 x4
  have v41 := k1_pay6 x0 x1 x2 x3; have v46 := k1_pay7 x0 x1; have v47 := k1_pay8 x2
  have v89 := k1_pay9 v1 v3 v4 v6 v41 v46 v47; have v102 := k1_pay10 v1 v3 v4; have v103 := k1_pay11 v6
  have v153 := k1_pay12 v1 v3 v4 v6 v89 v102 v103; have v158 := k1_pay13 v1 v3; have v160 := k1_pay14 v4
  have v201 := k1_pay15 v1 v3 v4 v6 v153 v158 v160; have v216 := k1_pay16 v1 v3 v4 v6
  have v265 := k1_pay17 v1 v3 v4 v6 v201 v216; have v270 := k1_pay18 v1 v3; have v273 := k1_pay19 v4
  have v329 := k1_pay20 v1 v3 v4 v6 v265 v270 v273
  have v377 := k1_pay21 v1 v3 v4 v6 v329; have v386 := k1_pay22 v1 v3 v4
  have v441 := k1_pay23 v1 v3 v4 v6 v377 v386; have v442 := k1_pay24 v1
  have v489 := k1_pay25 v1 v3 v4 v6 v441 v442; have v498 := k1_pay26 v1 v3 v4; have v499 := k1_pay27 v6
  k1_pay1 v1 v3 v4 v6 v8 v489 v498 v499

/-- What the body leaves in the output window's staging buffer, as a function of the five input blocks: its one
    store spans the whole buffer, its payload `pay1_5` of the loaded blocks. -/
def out1_5 (x0 : Vec F S256x32 .f32) (x1 : Vec F S32x256 .f32) (x2 : Vec F S32 .f32) (x3 : Vec F S32 .f32) (x4 : Vec F S1 .f32) :
    Vec F S256x256 .f32 :=
  View.canon [⟨r1_5, pay1_5 (View.ld x0 r1_0) (View.ld x1 r1_1) (View.ld x2 r1_2) (View.ld x3 r1_3) (View.ld x4 r1_4)⟩]

/-- The proof data of pipeline 1 on core `c`: the arrays as the region finds them; after the body at point `t` each
    input's buffer still at its block and the output's at `out1_5` of the input blocks; the invariant carries the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

end Regions

/-! # The buffer contents at each boundary of @main: a fold from the launch memory -/

variable (m : (ℓ : Loc nD τ sig) → Buf (Elt F) ℓ)

/-- Core `c`'s buffers at launch. -/
abbrev X0 (c : Dev nD) : Valuation τ sig (Elt F) := fun b => m ((c : Dev nD), b)
/-- After the first stretch of host operations: what region 0 is entered from. -/
abbrev X1 (c : Dev nD) : Valuation τ sig (Elt F) := StableHlo.after hostOps0 (X0 m c)
/-- Region 0's entry contents, read at the TensorCore's references. -/
abbrev E0 (c : Dev nD) : (b : Ref sig .tc) → Buf (Elt F) ((c : Thread nD τ).loc b) :=
  fun b => StableHlo.after hostOps0 (fun b => m ((c : Dev nD), b)) (Proc.devRef .tc b)
/-- At region 0's exit: its windows' arrays at what the pipeline leaves (an input as entered, the output with every
    point's write-back folded in), every other buffer as entered. -/
def X2 (c : Dev nD) : Valuation τ sig (Elt F) :=
  Pipeline.withArrays spec0 c (StableHlo.after hostOps0 (fun b => m ((c : Dev nD), b))) fun w => (dat0 (E0 m) c).arrAt w cfg0.N
theorem X2_arr (c : Dev nD) (w : Fin cfg0.W) :
    X2 m c (Proc.devRef .tc (Pipeline.arrRef spec0 w)) = (dat0 (E0 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- After the second stretch of host operations: what region 1 is entered from. -/
abbrev X3 (c : Dev nD) : Valuation τ sig (Elt F) := StableHlo.after hostOps1 (X2 m c)
/-- Region 1's entry contents, read at the TensorCore's references. -/
abbrev E1 (c : Dev nD) : (b : Ref sig .tc) → Buf (Elt F) ((c : Thread nD τ).loc b) :=
  fun b => StableHlo.after hostOps1 (X2 m c) (Proc.devRef .tc b)
/-- At region 1's exit, which is @main's end: its windows' arrays at what the pipeline leaves, every other buffer
    as entered. -/
def Xend (c : Dev nD) : Valuation τ sig (Elt F) :=
  Pipeline.withArrays spec1 c (StableHlo.after hostOps1 (X2 m c)) fun w => (dat1 (E1 m) c).arrAt w cfg1.N
theorem Xend_arr (c : Dev nD) (w : Fin cfg1.W) :
    Xend m c (Proc.devRef .tc (Pipeline.arrRef spec1 w)) = (dat1 (E1 m) c).arrAt w cfg1.N := by
  unfold Xend; exact Pipeline.withArrays_arr spec1 launch1.win.arr_inj c _ _ w
theorem Xend_of_ne (c : Dev nD) (b : Ref sig .tc) (hb : ∀ w, Pipeline.arrRef spec1 w ≠ b) :
    Xend m c (Proc.devRef .tc b) = X3 m c (Proc.devRef .tc b) := by
  unfold Xend; exact Pipeline.withArrays_of_ne spec1 c _ _ b hb

/-! # The proof data family -/

/-- No pipeline has a prefetched table. -/
abbrev adm : (p : Fin 2) → (pcfgs (F := F) p).Adm := fun p => (cfgs p).toPCfg_adm
/-- Every pipeline's proof data, each at its region's entry contents: a literal match, so that the family at a
    numeral reduces to that region's data. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

end Cert.KernelIdeal.Fr

end
-- ==== Proof.IdealBody0.lean ====
/- Region 0 of the idealized kernel program (the projection kernel): the body's triple on whole staging
   buffers, what every input buffer holds when the body is called, and the pipeline's body obligation at every
   grid point. -/
import proofs.«156606_j7370163880501_2_alg».proof.Proof.IdealStaging

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds the window's block at every point, whether or not the pipeline
    fetched it there (an unfetched point has the block index of the point before), for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds the window's block at every point, whether or not the pipeline
    fetched it there (an unfetched point has the block index of the point before), for any proof data whose array is
    the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds the window's block at every point, whether or not the pipeline
    fetched it there (an unfetched point has the block index of the point before), for any proof data whose array is
    the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds the window's block at every point, whether or not the pipeline
    fetched it there (an unfetched point has the block index of the point before), for any proof data whose array is
    the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds the window's block at every point, whether or not the pipeline
    fetched it there (an unfetched point has the block index of the point before), for any proof data whose array is
    the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds the window's block at every point, whether or not the pipeline
    fetched it there (an unfetched point has the block index of the point before), for any proof data whose array is
    the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The one store spans the output buffer -/

/-- The store's rectangle is the whole buffer, so it covers every index. -/
theorem cover0_6 (p0 : Vec F S1x1024x32 .f32) (y : S1x1024x32.Idx) :
    ∃ pc ∈ ([⟨r0_6, p0⟩] : List (View.Piece (Elt F) S1x1024x32 .f32)), y ∈ pc.1.set :=
  View.cover_of_tiled [⟨r0_6, p0⟩] S1x1024x32.size (by rfl) y

/-! ## The body's triple -/

set_option maxHeartbeats 1000000 in
/-- The body on whole staging buffers — the six inputs' reading `x0 … x5`, the output's holding anything — runs
    without fault to its continuation, the inputs' buffers as they were and the output's reading `out0_6` of the
    inputs: it loads each input whole, loads the output buffer once (the value is never used: owning the buffer at
    some contents is all that load needs), and stores the projection's value over the whole output buffer. -/
theorem sound_kernel0 (c : Dev nD) (E : Set ℕ) (i : grid0.Coords)
    (arg0 : Memref sig .tc .vmem S1x1024x256 .f32) (harg0 : arg0.IsWhole) (arg1 : Memref sig .tc .vmem S256x256 .f32) (harg1 : arg1.IsWhole) (arg2 : Memref sig .tc .vmem S256 .f32) (harg2 : arg2.IsWhole) (arg3 : Memref sig .tc .vmem S256x128 .f32) (harg3 : arg3.IsWhole) (arg4 : Memref sig .tc .vmem S128 .f32) (harg4 : arg4.IsWhole) (arg5 : Memref sig .tc .vmem S128x32 .f32) (harg5 : arg5.IsWhole) (arg6 : Memref sig .tc .vmem S1x1024x32 .f32) (harg6 : arg6.IsWhole)
    (x0 : Vec F S1x1024x256 .f32) (x1 : Vec F S256x256 .f32) (x2 : Vec F S256 .f32) (x3 : Vec F S256x128 .f32) (x4 : Vec F S128 .f32) (x5 : Vec F S128x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__project_kernel i arg0 harg0 arg1 harg1 arg2 harg2 arg3 harg3 arg4 harg4 arg5 harg5 arg6 harg6) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`: the invariant, the core's debts, and every window's current staging
    buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: each input's buffer holds its block, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.IdealBody1.lean ====
/- Region 1 of the idealized kernel program (the pairwise kernel): the body's triple on whole staging
   buffers, what every input buffer holds when the body is called, and the pipeline's body obligation at every
   grid point. -/
import proofs.«156606_j7370163880501_2_alg».proof.Proof.IdealStaging

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in each input window's buffer -/

/-- Input window 0's current staging buffer holds the window's block at every point, whether or not the pipeline
    fetched it there (an unfetched point has the block index of the point before), for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds the window's block at every point, whether or not the pipeline
    fetched it there (an unfetched point has the block index of the point before), for any proof data whose array is
    the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds the window's block at every point, whether or not the pipeline
    fetched it there (an unfetched point has the block index of the point before), for any proof data whose array is
    the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds the window's block at every point, whether or not the pipeline
    fetched it there (an unfetched point has the block index of the point before), for any proof data whose array is
    the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds the window's block at every point, whether or not the pipeline
    fetched it there (an unfetched point has the block index of the point before), for any proof data whose array is
    the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The one store spans the output buffer -/

/-- The store's rectangle is the whole buffer, so it covers every index. -/
theorem cover1_5 (p0 : Vec F S256x256 .f32) (y : S256x256.Idx) :
    ∃ pc ∈ ([⟨r1_5, p0⟩] : List (View.Piece (Elt F) S256x256 .f32)), y ∈ pc.1.set :=
  View.cover_of_tiled [⟨r1_5, p0⟩] S256x256.size (by rfl) y

/-! ## The body's triple -/

set_option maxHeartbeats 4000000 in
/-- The body on whole staging buffers — the five inputs' reading `x0 … x4`, the output's holding anything — runs
    without fault to its continuation, the inputs' buffers as they were and the output's reading `out1_5` of the
    inputs: its first part loads each input whole, the later parts only compute, and at the end it loads the output
    buffer once (the value is never used: owning the buffer at some contents is all that load needs) and stores the
    accumulated value over the whole output buffer. -/
theorem sound_kernel1 (c : Dev nD) (E : Set ℕ) (i : grid1.Coords)
    (arg0 : Memref sig .tc .vmem S256x32 .f32) (harg0 : arg0.IsWhole) (arg1 : Memref sig .tc .vmem S32x256 .f32) (harg1 : arg1.IsWhole) (arg2 : Memref sig .tc .vmem S32 .f32) (harg2 : arg2.IsWhole) (arg3 : Memref sig .tc .vmem S32 .f32) (harg3 : arg3.IsWhole) (arg4 : Memref sig .tc .vmem S1 .f32) (harg4 : arg4.IsWhole) (arg5 : Memref sig .tc .vmem S256x256 .f32) (harg5 : arg5.IsWhole)
    (x0 : Vec F S256x32 .f32) (x1 : Vec F S32x256 .f32) (x2 : Vec F S32 .f32) (x3 : Vec F S32 .f32) (x4 : Vec F S1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__pair_kernel i arg0 harg0 arg1 harg1 arg2 harg2 arg3 harg3 arg4 harg4 arg5 harg5) K := by
  simp only [cc1__pair_kernel_eq_skeleton]; unfold cc1__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`: the invariant, the core's debts, and every window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input's buffer holds its block, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.IdealRun.lean ====
/- The frame run of the idealized kernel program: @main as four segments — the first stretch of host
   operations, the projection region, the second stretch, the pairwise region — composed by the library's launch
   over segments; every unscoped buffer's final contents named (`Xend`), and each argument array read back through
   the fold to its launch contents. -/
import proofs.«156606_j7370163880501_2_alg».proof.Proof.IdealBody0
import proofs.«156606_j7370163880501_2_alg».proof.Proof.IdealBody1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The boundary contents read at the TensorCore's references -/

/-- Region 0's exit contents. -/
abbrev V2 (c : Dev nD) : (b : Ref sig .tc) → Buf (Elt F) ((c : Thread nD τ).loc b) := fun b => X2 m c (Proc.devRef .tc b)
/-- Region 1's exit contents. -/
abbrev V4 (c : Dev nD) : (b : Ref sig .tc) → Buf (Elt F) ((c : Thread nD τ).loc b) := fun b => Xend m c (Proc.devRef .tc b)

/-- At a region's exit each of its arrays holds what the pipeline leaves, and every other buffer what it held at
    entry. -/
theorem hF0 (c : Dev nD) (w : Fin cfg0.W) : (dat0 (E0 m) c).arrAt w cfg0.N = V2 m c (Pipeline.arrRef spec0 w) :=
  (X2_arr m c w).symm
theorem hrest0 (c : Dev nD) : ∀ b, b ∉ Finset.univ.image (Pipeline.arrRef spec0) → V2 m c b = E0 m c b :=
  fun b hb => X2_of_ne m c b fun w e => hb (Finset.mem_image.mpr ⟨w, Finset.mem_univ _, e⟩)
theorem hF1 (c : Dev nD) (w : Fin cfg1.W) : (dat1 (E1 m) c).arrAt w cfg1.N = V4 m c (Pipeline.arrRef spec1 w) :=
  (Xend_arr m c w).symm
theorem hrest1 (c : Dev nD) : ∀ b, b ∉ Finset.univ.image (Pipeline.arrRef spec1) → V4 m c b = E1 m c b :=
  fun b hb => Xend_of_ne m c b fun w e => hb (Finset.mem_image.mpr ⟨w, Finset.mem_univ _, e⟩)

/-! ## No host operation writes an argument -/

/-- Every buffer the first stretch writes: each operation's result, in order. -/
def wr0 : List (Ref sig .tc) := [main_v0, main_v1, main_v2, main_v3, main_v4, main_v5, main_c, main_v6, main_v7, main_c_0, main_v8, main_v9, main_v10, main_c_1, main_c_2, main_v11, main_c_3, main_c_4, main_v12, main_c_5, main_v13, main_c_6, main_v14, main_v15, main_c_7, main_v16, main_v17, main_v18, main_c_8, main_v19, main_v20, main_c_9, main_v21, main_v22, main_v23, main_v24, main_v25, main_v26, main_v27, main_v28, main_v29, main_v30, main_v31, main_v32, main_v33, main_v34, main_v35, main_v36, main_c_10, main_v37, main_v38, main_c_11, main_v39, main_v40, main_v41, main_c_12, main_c_13, main_v42, main_c_14, main_c_15, main_v43, main_c_16, main_v44, main_c_17, main_v45, main_v46, main_c_18, main_v47, main_v48, main_v49, main_c_19, main_v50, main_v51, main_c_20, main_v52, main_v53, main_v54, main_v55, main_v56, main_v57, main_v58, main_v59, main_v60, main_v61, main_v62, main_v63, main_v64]
/-- Every buffer the second stretch writes. -/
def wr1 : List (Ref sig .tc) := [main_v66, main_v67, main_v68, main_v69, main_v70, main_v71]

set_option maxHeartbeats 4000000 in
/-- Each operation of the first stretch writes its one result, which the list holds. -/
theorem hostOps0_writes : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)
/-- Each operation of the second stretch writes its one result, which the list holds. -/
theorem hostOps1_writes : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-! ## The arguments end as launched

No host operation writes an argument and no region writes one: a region reads an argument through an input window,
whose array the pipeline leaves as entered, or does not touch it at all. So the fold at an argument's buffer walks
back to the launch memory. -/

theorem Xend_main_arg0 (c : Dev nD) : Xend m c (Proc.devRef .tc main_arg0) = m ((c : Thread nD τ).loc main_arg0) :=
  calc Xend m c (Proc.devRef .tc main_arg0)
    _ = X3 m c (Proc.devRef .tc main_arg0) := Xend_of_ne m c main_arg0 (by decide)
    _ = X2 m c (Proc.devRef .tc main_arg0) := StableHlo.after_of_writes_sub (r := main_arg0) _ _ hostOps1_writes (by decide)
    _ = X1 m c (Proc.devRef .tc main_arg0) := X2_of_ne m c main_arg0 (by decide)
    _ = X0 m c (Proc.devRef .tc main_arg0) := StableHlo.after_of_writes_sub (r := main_arg0) _ _ hostOps0_writes (by decide)
    _ = m ((c : Thread nD τ).loc main_arg0) := rfl

theorem Xend_main_arg1 (c : Dev nD) : Xend m c (Proc.devRef .tc main_arg1) = m ((c : Thread nD τ).loc main_arg1) :=
  calc Xend m c (Proc.devRef .tc main_arg1)
    _ = X3 m c (Proc.devRef .tc main_arg1) := Xend_of_ne m c main_arg1 (by decide)
    _ = X2 m c (Proc.devRef .tc main_arg1) := StableHlo.after_of_writes_sub (r := main_arg1) _ _ hostOps1_writes (by decide)
    _ = X1 m c (Proc.devRef .tc main_arg1) := X2_of_ne m c main_arg1 (by decide)
    _ = X0 m c (Proc.devRef .tc main_arg1) := StableHlo.after_of_writes_sub (r := main_arg1) _ _ hostOps0_writes (by decide)
    _ = m ((c : Thread nD τ).loc main_arg1) := rfl

theorem Xend_main_arg2 (c : Dev nD) : Xend m c (Proc.devRef .tc main_arg2) = m ((c : Thread nD τ).loc main_arg2) :=
  calc Xend m c (Proc.devRef .tc main_arg2)
    _ = X3 m c (Proc.devRef .tc main_arg2) := Xend_of_ne m c main_arg2 (by decide)
    _ = X2 m c (Proc.devRef .tc main_arg2) := StableHlo.after_of_writes_sub (r := main_arg2) _ _ hostOps1_writes (by decide)
    _ = X1 m c (Proc.devRef .tc main_arg2) := X2_of_ne m c main_arg2 (by decide)
    _ = X0 m c (Proc.devRef .tc main_arg2) := StableHlo.after_of_writes_sub (r := main_arg2) _ _ hostOps0_writes (by decide)
    _ = m ((c : Thread nD τ).loc main_arg2) := rfl

theorem Xend_main_arg3 (c : Dev nD) : Xend m c (Proc.devRef .tc main_arg3) = m ((c : Thread nD τ).loc main_arg3) :=
  calc Xend m c (Proc.devRef .tc main_arg3)
    _ = X3 m c (Proc.devRef .tc main_arg3) := Xend_of_ne m c main_arg3 (by decide)
    _ = X2 m c (Proc.devRef .tc main_arg3) := StableHlo.after_of_writes_sub (r := main_arg3) _ _ hostOps1_writes (by decide)
    _ = X1 m c (Proc.devRef .tc main_arg3) := (X2_arr m c 1).trans (((dat0 (E0 m) c).arrAt_in 1 rfl _).trans (A_eq0 (E0 m) c 1))
    _ = X0 m c (Proc.devRef .tc main_arg3) := StableHlo.after_of_writes_sub (r := main_arg3) _ _ hostOps0_writes (by decide)
    _ = m ((c : Thread nD τ).loc main_arg3) := rfl

theorem Xend_main_arg4 (c : Dev nD) : Xend m c (Proc.devRef .tc main_arg4) = m ((c : Thread nD τ).loc main_arg4) :=
  calc Xend m c (Proc.devRef .tc main_arg4)
    _ = X3 m c (Proc.devRef .tc main_arg4) := Xend_of_ne m c main_arg4 (by decide)
    _ = X2 m c (Proc.devRef .tc main_arg4) := StableHlo.after_of_writes_sub (r := main_arg4) _ _ hostOps1_writes (by decide)
    _ = X1 m c (Proc.devRef .tc main_arg4) := (X2_arr m c 2).trans (((dat0 (E0 m) c).arrAt_in 2 rfl _).trans (A_eq0 (E0 m) c 2))
    _ = X0 m c (Proc.devRef .tc main_arg4) := StableHlo.after_of_writes_sub (r := main_arg4) _ _ hostOps0_writes (by decide)
    _ = m ((c : Thread nD τ).loc main_arg4) := rfl

theorem Xend_main_arg5 (c : Dev nD) : Xend m c (Proc.devRef .tc main_arg5) = m ((c : Thread nD τ).loc main_arg5) :=
  calc Xend m c (Proc.devRef .tc main_arg5)
    _ = X3 m c (Proc.devRef .tc main_arg5) := Xend_of_ne m c main_arg5 (by decide)
    _ = X2 m c (Proc.devRef .tc main_arg5) := StableHlo.after_of_writes_sub (r := main_arg5) _ _ hostOps1_writes (by decide)
    _ = X1 m c (Proc.devRef .tc main_arg5) := (X2_arr m c 3).trans (((dat0 (E0 m) c).arrAt_in 3 rfl _).trans (A_eq0 (E0 m) c 3))
    _ = X0 m c (Proc.devRef .tc main_arg5) := StableHlo.after_of_writes_sub (r := main_arg5) _ _ hostOps0_writes (by decide)
    _ = m ((c : Thread nD τ).loc main_arg5) := rfl

theorem Xend_main_arg6 (c : Dev nD) : Xend m c (Proc.devRef .tc main_arg6) = m ((c : Thread nD τ).loc main_arg6) :=
  calc Xend m c (Proc.devRef .tc main_arg6)
    _ = X3 m c (Proc.devRef .tc main_arg6) := Xend_of_ne m c main_arg6 (by decide)
    _ = X2 m c (Proc.devRef .tc main_arg6) := StableHlo.after_of_writes_sub (r := main_arg6) _ _ hostOps1_writes (by decide)
    _ = X1 m c (Proc.devRef .tc main_arg6) := (X2_arr m c 4).trans (((dat0 (E0 m) c).arrAt_in 4 rfl _).trans (A_eq0 (E0 m) c 4))
    _ = X0 m c (Proc.devRef .tc main_arg6) := StableHlo.after_of_writes_sub (r := main_arg6) _ _ hostOps0_writes (by decide)
    _ = m ((c : Thread nD τ).loc main_arg6) := rfl

theorem Xend_main_arg7 (c : Dev nD) : Xend m c (Proc.devRef .tc main_arg7) = m ((c : Thread nD τ).loc main_arg7) :=
  calc Xend m c (Proc.devRef .tc main_arg7)
    _ = X3 m c (Proc.devRef .tc main_arg7) := Xend_of_ne m c main_arg7 (by decide)
    _ = X2 m c (Proc.devRef .tc main_arg7) := StableHlo.after_of_writes_sub (r := main_arg7) _ _ hostOps1_writes (by decide)
    _ = X1 m c (Proc.devRef .tc main_arg7) := (X2_arr m c 5).trans (((dat0 (E0 m) c).arrAt_in 5 rfl _).trans (A_eq0 (E0 m) c 5))
    _ = X0 m c (Proc.devRef .tc main_arg7) := StableHlo.after_of_writes_sub (r := main_arg7) _ _ hostOps0_writes (by decide)
    _ = m ((c : Thread nD τ).loc main_arg7) := rfl

theorem Xend_main_arg8 (c : Dev nD) : Xend m c (Proc.devRef .tc main_arg8) = m ((c : Thread nD τ).loc main_arg8) :=
  calc Xend m c (Proc.devRef .tc main_arg8)
    _ = X3 m c (Proc.devRef .tc main_arg8) := (Xend_arr m c 2).trans (((dat1 (E1 m) c).arrAt_in 2 rfl _).trans (A_eq1 (E1 m) c 2))
    _ = X2 m c (Proc.devRef .tc main_arg8) := StableHlo.after_of_writes_sub (r := main_arg8) _ _ hostOps1_writes (by decide)
    _ = X1 m c (Proc.devRef .tc main_arg8) := X2_of_ne m c main_arg8 (by decide)
    _ = X0 m c (Proc.devRef .tc main_arg8) := StableHlo.after_of_writes_sub (r := main_arg8) _ _ hostOps0_writes (by decide)
    _ = m ((c : Thread nD τ).loc main_arg8) := rfl

theorem Xend_main_arg9 (c : Dev nD) : Xend m c (Proc.devRef .tc main_arg9) = m ((c : Thread nD τ).loc main_arg9) :=
  calc Xend m c (Proc.devRef .tc main_arg9)
    _ = X3 m c (Proc.devRef .tc main_arg9) := Xend_of_ne m c main_arg9 (by decide)
    _ = X2 m c (Proc.devRef .tc main_arg9) := StableHlo.after_of_writes_sub (r := main_arg9) _ _ hostOps1_writes (by decide)
    _ = X1 m c (Proc.devRef .tc main_arg9) := X2_of_ne m c main_arg9 (by decide)
    _ = X0 m c (Proc.devRef .tc main_arg9) := StableHlo.after_of_writes_sub (r := main_arg9) _ _ hostOps0_writes (by decide)
    _ = m ((c : Thread nD τ).loc main_arg9) := rfl

theorem Xend_main_arg10 (c : Dev nD) : Xend m c (Proc.devRef .tc main_arg10) = m ((c : Thread nD τ).loc main_arg10) :=
  calc Xend m c (Proc.devRef .tc main_arg10)
    _ = X3 m c (Proc.devRef .tc main_arg10) := (Xend_arr m c 4).trans (((dat1 (E1 m) c).arrAt_in 4 rfl _).trans (A_eq1 (E1 m) c 4))
    _ = X2 m c (Proc.devRef .tc main_arg10) := StableHlo.after_of_writes_sub (r := main_arg10) _ _ hostOps1_writes (by decide)
    _ = X1 m c (Proc.devRef .tc main_arg10) := X2_of_ne m c main_arg10 (by decide)
    _ = X0 m c (Proc.devRef .tc main_arg10) := StableHlo.after_of_writes_sub (r := main_arg10) _ _ hostOps0_writes (by decide)
    _ = m ((c : Thread nD τ).loc main_arg10) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's effect on `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (Xend m c) ∗ ∃ r, prngReg c r)

/-! ## The regions as segments -/

set_option backward.isDefEq.respectTransparency.types false in
/-- Region 0 over the thread state: entered with every unscoped buffer at the contents of the boundary before it,
    left with them at the contents of the boundary after it. Its windows' arrays are split out of the unscoped
    buffers at entry and put back at exit at what the pipeline leaves; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of the boundary before it,
    left with them at the contents of the boundary after it. Its windows' arrays are split out of the unscoped
    buffers at entry and put back at exit at what the pipeline leaves; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m) ]

set_option maxHeartbeats 40000000 in
/-- @main is the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and in every final state every unscoped buffer of every core holds
    `Xend`. -/
theorem run_all : θ_run defs (onTc (τ := τ) (main (F := F))) ⟨m, fun _ => 0, ρ⟩
    (fun r => ∀ c : Dev nD, ∀ b ∈ Pipeline.ucRefs τ sig, r.2.mem ((c : Thread nD τ).1, b) = Xend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Xend m c b)
    (hfin := fun c s' => by
      iintro ⟨⟨Hh, -⟩, HSI⟩
      unfold StableHlo.held
      imodintro
      iapply (pointsTo_read_all (Pipeline.ucRefs τ sig) (fun b => (((c : Thread nD τ)).1, b)) (Xend m c) s')
      isplitl [Hh] <;> iassumption)
    (hQ := fun s h => h)

/-- THE FRAME: the frame claim's statement at any float instance — every weakly fair execution of @main terminates,
    nothing faulting, and every final state has the eleven argument arrays as launched: each is an unscoped buffer,
    so the run's post reads it, and the fold at it walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (Xend_main_arg0 m c),
      (h c _ (mem_uc main_arg1 (by decide))).trans (Xend_main_arg1 m c),
      (h c _ (mem_uc main_arg2 (by decide))).trans (Xend_main_arg2 m c),
      (h c _ (mem_uc main_arg3 (by decide))).trans (Xend_main_arg3 m c),
      (h c _ (mem_uc main_arg4 (by decide))).trans (Xend_main_arg4 m c),
      (h c _ (mem_uc main_arg5 (by decide))).trans (Xend_main_arg5 m c),
      (h c _ (mem_uc main_arg6 (by decide))).trans (Xend_main_arg6 m c),
      (h c _ (mem_uc main_arg7 (by decide))).trans (Xend_main_arg7 m c),
      (h c _ (mem_uc main_arg8 (by decide))).trans (Xend_main_arg8 m c),
      (h c _ (mem_uc main_arg9 (by decide))).trans (Xend_main_arg9 m c),
      (h c _ (mem_uc main_arg10 (by decide))).trans (Xend_main_arg10 m c)⟩) (run_all m ρ)

end Cert.KernelIdeal.Fr

end
-- ==== Proof.Spec.lean ====
/-
  The function both programs compute, written once over the argument arrays.

  From the feature map `feat : [2, 256, 360, 360]` and an index table `idx : [3, 1024]` (rows: image, height, width),
  point `n` selects the 256-vector `feat[b, :, h, w]`, where each of `b, h, w` is the table's word read signed, with the
  extent added when it is negative, and then clamped into the axis (`row`). Two dense layers with a rectifier
  (`layer`) take each selected vector to 128 features. The similarity of point `i` of the first table and point `j`
  of the second is a third dense layer (128 → 32, rectified) on the DIFFERENCE of their features followed by a
  32 → 1 layer (`simDiff`); since the third layer is linear before its rectifier, it may equally be applied to each
  feature vector first and the difference taken afterwards (`simProj` over `proj`) — equal on finite data
  (`simProj_eq_simDiff`, in the module of the algebra).
-/
import Idealize.ShloMosaic.PureOps.Ideal
import Idealize.ShloMosaic.Lib.ValueIdx

noncomputable section

namespace Cert.PairSim

open Idealize.ShloMosaic Idealize.ShloMosaic.ValueIdx

/-- A start word made non-negative the way array indexing does it: a negative word has the axis' extent added. -/
def wrap (ext v : BitVec 32) : BitVec 32 := Scalar.select (IntOp.cmpi .slt v 0#32) (IntOp.addi v ext) v

/-- A word read as a signed integer and clamped into `[0, hi]`. -/
def clampTo (hi : Nat) (v : BitVec 32) : Fin (hi + 1) := ⟨min v.toInt.toNat hi, Nat.lt_succ_of_le (Nat.min_le_right _ _)⟩

/-- The channel vector the `n`-th column of the index table selects: image `idx[0, n]`, height `idx[1, n]`, width
    `idx[2, n]`, each wrapped by its extent and clamped into its axis. -/
def row (feat : (⟨4, ![2, 256, 360, 360]⟩ : Shape).Idx → EReal) (idx : (⟨2, ![3, 1024]⟩ : Shape).Idx → BitVec 32)
    (n : Fin 1024) (ch : Fin 256) : EReal :=
  feat (ix4 (clampTo 1 (wrap 2#32 (idx (ix2 (0 : Fin 3) n)))) ch
    (clampTo 359 (wrap 360#32 (idx (ix2 (1 : Fin 3) n)))) (clampTo 359 (wrap 360#32 (idx (ix2 (2 : Fin 3) n)))))

/-- One dense layer with a rectifier: `max (∑ e, x n e * w[e, c] + b[c]) 0`. -/
def layer {N K C : Nat} (x : Fin N → Fin K → EReal) (w : (⟨2, ![K, C]⟩ : Shape).Idx → EReal)
    (b : (⟨1, ![C]⟩ : Shape).Idx → EReal) (n : Fin N) (c : Fin C) : EReal :=
  max ((∑ e : Fin K, x n e * w (ix2 e c)) + b (ix1 c)) 0

/-- The 128 features of a point: two rectified dense layers on its selected vector. -/
def feats (x : Fin 1024 → Fin 256 → EReal) (w1 : (⟨2, ![256, 256]⟩ : Shape).Idx → EReal) (b1 : (⟨1, ![256]⟩ : Shape).Idx → EReal)
    (w2 : (⟨2, ![256, 128]⟩ : Shape).Idx → EReal) (b2 : (⟨1, ![128]⟩ : Shape).Idx → EReal) : Fin 1024 → Fin 128 → EReal :=
  layer (layer x w1 b1) w2 b2

/-- The third layer's linear part applied to one point's features: `∑ d, f n d * w3[d, k]`. -/
def proj (f : Fin 1024 → Fin 128 → EReal) (w3 : (⟨2, ![128, 32]⟩ : Shape).Idx → EReal) (n : Fin 1024) (k : Fin 32) : EReal :=
  ∑ d : Fin 128, f n d * w3 (ix2 d k)

/-- The similarity with the third layer applied to the DIFFERENCE of the two points' features. -/
def simDiff (f1 f2 : Fin 1024 → Fin 128 → EReal) (w3 : (⟨2, ![128, 32]⟩ : Shape).Idx → EReal)
    (b3 : (⟨1, ![32]⟩ : Shape).Idx → EReal) (w4 : (⟨2, ![32, 1]⟩ : Shape).Idx → EReal) (b4 : (⟨1, ![1]⟩ : Shape).Idx → EReal)
    (i j : Fin 1024) : EReal :=
  (∑ k : Fin 32, max ((∑ d : Fin 128, (f1 i d - f2 j d) * w3 (ix2 d k)) + b3 (ix1 k)) 0 * w4 (ix2 k (0 : Fin 1))) + b4 (ix1 (0 : Fin 1))

/-- The similarity from the two points' projected features `a1 = proj f1 w3`, `a2 = proj f2 w3`:
    `∑ k, w4[k] * max (a1 i k - a2 j k + b3[k]) 0 + b4`. -/
def simProj (a1 a2 : Fin 1024 → Fin 32 → EReal) (b3 : (⟨1, ![32]⟩ : Shape).Idx → EReal)
    (w4 : (⟨2, ![32, 1]⟩ : Shape).Idx → EReal) (b4 : (⟨1, ![1]⟩ : Shape).Idx → EReal) (i j : Fin 1024) : EReal :=
  (∑ k : Fin 32, w4 (ix2 k (0 : Fin 1)) * max (a1 i k - a2 j k + b3 (ix1 k)) 0) + b4 (ix1 (0 : Fin 1))

end Cert.PairSim

end
-- ==== Proof.PairPayload.lean ====
/-
  The pairwise body's stored block, read at an index.

  With `a` the left block `[256, 32]`, `b` the right block `[32, 256]`, `c` and `w` two 32-vectors and `d` a
  1-vector, the body accumulates, for `k = 0, …, 31` in order from zero, `w[k] * max (a[p, k] - b[k, q] + c[k]) 0`
  and finally adds `d[0]`. Its entry at `(p, q)` is therefore `(∑ k, w[k] * max (a[p, k] - b[k, q] + c[k]) 0) + d[0]`.
  First the three ways the body reads its operands, at an index: column `o` of the left block spread along the
  rows, row `o` of the right block spread along the columns, and entry `o` of a 32-vector taken as a scalar.
-/
import proofs.«156606_j7370163880501_2_alg».proof.Proof.Gen.KernelIdeal.Skeleton
import proofs.«156606_j7370163880501_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PairValue

open Idealize.ShloMosaic Idealize.ShloMosaic.ValueIdx Cert.KernelIdeal Cert.KernelIdeal.Gen

section Leaves
variable {α : Type}

theorem lt_col {o : Nat} (h : S256x32.Slices ![0, o] S256x1) : o < 32 := h.2 1
theorem lt_rowb {o : Nat} (h : S32x256.Slices ![o, 0] S1x256) : o < 32 := h.2 0
theorem lt_entry {o : Nat} (h : S32.Slices ![o] S1) : o < 32 := h.2 0

/-- Column `o` of a `[256, 32]` block, broadcast along the second axis, read at `(p, q)`: the block at `(p, o)`. -/
theorem col_apply (o : Nat) (v : S256x32.Idx → α) (h : S256x32.Slices ![0, o] S256x1) (hb : S256x1.Broadcasts S256x256)
    (p q : Fin 256) :
    broadcastTo S256x256 (extractStridedSlice S256x1 ![0, o] v h) hb (ix2 p q) = v (ix2 p ⟨o, lt_col h⟩) :=
  (broadcastTo_apply _ hb (ix2 p q) (ix2 p (0 : Fin 1)) (fun a => match a with | ⟨0, _⟩ => rfl | ⟨1, _⟩ => rfl)).trans
    (extractStridedSlice_apply ![0, o] v h (ix2 p (0 : Fin 1)) (ix2 p ⟨o, lt_col h⟩) (fun a => match a with | ⟨0, _⟩ => (Nat.zero_add _).symm | ⟨1, _⟩ => rfl))

/-- Row `o` of a `[32, 256]` block, broadcast along the first axis, read at `(p, q)`: the block at `(o, q)`. -/
theorem rowb_apply (o : Nat) (v : S32x256.Idx → α) (h : S32x256.Slices ![o, 0] S1x256) (hb : S1x256.Broadcasts S256x256)
    (p q : Fin 256) :
    broadcastTo S256x256 (extractStridedSlice S1x256 ![o, 0] v h) hb (ix2 p q) = v (ix2 ⟨o, lt_rowb h⟩ q) :=
  (broadcastTo_apply _ hb (ix2 p q) (ix2 (0 : Fin 1) q) (fun a => match a with | ⟨0, _⟩ => rfl | ⟨1, _⟩ => rfl)).trans
    (extractStridedSlice_apply ![o, 0] v h (ix2 (0 : Fin 1) q) (ix2 ⟨o, lt_rowb h⟩ q) (fun a => match a with | ⟨0, _⟩ => rfl | ⟨1, _⟩ => (Nat.zero_add _).symm))

/-- Entry `o` of a 32-vector, sliced out as a 1-vector, read at its one index. -/
theorem entry_apply (o : Nat) (v : S32.Idx → α) (h : S32.Slices ![o] S1) :
    extractStridedSlice S1 ![o] v h (ix1 (0 : Fin 1)) = v (ix1 ⟨o, lt_entry h⟩) :=
  extractStridedSlice_apply ![o] v h _ (ix1 ⟨o, lt_entry h⟩) (fun a => match a with | ⟨0, _⟩ => rfl)

/-- The one entry of a 1-vector, extracted as a scalar. -/
theorem only_apply (v : S1.Idx → α) (hp : ∀ a, (![0] : Fin 1 → Nat) a < S1.size a) : extractAt ![0] v hp = v (ix1 (0 : Fin 1)) :=
  congrArg v (funext fun a => match a with | ⟨0, _⟩ => rfl)

end Leaves

/-- A sum over `Fin 32` written out from the left, starting at zero: the order in which the body accumulates. -/
theorem sum32 (T : Fin 32 → EReal) : ∑ k : Fin 32, T k = ((((((((((((((((((((((((((((((((0 + T ⟨0, by decide⟩) + T ⟨1, by decide⟩) + T ⟨2, by decide⟩) + T ⟨3, by decide⟩) + T ⟨4, by decide⟩) + T ⟨5, by decide⟩) + T ⟨6, by decide⟩) + T ⟨7, by decide⟩) + T ⟨8, by decide⟩) + T ⟨9, by decide⟩) + T ⟨10, by decide⟩) + T ⟨11, by decide⟩) + T ⟨12, by decide⟩) + T ⟨13, by decide⟩) + T ⟨14, by decide⟩) + T ⟨15, by decide⟩) + T ⟨16, by decide⟩) + T ⟨17, by decide⟩) + T ⟨18, by decide⟩) + T ⟨19, by decide⟩) + T ⟨20, by decide⟩) + T ⟨21, by decide⟩) + T ⟨22, by decide⟩) + T ⟨23, by decide⟩) + T ⟨24, by decide⟩) + T ⟨25, by decide⟩) + T ⟨26, by decide⟩) + T ⟨27, by decide⟩) + T ⟨28, by decide⟩) + T ⟨29, by decide⟩) + T ⟨30, by decide⟩) + T ⟨31, by decide⟩) := by
  simp only [Fin.sum_univ_castSucc, Fin.sum_univ_zero]
  rfl

variable {F : FTy → Type} [FloatOps F]

/-- Body 1's one stored value as a function of its five loads (the nine parts' named values composed). -/
def pairPay (x0 : Vec F S256x32 .f32) (x1 : Vec F S32x256 .f32) (x2 x3 : Vec F S32 .f32) (x4 : Vec F S1 .f32) : FVec F S256x256 .f32 :=
  have v1 := k1_pay2 x0; have v3 := k1_pay3 x1; have v4 := x2; have v6 := k1_pay4 x3; have v8 := k1_pay5 x4
  have v41 := k1_pay6 x0 x1 x2 x3; have v46 := k1_pay7 x0 x1; have v47 := k1_pay8 x2
  have v89 := k1_pay9 v1 v3 v4 v6 v41 v46 v47; have v102 := k1_pay10 v1 v3 v4; have v103 := k1_pay11 v6
  have v153 := k1_pay12 v1 v3 v4 v6 v89 v102 v103; have v158 := k1_pay13 v1 v3; have v160 := k1_pay14 v4
  have v201 := k1_pay15 v1 v3 v4 v6 v153 v158 v160; have v216 := k1_pay16 v1 v3 v4 v6
  have v265 := k1_pay17 v1 v3 v4 v6 v201 v216; have v270 := k1_pay18 v1 v3; have v273 := k1_pay19 v4
  have v329 := k1_pay20 v1 v3 v4 v6 v265 v270 v273
  have v377 := k1_pay21 v1 v3 v4 v6 v329; have v386 := k1_pay22 v1 v3 v4
  have v441 := k1_pay23 v1 v3 v4 v6 v377 v386; have v442 := k1_pay24 v1
  have v489 := k1_pay25 v1 v3 v4 v6 v441 v442; have v498 := k1_pay26 v1 v3 v4; have v499 := k1_pay27 v6
  k1_pay1 v1 v3 v4 v6 v8 v489 v498 v499

set_option maxRecDepth 65536 in
set_option maxHeartbeats 4000000 in
/-- THE BLOCK AT AN INDEX: the accumulated sum, then the last addend. -/
theorem pairPay_apply (x0 : Vec Ideal S256x32 .f32) (x1 : Vec Ideal S32x256 .f32) (x2 x3 : Vec Ideal S32 .f32) (x4 : Vec Ideal S1 .f32)
    (p q : Fin 256) :
    pairPay (F := Ideal) x0 x1 x2 x3 x4 (ix2 p q)
      = (∑ k : Fin 32, x3 (ix1 k) * max (x0 (ix2 p k) - x1 (ix2 k q) + x2 (ix1 k)) 0) + x4 (ix1 (0 : Fin 1)) := by
  rw [sum32]
  unfold pairPay k1_pay1 k1_pay2 k1_pay3 k1_pay4 k1_pay5 k1_pay6 k1_pay7 k1_pay8 k1_pay9 k1_pay10 k1_pay11 k1_pay12 k1_pay13 k1_pay14 k1_pay15 k1_pay16 k1_pay17 k1_pay18 k1_pay19 k1_pay20 k1_pay21 k1_pay22 k1_pay23 k1_pay24 k1_pay25 k1_pay26 k1_pay27
  simp only [addf_apply, mulf_apply, subf_apply, maximumf_apply, broadcast_apply, col_apply, rowb_apply, entry_apply,
    only_apply, k1_pay2, k1_pay3, k1_pay4, k1_pay5, shapeCast_self, Ideal.ofBits_def, Ideal.ofBits_zero_f32]

end Cert.KernelIdeal.PairValue

end
-- ==== Proof.PairBlocks.lean ====
/-
  The pairwise kernel, from blocks to the whole result array, on the extended reals.

  The kernel runs on a 4 x 4 grid. At point `(i, j)` it reads row block `i` (256 rows) of the first projected array
  `[1024, 32]`, column block `j` (256 columns) of the transposed second one `[32, 1024]`, the whole bias and weight
  32-vectors and the whole last bias, and writes block `(i, j)` `[256, 256]` of the result. The stored block at
  `(p, q)` is `∑ k, w[k] · max (a[p, k] − b[k, q] + bias[k]) 0 + d[0]` of the loaded blocks; each loaded block is its
  array read at the block's offset, and the output's offsets are the row block's and the column block's. So every
  point writes back the restriction to its block of ONE function `G1` of the arrays as the region finds them, the
  sixteen blocks tile the result array, and the array ends holding `G1`.
-/
import proofs.«156606_j7370163880501_2_alg».proof.Proof.IdealStaging
import proofs.«156606_j7370163880501_2_alg».proof.Proof.PairPayload

noncomputable section

namespace Cert.KernelIdeal.PairValue

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The pairwise similarity from a left array `a : [1024, 32]`, a right array `b : [32, 1024]`, a bias and a weight
    32-vector and a last bias: `∑ k, w[k] · max (a[i, k] − b[k, j] + bias[k]) 0 + d[0]`. -/
def pairSim (a : S1024x32.Idx → EReal) (b : S32x1024.Idx → EReal) (bias w : S32.Idx → EReal) (d : S1.Idx → EReal)
    (i j : Fin 1024) : EReal :=
  (∑ k : Fin 32, w (ix1 k) * max (a (ix2 i k) - b (ix2 k j) + bias (ix1 k)) 0) + d (ix1 (0 : Fin 1))

/-- The similarity of row `i` of the first projected array and column `j` of the second, from the region's arrays. -/
def g1 (c : Dev nD) (i j : Fin 1024) : EReal :=
  pairSim (V c main_v67) (V c main_v70) (V c main_arg8) (V c main_v71) (V c main_arg10) i j

/-- The whole result array as one function of the region's arrays. -/
def G1 (c : Dev nD) : S1024x1024.Idx → EReal :=
  fun ij => g1 V c ⟨(ij 0).val, (ij 0).isLt⟩ ⟨(ij 1).val, (ij 1).isLt⟩

/-- The zero offsets of a load or store that spans a whole staging buffer. -/
theorem zero2 : (![0, 0] : Fin 2 → Nat) = fun _ => 0 := funext fun a => by fin_cases a <;> rfl
theorem zero1 : (![0] : Fin 1 → Nat) = fun _ => 0 := funext fun a => by fin_cases a <;> rfl

/-- The printed index maps over the grid. -/
theorem idx_facts : ∀ t : Fin cfg1.N,
    win1_0.index t (0 : Fin 2) = win1_5.index t (0 : Fin 2)
    ∧ win1_0.index t (1 : Fin 2) = 0
    ∧ win1_1.index t (0 : Fin 2) = 0
    ∧ win1_1.index t (1 : Fin 2) = win1_5.index t (1 : Fin 2)
    ∧ win1_2.index t (0 : Fin 1) = 0
    ∧ win1_3.index t (0 : Fin 1) = 0
    ∧ win1_4.index t (0 : Fin 1) = 0
    ∧ win1_5.index t (0 : Fin 2) ≤ 3
    ∧ win1_5.index t (1 : Fin 2) ≤ 3 :=
  (by decide +kernel : ∀ t : Fin grid1.N, _)

/-- Every block of the result array is some point's. -/
theorem idx_onto : ∀ (q0 : Fin 4) (q1 : Fin 4), ∃ t : Fin cfg1.N, win1_5.index t = ![q0.val, q1.val] :=
  (by decide +kernel : ∀ (q0 : Fin 4) (q1 : Fin 4), ∃ t : Fin grid1.N, win1_5.index t = ![q0.val, q1.val])

/-- The stored block is the payload read at an index. -/
theorem pay_apply (x0 : Vec Ideal S256x32 .f32) (x1 : Vec Ideal S32x256 .f32) (x2 x3 : Vec Ideal S32 .f32) (x4 : Vec Ideal S1 .f32)
    (p q : Fin 256) :
    pay1_5 (F := Ideal) x0 x1 x2 x3 x4 (ix2 p q)
      = (∑ k : Fin 32, x3 (ix1 k) * max (x0 (ix2 p k) - x1 (ix2 k q) + x2 (ix1 k)) 0) + x4 (ix1 (0 : Fin 1)) :=
  pairPay_apply x0 x1 x2 x3 x4 p q

/-- WHAT POINT `t` WRITES BACK is block `t` of `G1`: the payload at `(p, q)` of the loaded blocks, each loaded block
    read where the output block's rectangle says. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zero2]
  simp only [View.ld_unit_zero (S := S256x32) zero2, View.ld_unit_zero (S := S32x256) zero2,
    View.ld_unit_zero (S := S32) zero1, View.ld_unit_zero (S := S1) zero1]
  obtain ⟨e0, e1, e2, e3, e4, e5, e6, e7, e8⟩ := idx_facts t
  funext y
  obtain ⟨p, q, rfl⟩ : ∃ (p q : Fin 256), y = (ix2 p q : S256x256.Idx) := ⟨y 0, y 1, eq_ix2 (n0 := 256) (n1 := 256) y⟩
  show pay1_5 (iblk1 V c 0 t) (iblk1 V c 1 t) (iblk1 V c 2 t) (iblk1 V c 3 t) (iblk1 V c 4 t) (ix2 p q)
    = G1 V c (((cfg1.win 5).blk t).view.emb (ix2 p q))
  rw [pay_apply]
  have hp := p.isLt
  have hq := q.isLt
  have h0 : ∀ k : Fin 32, iblk1 V c 0 t (ix2 p k)
      = V c main_v67 (ix2 (⟨(((cfg1.win 5).blk t).view.emb (ix2 p q) 0).val, (((cfg1.win 5).blk t).view.emb (ix2 p q) 0).isLt⟩ : Fin 1024) k) := fun k => by
    show V c main_v67 (((cfg1.win 0).blk t).view.emb (ix2 p k)) = _
    refine congrArg _ (funext fun a => Fin.ext ?_)
    match a with
    | ⟨0, _⟩ => show win1_0.index t (0 : Fin 2) * 256 + 1 * p.val = win1_5.index t (0 : Fin 2) * 256 + 1 * p.val; omega
    | ⟨1, _⟩ => show win1_0.index t (1 : Fin 2) * 32 + 1 * k.val = k.val; omega
  have h1 : ∀ k : Fin 32, iblk1 V c 1 t (ix2 k q)
      = V c main_v70 (ix2 k (⟨(((cfg1.win 5).blk t).view.emb (ix2 p q) 1).val, (((cfg1.win 5).blk t).view.emb (ix2 p q) 1).isLt⟩ : Fin 1024)) := fun k => by
    show V c main_v70 (((cfg1.win 1).blk t).view.emb (ix2 k q)) = _
    refine congrArg _ (funext fun a => Fin.ext ?_)
    match a with
    | ⟨0, _⟩ => show win1_1.index t (0 : Fin 2) * 32 + 1 * k.val = k.val; omega
    | ⟨1, _⟩ => show win1_1.index t (1 : Fin 2) * 256 + 1 * q.val = win1_5.index t (1 : Fin 2) * 256 + 1 * q.val; omega
  have h2 : ∀ k : Fin 32, iblk1 V c 2 t (ix1 k) = V c main_arg8 (ix1 k) := fun k => by
    show V c main_arg8 (((cfg1.win 2).blk t).view.emb (ix1 k)) = _
    refine congrArg _ (funext fun a => Fin.ext ?_)
    match a with
    | ⟨0, _⟩ => show win1_2.index t (0 : Fin 1) * 32 + 1 * k.val = k.val; omega
  have h3 : ∀ k : Fin 32, iblk1 V c 3 t (ix1 k) = V c main_v71 (ix1 k) := fun k => by
    show V c main_v71 (((cfg1.win 3).blk t).view.emb (ix1 k)) = _
    refine congrArg _ (funext fun a => Fin.ext ?_)
    match a with
    | ⟨0, _⟩ => show win1_3.index t (0 : Fin 1) * 32 + 1 * k.val = k.val; omega
  have h4 : iblk1 V c 4 t (ix1 (0 : Fin 1)) = V c main_arg10 (ix1 (0 : Fin 1)) := by
    show V c main_arg10 (((cfg1.win 4).blk t).view.emb (ix1 (0 : Fin 1))) = _
    refine congrArg _ (funext fun a => Fin.ext ?_)
    match a with
    | ⟨0, _⟩ => show win1_4.index t (0 : Fin 1) * 1 + 1 * 0 = 0; omega
  simp only [h0, h1, h2, h3, h4]
  rfl

/-- An index of the result array is in point `t`'s block iff each coordinate is in the block's range on its axis. -/
theorem mem_blk (t : Fin cfg1.N) (i : S1024x1024.Idx) :
    i ∈ ((cfg1.win 5).blk t).view.set ↔ ∀ a : Fin 2, win1_5.index t a * S256x256.size a ≤ (i a).val
      ∧ (i a).val < win1_5.index t a * S256x256.size a + S256x256.size a := by
  show i ∈ ((View.whole main_v72).slice (win1_5.rect t)).set ↔ _
  rw [View.set_slice_whole, Rect.mem_set_unit]
  exact Iff.rfl

/-- The sixteen blocks tile the result array: index `(r, s)` lies in the block of the point whose block indices are
    `(r / 256, s / 256)`. -/
theorem cover (i : S1024x1024.Idx) :
    ∃ t : Fin cfg1.N, (cfg1.win 5).flush t = true ∧ i ∈ ((cfg1.win 5).blk t).view.set := by
  have hi0 : (i 0).val < 1024 := (i 0).isLt
  have hi1 : (i 1).val < 1024 := (i 1).isLt
  obtain ⟨t, ht⟩ := idx_onto ⟨(i 0).val / 256, by omega⟩ ⟨(i 1).val / 256, by omega⟩
  have q0 : win1_5.index t (0 : Fin 2) = (i 0).val / 256 := congrFun ht 0
  have q1 : win1_5.index t (1 : Fin 2) = (i 1).val / 256 := congrFun ht 1
  refine ⟨t, flush1_5 t, ?_⟩
  rw [mem_blk]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 256 ≤ (i 1).val ∧ (i 1).val < win1_5.index t (1 : Fin 2) * 256 + 256
    omega

/-- THE RESULT ARRAY after the pairwise kernel: at `(i, j)` the similarity of row `i` and column `j`. -/
theorem final1 (c : Dev nD) : (dat1 V c).arrAt 5 cfg1.N = G1 V c :=
  (dat1 V c).arrAt_eq_of_cover 5 (G1 V c) (fun t _ => flushed1_eq V c t) cover

end Cert.KernelIdeal.PairValue

end
-- ==== Proof.ProjPayload.lean ====
/-
  The projection body's stored block, read at an index.

  The body takes a `[1, 1024, 256]` block `x` of selected channel vectors and the weights of three dense layers, and
  stores `((max (max (x · w1 + b1) 0 · w2 + b2) 0) · w3)` as a `[1, 1024, 32]` block: two rectified layers, then the
  third layer's linear part. Changes of float format in between are the identity on extended reals, and each matrix
  product into a zero accumulator is the plain sum over the contracted index. So the entry at `(0, n, k)` is the
  projection of point `n`'s features.
-/
import proofs.«156606_j7370163880501_2_alg».proof.Proof.Gen.KernelIdeal.Skeleton
import proofs.«156606_j7370163880501_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ProjValue

open Idealize.ShloMosaic Idealize.ShloMosaic.ValueIdx Cert.KernelIdeal Cert.KernelIdeal.Gen

theorem mm1_apply_l0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm1_apply_r1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- A `[1024, 256] × [256, 256]` product into a zero accumulator, read at `(i, j)`: `∑ k, l[i, k] * r[k, j]`. -/
theorem mm1_apply {φ₁ φ₂ : FTy} (l : FVec Ideal S1024x256 φ₁) (r : FVec Ideal S256x256 φ₂) (i : Fin 1024) (j : Fin 256) :
    matmul dot_S1024x256_S256x256_S1024x256_1_0_0_1_n_n none l r (constant S1024x256 .f32 0x00000000#32) (ix2 i j) = ∑ k : Fin 256, l (ix2 i k) * r (ix2 k j) := by
  refine (Ideal.matmul_constant_zero_apply dot_S1024x256_S256x256_S1024x256_1_0_0_1_n_n none l r (ix2 i j)).trans ?_
  rw [← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 i j) ((ValueIdx.contrEquiv1 dot_S1024x256_S256x256_S1024x256_1_0_0_1_n_n 256 rfl rfl).symm k) = ix2 i k := funext fun a => Fin.ext (by
    match a with
    | ⟨0, _⟩ => exact mm1_apply_l0 _ _
    | ⟨1, _⟩ => exact (dot_S1024x256_S256x256_S1024x256_1_0_0_1_n_n.lhsIdx_val_of_single rfl _ _).trans hk)
  have er : dot_S1024x256_S256x256_S1024x256_1_0_0_1_n_n.rhsIdx (ix2 i j) ((ValueIdx.contrEquiv1 dot_S1024x256_S256x256_S1024x256_1_0_0_1_n_n 256 rfl rfl).symm k) = ix2 k j := funext fun a => Fin.ext (by
    match a with
    | ⟨0, _⟩ => exact (dot_S1024x256_S256x256_S1024x256_1_0_0_1_n_n.rhsIdx_val_of_single rfl _ _).trans hk
    | ⟨1, _⟩ => exact mm1_apply_r1 _ _)
  rw [el, er]

theorem mm2_apply_l0 (i : S1024x128.Idx) (q : dot_S1024x256_S256x128_S1024x128_1_0_0_1_n_n.contr.Idx) : (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem mm2_apply_r1 (i : S1024x128.Idx) (q : dot_S1024x256_S256x128_S1024x128_1_0_0_1_n_n.contr.Idx) : (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
/-- A `[1024, 256] × [256, 128]` product into a zero accumulator, read at `(i, j)`: `∑ k, l[i, k] * r[k, j]`. -/
theorem mm2_apply {φ₁ φ₂ : FTy} (l : FVec Ideal S1024x256 φ₁) (r : FVec Ideal S256x128 φ₂) (i : Fin 1024) (j : Fin 128) :
    matmul dot_S1024x256_S256x128_S1024x128_1_0_0_1_n_n none l r (constant S1024x128 .f32 0x00000000#32) (ix2 i j) = ∑ k : Fin 256, l (ix2 i k) * r (ix2 k j) := by
  refine (Ideal.matmul_constant_zero_apply dot_S1024x256_S256x128_S1024x128_1_0_0_1_n_n none l r (ix2 i j)).trans ?_
  rw [← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 i j) ((ValueIdx.contrEquiv1 dot_S1024x256_S256x128_S1024x128_1_0_0_1_n_n 256 rfl rfl).symm k) = ix2 i k := funext fun a => Fin.ext (by
    match a with
    | ⟨0, _⟩ => exact mm2_apply_l0 _ _
    | ⟨1, _⟩ => exact (dot_S1024x256_S256x128_S1024x128_1_0_0_1_n_n.lhsIdx_val_of_single rfl _ _).trans hk)
  have er : dot_S1024x256_S256x128_S1024x128_1_0_0_1_n_n.rhsIdx (ix2 i j) ((ValueIdx.contrEquiv1 dot_S1024x256_S256x128_S1024x128_1_0_0_1_n_n 256 rfl rfl).symm k) = ix2 k j := funext fun a => Fin.ext (by
    match a with
    | ⟨0, _⟩ => exact (dot_S1024x256_S256x128_S1024x128_1_0_0_1_n_n.rhsIdx_val_of_single rfl _ _).trans hk
    | ⟨1, _⟩ => exact mm2_apply_r1 _ _)
  rw [el, er]

theorem mm3_apply_l0 (i : S1024x32.Idx) (q : dot_S1024x128_S128x32_S1024x32_1_0_0_1_n_n.contr.Idx) : (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
theorem mm3_apply_r1 (i : S1024x32.Idx) (q : dot_S1024x128_S128x32_S1024x32_1_0_0_1_n_n.contr.Idx) : (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl
/-- A `[1024, 128] × [128, 32]` product into a zero accumulator, read at `(i, j)`: `∑ k, l[i, k] * r[k, j]`. -/
theorem mm3_apply {φ₁ φ₂ : FTy} (l : FVec Ideal S1024x128 φ₁) (r : FVec Ideal S128x32 φ₂) (i : Fin 1024) (j : Fin 32) :
    matmul dot_S1024x128_S128x32_S1024x32_1_0_0_1_n_n none l r (constant S1024x32 .f32 0x00000000#32) (ix2 i j) = ∑ k : Fin 128, l (ix2 i k) * r (ix2 k j) := by
  refine (Ideal.matmul_constant_zero_apply dot_S1024x128_S128x32_S1024x32_1_0_0_1_n_n none l r (ix2 i j)).trans ?_
  rw [← Equiv.sum_comp (ValueIdx.contrEquiv1 dot_S1024x128_S128x32_S1024x32_1_0_0_1_n_n 128 rfl rfl).symm]
  refine Finset.sum_congr rfl fun k _ => ?_
  have hk := ValueIdx.contrEquiv1_symm_val dot_S1024x128_S128x32_S1024x32_1_0_0_1_n_n 128 rfl rfl k
  have el : dot_S1024x128_S128x32_S1024x32_1_0_0_1_n_n.lhsIdx (ix2 i j) ((ValueIdx.contrEquiv1 dot_S1024x128_S128x32_S1024x32_1_0_0_1_n_n 128 rfl rfl).symm k) = ix2 i k := funext fun a => Fin.ext (by
    match a with
    | ⟨0, _⟩ => exact mm3_apply_l0 _ _
    | ⟨1, _⟩ => exact (dot_S1024x128_S128x32_S1024x32_1_0_0_1_n_n.lhsIdx_val_of_single rfl _ _).trans hk)
  have er : dot_S1024x128_S128x32_S1024x32_1_0_0_1_n_n.rhsIdx (ix2 i j) ((ValueIdx.contrEquiv1 dot_S1024x128_S128x32_S1024x32_1_0_0_1_n_n 128 rfl rfl).symm k) = ix2 k j := funext fun a => Fin.ext (by
    match a with
    | ⟨0, _⟩ => exact (dot_S1024x128_S128x32_S1024x32_1_0_0_1_n_n.rhsIdx_val_of_single rfl _ _).trans hk
    | ⟨1, _⟩ => exact mm3_apply_r1 _ _)
  rw [el, er]

/-- A bias vector laid out as one row and repeated down the rows, read at `(n, c)`: the vector at `c`. -/
theorem bias_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (n : Fin a) (c : Fin b) :
    broadcastTo ⟨2, ![a, b]⟩ (shapeCast ⟨2, ![1, b]⟩ v h1) h2 (ix2 n c) = v (ix1 c) :=
  (broadcastTo_1b_ab_apply _ h2 n c).trans (shapeCast_a_1a_apply v h1 0 c)

/-- THE BLOCK AT AN INDEX: the projected features of the block's point `n`. -/
theorem projPay_apply (x : Vec Ideal S1x1024x256 .f32) (w1 : Vec Ideal S256x256 .f32) (b1 : Vec Ideal S256 .f32)
    (w2 : Vec Ideal S256x128 .f32) (b2 : Vec Ideal S128 .f32) (w3 : Vec Ideal S128x32 .f32) (n : Fin 1024) (k : Fin 32) :
    k0_pay1 (F := Ideal) x w1 b1 w2 b2 w3 (ix3 (0 : Fin 1) n k)
      = Cert.PairSim.proj (Cert.PairSim.feats (fun n e => x (ix3 (0 : Fin 1) n e)) w1 b1 w2 b2) w3 n k := by
  unfold k0_pay1
  refine (shapeCast_ab_1ab_apply _ _ 0 n k).trans ?_
  rw [mm3_apply]
  unfold Cert.PairSim.proj
  refine Finset.sum_congr rfl fun d _ => ?_
  refine congrArg (· * w3 (ix2 d k)) ?_
  show max (_ + _) _ = _
  rw [mm2_apply, bias_apply]
  unfold Cert.PairSim.feats
  show _ = Cert.PairSim.layer _ w2 b2 n d
  unfold Cert.PairSim.layer
  rw [broadcast_apply]
  show max (_ + b2 (ix1 d)) (Ideal.ofBits .f32 0x00000000#32) = _
  rw [Ideal.ofBits_zero_f32]
  refine congrArg (fun z => max (z + b2 (ix1 d)) 0) ?_
  refine Finset.sum_congr rfl fun c _ => ?_
  refine congrArg (· * w2 (ix2 c d)) ?_
  show max (_ + _) _ = _
  rw [mm1_apply, bias_apply, broadcast_apply]
  show max (_ + b1 (ix1 c)) (Ideal.ofBits .f32 0x00000000#32) = _
  rw [Ideal.ofBits_zero_f32]
  refine congrArg (fun z => max (z + b1 (ix1 c)) 0) ?_
  refine Finset.sum_congr rfl fun e _ => ?_
  refine congrArg (· * w1 (ix2 e c)) ?_
  exact shapeCast_1ab_ab_apply x _ n e

end Cert.KernelIdeal.ProjValue

end
-- ==== Proof.ProjBlocks.lean ====
/-
  From the projection kernel's blocks to its whole result array.

  The grid has two points; point `t` reads block `t` of the stacked `[2, 1024, 256]` array of selected channel vectors
  (one block per index table) and the six weight arrays whole, and writes block `t` of the `[2, 1024, 32]` result. The
  two written blocks tile the result, so after the run the result at `(s, n, k)` is the projection of point `n`'s
  features computed from table `s`'s selected vectors.
-/
import proofs.«156606_j7370163880501_2_alg».proof.Proof.Gen.KernelIdeal.Skeleton
import proofs.«156606_j7370163880501_2_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«156606_j7370163880501_2_alg».proof.Proof.IdealStaging
import proofs.«156606_j7370163880501_2_alg».proof.Proof.ProjPayload

noncomputable section

namespace Cert.KernelIdeal.ProjValue

open Idealize.ShloMosaic Idealize.ShloMosaic.TcCoe Idealize.ShloMosaic.ValueIdx Idealize.SL.Sem
open Cert.KernelIdeal Cert.KernelIdeal.Gen Cert.KernelIdeal.Fr
open Idealize.ShloMosaic.Pipeline (Dat)

variable (V : (c : Dev nD) → (b : Ref sig .tc) → Buf (Elt Ideal) ((c : Thread nD τ).loc b))

/-- The projected features of point `n` from table `s`'s selected vectors, as the region's entry contents give them. -/
def g0 (c : Dev nD) (s : Fin 2) (n : Fin 1024) (k : Fin 32) : EReal :=
  Cert.PairSim.proj (Cert.PairSim.feats (fun n e => (V c main_v64 : S2x1024x256.Idx → EReal) (ix3 s n e))
    (V c main_arg3) (V c main_arg4) (V c main_arg5) (V c main_arg6)) (V c main_arg7) n k

/-- The whole result array. -/
def G0 (c : Dev nD) : S2x1024x32.Idx → EReal := fun i =>
  g0 V c ⟨(i 0).val, (i 0).isLt⟩ ⟨(i 1).val, (i 1).isLt⟩ ⟨(i 2).val, (i 2).isLt⟩

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input block and the output block move together along the leading
    axis, every other block index is zero. -/
theorem idx_facts0 : ∀ t : Fin cfg0.N, win0_0.index t (0 : Fin 3) = win0_6.index t (0 : Fin 3)
    ∧ win0_0.index t (1 : Fin 3) = 0 ∧ win0_0.index t (2 : Fin 3) = 0
    ∧ win0_6.index t (1 : Fin 3) = 0 ∧ win0_6.index t (2 : Fin 3) = 0 ∧ win0_6.index t (0 : Fin 3) ≤ 1
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0 :=
  (by decide +kernel : ∀ t : Fin grid0.N, _)

/-- Each of the two result blocks is some point's. -/
theorem idx_onto0 : ∀ q : Fin 2, ∃ t : Fin cfg0.N, win0_6.index t = ![q.val, 0, 0] :=
  (by decide +kernel : ∀ q : Fin 2, ∃ t : Fin grid0.N, win0_6.index t = ![q.val, 0, 0])

set_option maxHeartbeats 4000000 in
/-- WHAT POINT `t` WRITES BACK is block `t` of `G0`. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz3]
  simp only [View.ld_unit_zero (S := S1x1024x256) hz3, View.ld_unit_zero (S := S256x256) hz2, View.ld_unit_zero (S := S256) hz1,
    View.ld_unit_zero (S := S256x128) hz2, View.ld_unit_zero (S := S128) hz1, View.ld_unit_zero (S := S128x32) hz2]
  funext y
  obtain ⟨e0, e1, e2, e3, e4, e5, f10, f11, f20, f30, f31, f40, f50, f51⟩ := idx_facts0 t
  -- the weight windows are the whole arrays
  have hw1 : iblk0 V c 1 t = V c main_arg3 := funext fun z =>
    show V c main_arg3 (((cfg0.win 1).blk t).view.emb z) = V c main_arg3 z from congrArg _ (funext fun a => Fin.ext (by
      match a with
      | ⟨0, _⟩ => show win0_1.index t (0 : Fin 2) * 256 + 1 * (z 0).val = (z 0).val; omega
      | ⟨1, _⟩ => show win0_1.index t (1 : Fin 2) * 256 + 1 * (z 1).val = (z 1).val; omega))
  have hw2 : iblk0 V c 2 t = V c main_arg4 := funext fun z =>
    show V c main_arg4 (((cfg0.win 2).blk t).view.emb z) = V c main_arg4 z from congrArg _ (funext fun a => Fin.ext (by
      match a with
      | ⟨0, _⟩ => show win0_2.index t (0 : Fin 1) * 256 + 1 * (z 0).val = (z 0).val; omega))
  have hw3 : iblk0 V c 3 t = V c main_arg5 := funext fun z =>
    show V c main_arg5 (((cfg0.win 3).blk t).view.emb z) = V c main_arg5 z from congrArg _ (funext fun a => Fin.ext (by
      match a with
      | ⟨0, _⟩ => show win0_3.index t (0 : Fin 2) * 256 + 1 * (z 0).val = (z 0).val; omega
      | ⟨1, _⟩ => show win0_3.index t (1 : Fin 2) * 128 + 1 * (z 1).val = (z 1).val; omega))
  have hw4 : iblk0 V c 4 t = V c main_arg6 := funext fun z =>
    show V c main_arg6 (((cfg0.win 4).blk t).view.emb z) = V c main_arg6 z from congrArg _ (funext fun a => Fin.ext (by
      match a with
      | ⟨0, _⟩ => show win0_4.index t (0 : Fin 1) * 128 + 1 * (z 0).val = (z 0).val; omega))
  have hw5 : iblk0 V c 5 t = V c main_arg7 := funext fun z =>
    show V c main_arg7 (((cfg0.win 5).blk t).view.emb z) = V c main_arg7 z from congrArg _ (funext fun a => Fin.ext (by
      match a with
      | ⟨0, _⟩ => show win0_5.index t (0 : Fin 2) * 128 + 1 * (z 0).val = (z 0).val; omega
      | ⟨1, _⟩ => show win0_5.index t (1 : Fin 2) * 32 + 1 * (z 1).val = (z 1).val; omega))
  obtain ⟨u, n, k, rfl⟩ : ∃ (u : Fin 1) (n : Fin 1024) (k : Fin 32), y = (ix3 u n k : S1x1024x32.Idx) := ⟨y 0, y 1, y 2, eq_ix3 y⟩
  obtain rfl : u = 0 := Subsingleton.elim _ _
  have hs : win0_6.index t (0 : Fin 3) < 2 := by omega
  have hemb : ((cfg0.win 6).blk t).view.emb (ix3 (0 : Fin 1) n k) = (ix3 (⟨win0_6.index t (0 : Fin 3), hs⟩ : Fin 2) n k : S2x1024x32.Idx) :=
    funext fun a => Fin.ext (by
      match a with
      | ⟨0, _⟩ => show win0_6.index t (0 : Fin 3) * 1 + 1 * 0 = win0_6.index t (0 : Fin 3); omega
      | ⟨1, _⟩ => show win0_6.index t (1 : Fin 3) * 1024 + 1 * n.val = n.val; omega
      | ⟨2, _⟩ => show win0_6.index t (2 : Fin 3) * 32 + 1 * k.val = k.val; omega)
  have hx : (fun (n : Fin 1024) (e : Fin 256) => iblk0 V c 0 t (ix3 (0 : Fin 1) n e))
      = fun n e => (V c main_v64 : S2x1024x256.Idx → EReal) (ix3 (⟨win0_6.index t (0 : Fin 3), hs⟩ : Fin 2) n e) :=
    funext fun n => funext fun e =>
      show V c main_v64 (((cfg0.win 0).blk t).view.emb (ix3 (0 : Fin 1) n e)) = _ from congrArg _ (funext fun a => Fin.ext (by
        match a with
        | ⟨0, _⟩ => show win0_0.index t (0 : Fin 3) * 1 + 1 * 0 = win0_6.index t (0 : Fin 3); omega
        | ⟨1, _⟩ => show win0_0.index t (1 : Fin 3) * 1024 + 1 * n.val = n.val; omega
        | ⟨2, _⟩ => show win0_0.index t (2 : Fin 3) * 256 + 1 * e.val = e.val; omega))
  show k0_pay1 (F := Ideal) (iblk0 V c 0 t) (iblk0 V c 1 t) (iblk0 V c 2 t) (iblk0 V c 3 t) (iblk0 V c 4 t) (iblk0 V c 5 t) (ix3 (0 : Fin 1) n k)
    = G0 V c (((cfg0.win 6).blk t).view.emb (ix3 (0 : Fin 1) n k))
  rw [projPay_apply, hemb, hx, hw1, hw2, hw3, hw4, hw5]
  rfl

/-- An index of the result is in point `t`'s block iff each coordinate is in the block's range on its axis. -/
theorem mem_blk0 (t : Fin cfg0.N) (i : S2x1024x32.Idx) :
    i ∈ ((cfg0.win 6).blk t).view.set ↔ ∀ a : Fin 3, win0_6.index t a * S1x1024x32.size a ≤ (i a).val ∧ (i a).val < win0_6.index t a * S1x1024x32.size a + S1x1024x32.size a := by
  show i ∈ ((View.whole main_v65).slice (win0_6.rect t)).set ↔ _
  rw [View.set_slice_whole, Rect.mem_set_unit]
  exact Iff.rfl

/-- The two blocks cover the result. -/
theorem cover0 (i : S2x1024x32.Idx) : ∃ t : Fin cfg0.N, (cfg0.win 6).flush t = true ∧ i ∈ ((cfg0.win 6).blk t).view.set := by
  have hi0 : (i 0).val < 2 := (i 0).isLt
  have hi1 : (i 1).val < 1024 := (i 1).isLt
  have hi2 : (i 2).val < 32 := (i 2).isLt
  obtain ⟨t, ht⟩ := idx_onto0 ⟨(i 0).val, hi0⟩
  have q0 : win0_6.index t (0 : Fin 3) = (i 0).val := congrFun ht 0
  have q1 : win0_6.index t (1 : Fin 3) = 0 := congrFun ht 1
  have q2 : win0_6.index t (2 : Fin 3) = 0 := congrFun ht 2
  refine ⟨t, flush0_6 t, ?_⟩
  rw [mem_blk0]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 32 ≤ (i 2).val ∧ (i 2).val < win0_6.index t (2 : Fin 3) * 32 + 32; omega

/-- THE RESULT ARRAY after the pallas_call: the projected features of both tables' points. -/
theorem final0 (c : Dev nD) : (dat0 V c).arrAt 6 cfg0.N = G0 V c :=
  (dat0 V c).arrAt_eq_of_cover 6 (G0 V c) (fun t _ => flushed0_eq V c t) (cover0)

end Cert.KernelIdeal.ProjValue

end
-- ==== Proof.KernelGlue.lean ====
/-
  The kernel program's host operations, read at an index.

  Before its first call the program prepares, from the feature map and each of the two index tables, the table's
  selected channel vectors: the table's three rows are cut out and flattened, each word is wrapped (a negative one has
  the axis' extent added), the three wrapped columns and a column of zeros for the channel axis are joined into a
  `[1024, 4]` table of start indices, and a gather reads, per row of that table, the 256 channels at the start index —
  each component read signed and clamped so that the slice fits (`[0, 1]`, `0`, `[0, 359]`, `[0, 359]`). The two
  `[1024, 256]` results are stacked into `[2, 1024, 256]`. Read at `(0, n, ch)` and `(1, n, ch)` this is the
  specification's `row` of the first and of the second table. Between the two calls the program cuts the stacked
  projections apart again, transposes the second, and flattens the last layer's weights.
-/
import proofs.«156606_j7370163880501_2_alg».proof.Proof.Gen.KernelIdeal.Launch
import proofs.«156606_j7370163880501_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 4096

noncomputable section

namespace Cert.KernelIdeal.Glue

open Cert.KernelIdeal Cert.KernelIdeal.Gen Idealize.ShloMosaic Idealize.ShloMosaic.ValueIdx Idealize.SL.Sem
open Cert.PairSim (clampTo wrap row)

/-! ## The layout operations read at an index -/

/-- Row `k` of an index table, cut out and flattened, read at `n`. -/
theorem tabRow_at {α : Type} (o : Nat) (x : S3x1024.Idx → α) (hs : S3x1024.Slices ![o, 0] S1x1024)
    (hc : S1x1024.ShapeCasts S1024) (k : Fin 3) (hk : k.val = o) (n : Fin 1024) :
    shapeCast S1024 (extractStridedSlice S1x1024 ![o, 0] x hs) hc (ix1 n) = x (ix2 k n) :=
  (shapeCast_1a_a_apply _ hc n).trans (slice2_axis0_apply o x hs (0 : Fin 1) n k (by rw [hk]; rfl))

/-- A vector made a column reads, at `(n, 0)`, the vector at `n`. -/
theorem col_at {α : Type} (v : S1024.Idx → α) (hb : S1024.BroadcastsInDim S1024x1 (![0] : Fin 1 → Fin S1024x1.rank))
    (n : Fin 1024) : broadcastInDim S1024x1 ![0] hb v (ix2 n (0 : Fin 1)) = v (ix1 n) := by
  unfold broadcastInDim
  refine congrArg v (funext fun a => ?_)
  match a with
  | ⟨0, _⟩ => rfl

/-- A `[1024, 256]` array given a leading unit axis reads, at `(0, n, ch)`, the array at `(n, ch)`. -/
theorem lead_at {α : Type} (T : S1024x256.Idx → α)
    (hb : S1024x256.BroadcastsInDim S1x1024x256 (![1, 2] : Fin 2 → Fin S1x1024x256.rank)) (n : Fin 1024) (ch : Fin 256) :
    broadcastInDim S1x1024x256 ![1, 2] hb T (ix3 (0 : Fin 1) n ch) = T (ix2 n ch) := by
  unfold broadcastInDim
  refine congrArg T (funext fun a => ?_)
  match a with
  | ⟨0, _⟩ => rfl
  | ⟨1, _⟩ => rfl

/-- The gather's result `[1024, 1, 256, 1, 1]` flattened to `[1024, 256]` reads, at `(n, ch)`, the result at `(n, 0, ch, 0, 0)`. -/
theorem flat_at {α : Type} (G : S1024x1x256x1x1.Idx → α) (hc : S1024x1x256x1x1.ShapeCasts S1024x256) (n : Fin 1024) (ch : Fin 256) :
    shapeCast S1024x256 G hc (ix2 n ch) = G (ix5 n (0 : Fin 1) ch (0 : Fin 1) (0 : Fin 1)) :=
  shapeCast_apply G hc _ _ (by
    rw [Shape.rowMajor_val_five, Shape.rowMajor_val_two]
    show ((((n.val * 1 + 0) * 256 + ch.val) * 1 + 0) * 1 + 0) = n.val * 256 + ch.val
    omega)

/-- Two `[1, 1024, 256]` arrays stacked: block 0 is the first, block 1 the second. -/
theorem stack_at_0 {α : Type} (a b : S1x1024x256.Idx → α)
    (h : Shape.Concatenates ([(⟨S1x1024x256, a⟩ : (s : Shape) × (s.Idx → α)), ⟨S1x1024x256, b⟩].map (·.1)) S2x1024x256 0)
    (n : Fin 1024) (ch : Fin 256) :
    concatenate S2x1024x256 0 [⟨S1x1024x256, a⟩, ⟨S1x1024x256, b⟩] h (ix3 (0 : Fin 2) n ch) = a (ix3 (0 : Fin 1) n ch) :=
  concatenate_apply_piece (0 : Fin S2x1024x256.rank) _ h (ix3 (0 : Fin 2) n ch) 0 (show 0 < 2 by decide) S1x1024x256 a rfl rfl 0 rfl
    (ix3 (0 : Fin 1) n ch)
    (fun c hc => by
      match c with
      | ⟨0, _⟩ => exact absurd rfl hc
      | ⟨1, _⟩ => rfl
      | ⟨2, _⟩ => rfl) rfl

theorem stack_at_1 {α : Type} (a b : S1x1024x256.Idx → α)
    (h : Shape.Concatenates ([(⟨S1x1024x256, a⟩ : (s : Shape) × (s.Idx → α)), ⟨S1x1024x256, b⟩].map (·.1)) S2x1024x256 0)
    (n : Fin 1024) (ch : Fin 256) :
    concatenate S2x1024x256 0 [⟨S1x1024x256, a⟩, ⟨S1x1024x256, b⟩] h (ix3 (1 : Fin 2) n ch) = b (ix3 (0 : Fin 1) n ch) :=
  concatenate_apply_piece (0 : Fin S2x1024x256.rank) _ h (ix3 (1 : Fin 2) n ch) 1 (show 1 < 2 by decide) S1x1024x256 b rfl rfl 1 rfl
    (ix3 (0 : Fin 1) n ch)
    (fun c hc => by
      match c with
      | ⟨0, _⟩ => exact absurd rfl hc
      | ⟨1, _⟩ => rfl
      | ⟨2, _⟩ => rfl) rfl

/-- Four columns joined into a `[1024, 4]` table: column `k` at row `n` is the `k`-th piece at `(n, 0)`. -/
theorem join4_at_0 {α : Type} (u0 u1 u2 u3 : S1024x1.Idx → α)
    (h : Shape.Concatenates ([(⟨S1024x1, u0⟩ : (s : Shape) × (s.Idx → α)), ⟨S1024x1, u1⟩, ⟨S1024x1, u2⟩, ⟨S1024x1, u3⟩].map (·.1)) S1024x4 1)
    (n : Fin 1024) :
    concatenate S1024x4 1 [⟨S1024x1, u0⟩, ⟨S1024x1, u1⟩, ⟨S1024x1, u2⟩, ⟨S1024x1, u3⟩] h (ix2 n (0 : Fin 4)) = u0 (ix2 n (0 : Fin 1)) :=
  concatenate_apply_piece (1 : Fin S1024x4.rank) _ h (ix2 n (0 : Fin 4)) 0 (show 0 < 4 by decide) S1024x1 u0 rfl rfl 0 rfl (ix2 n (0 : Fin 1))
    (fun c hc => by
      match c with
      | ⟨0, _⟩ => rfl
      | ⟨1, _⟩ => exact absurd rfl hc) rfl

theorem join4_at_2 {α : Type} (u0 u1 u2 u3 : S1024x1.Idx → α)
    (h : Shape.Concatenates ([(⟨S1024x1, u0⟩ : (s : Shape) × (s.Idx → α)), ⟨S1024x1, u1⟩, ⟨S1024x1, u2⟩, ⟨S1024x1, u3⟩].map (·.1)) S1024x4 1)
    (n : Fin 1024) :
    concatenate S1024x4 1 [⟨S1024x1, u0⟩, ⟨S1024x1, u1⟩, ⟨S1024x1, u2⟩, ⟨S1024x1, u3⟩] h (ix2 n (2 : Fin 4)) = u2 (ix2 n (0 : Fin 1)) :=
  concatenate_apply_piece (1 : Fin S1024x4.rank) _ h (ix2 n (2 : Fin 4)) 2 (show 2 < 4 by decide) S1024x1 u2 rfl rfl 2 rfl (ix2 n (0 : Fin 1))
    (fun c hc => by
      match c with
      | ⟨0, _⟩ => rfl
      | ⟨1, _⟩ => exact absurd rfl hc) rfl

theorem join4_at_3 {α : Type} (u0 u1 u2 u3 : S1024x1.Idx → α)
    (h : Shape.Concatenates ([(⟨S1024x1, u0⟩ : (s : Shape) × (s.Idx → α)), ⟨S1024x1, u1⟩, ⟨S1024x1, u2⟩, ⟨S1024x1, u3⟩].map (·.1)) S1024x4 1)
    (n : Fin 1024) :
    concatenate S1024x4 1 [⟨S1024x1, u0⟩, ⟨S1024x1, u1⟩, ⟨S1024x1, u2⟩, ⟨S1024x1, u3⟩] h (ix2 n (3 : Fin 4)) = u3 (ix2 n (0 : Fin 1)) :=
  concatenate_apply_piece (1 : Fin S1024x4.rank) _ h (ix2 n (3 : Fin 4)) 3 (show 3 < 4 by decide) S1024x1 u3 rfl rfl 3 rfl (ix2 n (0 : Fin 1))
    (fun c hc => by
      match c with
      | ⟨0, _⟩ => rfl
      | ⟨1, _⟩ => exact absurd rfl hc) rfl

/-! ## The gather -/

/-- The gather's dimension numbers: start index map `[0, 1, 2, 3]`, no axis collapsed, the result's four trailing axes
    the offset axes, unit slices on the image, height and width axes and the whole of the channel axis. -/
abbrev gd := gather_S2x256x360x360_S1024x4_S1024x1x256x1x1_1234_n_n_n_0123_1_125611

/-- The start-index word the gather reads for component `c` at row `n`. -/
theorem siIdx_at (n : Fin 1024) (ch : Fin 256) (c : Fin 4) :
    gd.siIdx (ix5 n (0 : Fin 1) ch (0 : Fin 1) (0 : Fin 1)) c = ix2 n c := by
  funext b; refine Fin.ext ?_
  match b with
  | ⟨0, _⟩ => rfl
  | ⟨1, _⟩ => rfl

/-- The gather read at `(n, 0, ch, 0, 0)`: the operand at the image, height and width start words of row `n` of the
    table, each read signed and clamped into its axis, and at channel `ch` — the channel axis' start is clamped to
    `256 - 256 = 0` whatever its word, and `ch` is its offset coordinate. -/
theorem gather_at {α : Type} (x : S2x256x360x360.Idx → α) (idx : IVec S1024x4 32) (n : Fin 1024) (ch : Fin 256) :
    Host.gather gd x idx (ix5 n (0 : Fin 1) ch (0 : Fin 1) (0 : Fin 1))
      = x (ix4 (clampTo 1 (idx (ix2 n (0 : Fin 4)))) ch (clampTo 359 (idx (ix2 n (2 : Fin 4))))
          (clampTo 359 (idx (ix2 n (3 : Fin 4))))) := by
  unfold Host.gather
  congr 1
  funext a
  refine Fin.ext ?_
  show gd.start (ix5 n (0 : Fin 1) ch (0 : Fin 1) (0 : Fin 1)) idx a + gd.batchCoord (ix5 n (0 : Fin 1) ch (0 : Fin 1) (0 : Fin 1)) a
    + gd.offCoord (ix5 n (0 : Fin 1) ch (0 : Fin 1) (0 : Fin 1)) a = _
  rw [GatherDims.batchCoord_eq_zero _ _ _ List.not_mem_nil]
  match a with
  | ⟨0, _⟩ =>
    unfold GatherDims.start GatherDims.offCoord
    rw [dif_pos (show (⟨0, by decide⟩ : Fin 4) ∈ gd.startIndexMap by decide),
      dif_pos (show (⟨0, by decide⟩ : Fin 4) ∈ gd.sKept by decide)]
    rw [show gd.siIdx (ix5 n (0 : Fin 1) ch (0 : Fin 1) (0 : Fin 1)) ⟨List.idxOf (⟨0, by decide⟩ : Fin 4) gd.startIndexMap,
        List.idxOf_lt_length_iff.2 (by decide)⟩ = ix2 n (0 : Fin 4) from siIdx_at n ch _]
    rfl
  | ⟨1, _⟩ =>
    unfold GatherDims.start GatherDims.offCoord
    rw [dif_pos (show (⟨1, by decide⟩ : Fin 4) ∈ gd.startIndexMap by decide),
      dif_pos (show (⟨1, by decide⟩ : Fin 4) ∈ gd.sKept by decide)]
    show min _ 0 + 0 + ch.val = ch.val
    simp only [Nat.min_zero, Nat.zero_add]
  | ⟨2, _⟩ =>
    unfold GatherDims.start GatherDims.offCoord
    rw [dif_pos (show (⟨2, by decide⟩ : Fin 4) ∈ gd.startIndexMap by decide),
      dif_pos (show (⟨2, by decide⟩ : Fin 4) ∈ gd.sKept by decide)]
    rw [show gd.siIdx (ix5 n (0 : Fin 1) ch (0 : Fin 1) (0 : Fin 1)) ⟨List.idxOf (⟨2, by decide⟩ : Fin 4) gd.startIndexMap,
        List.idxOf_lt_length_iff.2 (by decide)⟩ = ix2 n (2 : Fin 4) from siIdx_at n ch _]
    rfl
  | ⟨3, _⟩ =>
    unfold GatherDims.start GatherDims.offCoord
    rw [dif_pos (show (⟨3, by decide⟩ : Fin 4) ∈ gd.startIndexMap by decide),
      dif_pos (show (⟨3, by decide⟩ : Fin 4) ∈ gd.sKept by decide)]
    rw [show gd.siIdx (ix5 n (0 : Fin 1) ch (0 : Fin 1) (0 : Fin 1)) ⟨List.idxOf (⟨3, by decide⟩ : Fin 4) gd.startIndexMap,
        List.idxOf_lt_length_iff.2 (by decide)⟩ = ix2 n (3 : Fin 4) from siIdx_at n ch _]
    rfl

/-! ## The prepared arrays as terms over the arguments -/

/-- Row `o` of an index table, cut out and flattened, each word wrapped by the extent `ext`. -/
def wcol (o : Nat) (hs : S3x1024.Slices ![o, 0] S1x1024) (ext : BitVec 32) (x : IVec S3x1024 32) : IVec S1024 32 :=
  select (cmpi .slt (fun i => shapeCast S1024 (extractStridedSlice S1x1024 ![o, 0] x hs) shapeCasts_S1x1024_S1024 i)
      (broadcastInDim S1024 ![] bcast_S_S1024 (constantI S_ 32 0#32)))
    (addi (fun i => shapeCast S1024 (extractStridedSlice S1x1024 ![o, 0] x hs) shapeCasts_S1x1024_S1024 i)
      (broadcastInDim S1024 ![] bcast_S_S1024 (constantI S_ 32 ext)))
    (fun i => shapeCast S1024 (extractStridedSlice S1x1024 ![o, 0] x hs) shapeCasts_S1x1024_S1024 i)

/-- The wrapped column at `n` is the specification's wrapped word of row `k`. -/
theorem wcol_at (o : Nat) (hs : S3x1024.Slices ![o, 0] S1x1024) (ext : BitVec 32) (x : IVec S3x1024 32) (k : Fin 3)
    (hk : k.val = o) (n : Fin 1024) : wcol o hs ext x (ix1 n) = wrap ext (x (ix2 k n)) := by
  have e := tabRow_at o x hs shapeCasts_S1x1024_S1024 k hk n
  show Scalar.select (IntOp.cmpi .slt (shapeCast S1024 (extractStridedSlice S1x1024 ![o, 0] x hs) shapeCasts_S1x1024_S1024 (ix1 n)) 0#32)
      (IntOp.addi (shapeCast S1024 (extractStridedSlice S1x1024 ![o, 0] x hs) shapeCasts_S1x1024_S1024 (ix1 n)) ext)
      (shapeCast S1024 (extractStridedSlice S1x1024 ![o, 0] x hs) shapeCasts_S1x1024_S1024 (ix1 n)) = _
  rw [e]
  rfl

/-- The channel axis' column of start words: a constant (its value plays no part: the gather clamps it to zero). -/
def zcol : IVec S1024x1 32 :=
  broadcastInDim S1024x1 ![] bcast_S_S1024x1
    (select (cmpi .slt (constantI S_ 32 0#32) (constantI S_ 32 0#32)) (addi (constantI S_ 32 0#32) (constantI S_ 32 256#32))
      (constantI S_ 32 0#32))

/-- The `[1024, 4]` table of start words made from an index table. -/
def starts (x : IVec S3x1024 32) : IVec S1024x4 32 :=
  concatenate S1024x4 1
    [⟨S1024x1, broadcastInDim S1024x1 ![0] bcast_S1024_S1024x1_0 (wcol 0 slices_S3x1024_S1x1024_0_0 2#32 x)⟩,
     ⟨S1024x1, zcol⟩,
     ⟨S1024x1, broadcastInDim S1024x1 ![0] bcast_S1024_S1024x1_0 (wcol 1 slices_S3x1024_S1x1024_1_0 360#32 x)⟩,
     ⟨S1024x1, broadcastInDim S1024x1 ![0] bcast_S1024_S1024x1_0 (wcol 2 slices_S3x1024_S1x1024_2_0 360#32 x)⟩]
    concatenates_S1024x1_S1024x1_S1024x1_S1024x1_S1024x4_d1

theorem starts_at_0 (x : IVec S3x1024 32) (n : Fin 1024) : starts x (ix2 n (0 : Fin 4)) = wrap 2#32 (x (ix2 (0 : Fin 3) n)) := by
  unfold starts
  rw [join4_at_0, col_at]
  exact wcol_at 0 _ _ x 0 rfl n

theorem starts_at_2 (x : IVec S3x1024 32) (n : Fin 1024) : starts x (ix2 n (2 : Fin 4)) = wrap 360#32 (x (ix2 (1 : Fin 3) n)) := by
  unfold starts
  rw [join4_at_2, col_at]
  exact wcol_at 1 _ _ x 1 rfl n

theorem starts_at_3 (x : IVec S3x1024 32) (n : Fin 1024) : starts x (ix2 n (3 : Fin 4)) = wrap 360#32 (x (ix2 (2 : Fin 3) n)) := by
  unfold starts
  rw [join4_at_3, col_at]
  exact wcol_at 2 _ _ x 2 rfl n

/-- The channel vectors an index table selects from the feature map, as the program computes them. -/
def sel {α : Type} (x0 : S2x256x360x360.Idx → α) (x : IVec S3x1024 32) : S1024x256.Idx → α :=
  fun i => shapeCast S1024x256 (Host.gather gd x0 (starts x)) shapeCasts_S1024x1x256x1x1_S1024x256 i

/-- The program's selected vectors are the specification's `row`. -/
theorem sel_at (x0 : S2x256x360x360.Idx → EReal) (x : IVec S3x1024 32) (n : Fin 1024) (ch : Fin 256) :
    sel x0 x (ix2 n ch) = row x0 x n ch := by
  show shapeCast S1024x256 (Host.gather gd x0 (starts x)) shapeCasts_S1024x1x256x1x1_S1024x256 (ix2 n ch) = _
  rw [flat_at, gather_at, starts_at_0, starts_at_2, starts_at_3]
  rfl

/-- The two tables' selected vectors stacked. -/
def both {α : Type} (x0 : S2x256x360x360.Idx → α) (x1 x2 : IVec S3x1024 32) : S2x1024x256.Idx → α :=
  concatenate S2x1024x256 0
    [⟨S1x1024x256, broadcastInDim S1x1024x256 ![1, 2] bcast_S1024x256_S1x1024x256_1_2 (sel x0 x1)⟩,
     ⟨S1x1024x256, broadcastInDim S1x1024x256 ![1, 2] bcast_S1024x256_S1x1024x256_1_2 (sel x0 x2)⟩]
    concatenates_S1x1024x256_S1x1024x256_S2x1024x256_d0

theorem both_at_0 (x0 : S2x256x360x360.Idx → EReal) (x1 x2 : IVec S3x1024 32) (n : Fin 1024) (ch : Fin 256) :
    both x0 x1 x2 (ix3 (0 : Fin 2) n ch) = row x0 x1 n ch := by
  unfold both
  rw [stack_at_0, lead_at]
  exact sel_at x0 x1 n ch

theorem both_at_1 (x0 : S2x256x360x360.Idx → EReal) (x1 x2 : IVec S3x1024 32) (n : Fin 1024) (ch : Fin 256) :
    both x0 x1 x2 (ix3 (1 : Fin 2) n ch) = row x0 x2 n ch := by
  unfold both
  rw [stack_at_1, lead_at]
  exact sel_at x0 x2 n ch

/-! ## The host operations' fold read back -/

set_option maxHeartbeats 4000000 in  -- one pass over the 87 operations
/-- After the operations before the first call, the stacked array holds the two tables' selected vectors. -/
theorem v64_eq (V : Valuation τ sig (Elt Ideal)) :
    (StableHlo.after (hostOps0 (F := Ideal)) V (Proc.devRef .tc main_v64) : S2x1024x256.Idx → EReal)
      = both (V (Proc.devRef .tc main_arg0)) (V (Proc.devRef .tc main_arg1)) (V (Proc.devRef .tc main_arg2)) := by
  simp (disch := decide) only [StableHlo.after_cons, StableHlo.after_nil, StableHlo.nullary_result', StableHlo.unary_result',
    StableHlo.binary_result', StableHlo.ternary_result', StableHlo.reshape_result', StableHlo.nary4_result',
    StableHlo.nullary_result_ne', StableHlo.unary_result_ne', StableHlo.binary_result_ne', StableHlo.ternary_result_ne',
    StableHlo.reshape_result_ne', StableHlo.nary_result_ne']
  rfl

/-- THE FIRST TABLE'S VECTORS: block 0 of the stacked array, after the operations before the first call, is the
    specification's `row` of the feature map and the first index table as they stood before. -/
theorem v64_at_0 (V : Valuation τ sig (Elt Ideal)) (n : Fin 1024) (ch : Fin 256) :
    (StableHlo.after (hostOps0 (F := Ideal)) V (Proc.devRef .tc main_v64) : S2x1024x256.Idx → EReal) (ix3 (0 : Fin 2) n ch)
      = row (V (Proc.devRef .tc main_arg0)) (V (Proc.devRef .tc main_arg1)) n ch :=
  (congrFun (v64_eq V) _).trans (both_at_0 _ _ _ n ch)

/-- THE SECOND TABLE'S VECTORS: block 1 is the `row` of the feature map and the second index table. -/
theorem v64_at_1 (V : Valuation τ sig (Elt Ideal)) (n : Fin 1024) (ch : Fin 256) :
    (StableHlo.after (hostOps0 (F := Ideal)) V (Proc.devRef .tc main_v64) : S2x1024x256.Idx → EReal) (ix3 (1 : Fin 2) n ch)
      = row (V (Proc.devRef .tc main_arg0)) (V (Proc.devRef .tc main_arg2)) n ch :=
  (congrFun (v64_eq V) _).trans (both_at_1 _ _ _ n ch)

/-! ## What the host operations leave alone -/

/-- The references the operations before the first call write. -/
abbrev written0 : List (Ref sig .tc) :=
  [main_v0, main_v1, main_v2, main_v3, main_v4, main_v5, main_c, main_v6, main_v7, main_c_0, main_v8, main_v9,
   main_v10, main_c_1, main_c_2, main_v11, main_c_3, main_c_4, main_v12, main_c_5, main_v13, main_c_6, main_v14, main_v15,
   main_c_7, main_v16, main_v17, main_v18, main_c_8, main_v19, main_v20, main_c_9, main_v21, main_v22, main_v23, main_v24,
   main_v25, main_v26, main_v27, main_v28, main_v29, main_v30, main_v31, main_v32, main_v33, main_v34, main_v35, main_v36,
   main_c_10, main_v37, main_v38, main_c_11, main_v39, main_v40, main_v41, main_c_12, main_c_13, main_v42, main_c_14, main_c_15,
   main_v43, main_c_16, main_v44, main_c_17, main_v45, main_v46, main_c_18, main_v47, main_v48, main_v49, main_c_19, main_v50,
   main_v51, main_c_20, main_v52, main_v53, main_v54, main_v55, main_v56, main_v57, main_v58, main_v59, main_v60, main_v61,
   main_v62, main_v63, main_v64]

/-- The references the operations between the two calls write. -/
abbrev written1 : List (Ref sig .tc) := [main_v66, main_v67, main_v68, main_v69, main_v70, main_v71]

/-- A reference the operations before the first call do not write keeps its contents. -/
theorem hostOps0_keeps {F : FTy → Type} [FloatOps F] (V : Valuation τ sig (Elt F)) (r : Ref sig .tc) (hr : r ∉ written0) :
    StableHlo.after (hostOps0 (F := F)) V (Proc.devRef .tc r) = V (Proc.devRef .tc r) :=
  StableHlo.after_of_writes_sub (W := written0) hostOps0 V (by
    simp only [hostOps0, List.Forall, StableHlo.nullary_writes, StableHlo.unary_writes, StableHlo.binary_writes,
      StableHlo.ternary_writes, StableHlo.reshape_writes, StableHlo.nary_writes]
    repeat' apply And.intro
    all_goals exact Finset.singleton_subset_iff.2 (List.mem_toFinset.2 (List.mem_map_of_mem (by decide)))) hr

/-- A reference the operations between the two calls do not write keeps its contents. -/
theorem hostOps1_keeps {F : FTy → Type} [FloatOps F] (V : Valuation τ sig (Elt F)) (r : Ref sig .tc) (hr : r ∉ written1) :
    StableHlo.after (hostOps1 (F := F)) V (Proc.devRef .tc r) = V (Proc.devRef .tc r) :=
  StableHlo.after_of_writes_sub (W := written1) hostOps1 V (by
    simp only [hostOps1, List.Forall, StableHlo.nullary_writes, StableHlo.unary_writes, StableHlo.binary_writes,
      StableHlo.ternary_writes, StableHlo.reshape_writes, StableHlo.nary_writes]
    repeat' apply And.intro
    all_goals exact Finset.singleton_subset_iff.2 (List.mem_toFinset.2 (List.mem_map_of_mem (by decide)))) hr

theorem hostOps0_main_arg0 {F : FTy → Type} [FloatOps F] (V : Valuation τ sig (Elt F)) :
    StableHlo.after (hostOps0 (F := F)) V (Proc.devRef .tc main_arg0) = V (Proc.devRef .tc main_arg0) :=
  hostOps0_keeps V main_arg0 (by decide)
theorem hostOps0_main_arg1 {F : FTy → Type} [FloatOps F] (V : Valuation τ sig (Elt F)) :
    StableHlo.after (hostOps0 (F := F)) V (Proc.devRef .tc main_arg1) = V (Proc.devRef .tc main_arg1) :=
  hostOps0_keeps V main_arg1 (by decide)
theorem hostOps0_main_arg2 {F : FTy → Type} [FloatOps F] (V : Valuation τ sig (Elt F)) :
    StableHlo.after (hostOps0 (F := F)) V (Proc.devRef .tc main_arg2) = V (Proc.devRef .tc main_arg2) :=
  hostOps0_keeps V main_arg2 (by decide)
theorem hostOps0_main_arg3 {F : FTy → Type} [FloatOps F] (V : Valuation τ sig (Elt F)) :
    StableHlo.after (hostOps0 (F := F)) V (Proc.devRef .tc main_arg3) = V (Proc.devRef .tc main_arg3) :=
  hostOps0_keeps V main_arg3 (by decide)
theorem hostOps0_main_arg4 {F : FTy → Type} [FloatOps F] (V : Valuation τ sig (Elt F)) :
    StableHlo.after (hostOps0 (F := F)) V (Proc.devRef .tc main_arg4) = V (Proc.devRef .tc main_arg4) :=
  hostOps0_keeps V main_arg4 (by decide)
theorem hostOps0_main_arg5 {F : FTy → Type} [FloatOps F] (V : Valuation τ sig (Elt F)) :
    StableHlo.after (hostOps0 (F := F)) V (Proc.devRef .tc main_arg5) = V (Proc.devRef .tc main_arg5) :=
  hostOps0_keeps V main_arg5 (by decide)
theorem hostOps0_main_arg6 {F : FTy → Type} [FloatOps F] (V : Valuation τ sig (Elt F)) :
    StableHlo.after (hostOps0 (F := F)) V (Proc.devRef .tc main_arg6) = V (Proc.devRef .tc main_arg6) :=
  hostOps0_keeps V main_arg6 (by decide)
theorem hostOps0_main_arg7 {F : FTy → Type} [FloatOps F] (V : Valuation τ sig (Elt F)) :
    StableHlo.after (hostOps0 (F := F)) V (Proc.devRef .tc main_arg7) = V (Proc.devRef .tc main_arg7) :=
  hostOps0_keeps V main_arg7 (by decide)
theorem hostOps0_main_arg8 {F : FTy → Type} [FloatOps F] (V : Valuation τ sig (Elt F)) :
    StableHlo.after (hostOps0 (F := F)) V (Proc.devRef .tc main_arg8) = V (Proc.devRef .tc main_arg8) :=
  hostOps0_keeps V main_arg8 (by decide)
theorem hostOps0_main_arg9 {F : FTy → Type} [FloatOps F] (V : Valuation τ sig (Elt F)) :
    StableHlo.after (hostOps0 (F := F)) V (Proc.devRef .tc main_arg9) = V (Proc.devRef .tc main_arg9) :=
  hostOps0_keeps V main_arg9 (by decide)
theorem hostOps0_main_arg10 {F : FTy → Type} [FloatOps F] (V : Valuation τ sig (Elt F)) :
    StableHlo.after (hostOps0 (F := F)) V (Proc.devRef .tc main_arg10) = V (Proc.devRef .tc main_arg10) :=
  hostOps0_keeps V main_arg10 (by decide)

theorem hostOps1_main_arg0 {F : FTy → Type} [FloatOps F] (V : Valuation τ sig (Elt F)) :
    StableHlo.after (hostOps1 (F := F)) V (Proc.devRef .tc main_arg0) = V (Proc.devRef .tc main_arg0) :=
  hostOps1_keeps V main_arg0 (by decide)
theorem hostOps1_main_arg1 {F : FTy → Type} [FloatOps F] (V : Valuation τ sig (Elt F)) :
    StableHlo.after (hostOps1 (F := F)) V (Proc.devRef .tc main_arg1) = V (Proc.devRef .tc main_arg1) :=
  hostOps1_keeps V main_arg1 (by decide)
theorem hostOps1_main_arg2 {F : FTy → Type} [FloatOps F] (V : Valuation τ sig (Elt F)) :
    StableHlo.after (hostOps1 (F := F)) V (Proc.devRef .tc main_arg2) = V (Proc.devRef .tc main_arg2) :=
  hostOps1_keeps V main_arg2 (by decide)
theorem hostOps1_main_arg3 {F : FTy → Type} [FloatOps F] (V : Valuation τ sig (Elt F)) :
    StableHlo.after (hostOps1 (F := F)) V (Proc.devRef .tc main_arg3) = V (Proc.devRef .tc main_arg3) :=
  hostOps1_keeps V main_arg3 (by decide)
theorem hostOps1_main_arg4 {F : FTy → Type} [FloatOps F] (V : Valuation τ sig (Elt F)) :
    StableHlo.after (hostOps1 (F := F)) V (Proc.devRef .tc main_arg4) = V (Proc.devRef .tc main_arg4) :=
  hostOps1_keeps V main_arg4 (by decide)
theorem hostOps1_main_arg5 {F : FTy → Type} [FloatOps F] (V : Valuation τ sig (Elt F)) :
    StableHlo.after (hostOps1 (F := F)) V (Proc.devRef .tc main_arg5) = V (Proc.devRef .tc main_arg5) :=
  hostOps1_keeps V main_arg5 (by decide)
theorem hostOps1_main_arg6 {F : FTy → Type} [FloatOps F] (V : Valuation τ sig (Elt F)) :
    StableHlo.after (hostOps1 (F := F)) V (Proc.devRef .tc main_arg6) = V (Proc.devRef .tc main_arg6) :=
  hostOps1_keeps V main_arg6 (by decide)
theorem hostOps1_main_arg7 {F : FTy → Type} [FloatOps F] (V : Valuation τ sig (Elt F)) :
    StableHlo.after (hostOps1 (F := F)) V (Proc.devRef .tc main_arg7) = V (Proc.devRef .tc main_arg7) :=
  hostOps1_keeps V main_arg7 (by decide)
theorem hostOps1_main_arg8 {F : FTy → Type} [FloatOps F] (V : Valuation τ sig (Elt F)) :
    StableHlo.after (hostOps1 (F := F)) V (Proc.devRef .tc main_arg8) = V (Proc.devRef .tc main_arg8) :=
  hostOps1_keeps V main_arg8 (by decide)
theorem hostOps1_main_arg9 {F : FTy → Type} [FloatOps F] (V : Valuation τ sig (Elt F)) :
    StableHlo.after (hostOps1 (F := F)) V (Proc.devRef .tc main_arg9) = V (Proc.devRef .tc main_arg9) :=
  hostOps1_keeps V main_arg9 (by decide)
theorem hostOps1_main_arg10 {F : FTy → Type} [FloatOps F] (V : Valuation τ sig (Elt F)) :
    StableHlo.after (hostOps1 (F := F)) V (Proc.devRef .tc main_arg10) = V (Proc.devRef .tc main_arg10) :=
  hostOps1_keeps V main_arg10 (by decide)

/-! ## The operations between the two calls -/

/-- Half `b` of the stacked projections, cut out and flattened, read at `(n, k)`. -/
theorem half_at {α : Type} (o : Nat) (X : S2x1024x32.Idx → α) (hs : S2x1024x32.Slices ![o, 0, 0] S1x1024x32)
    (hc : S1x1024x32.ShapeCasts S1024x32) (b : Fin 2) (hb : b.val = o) (n : Fin 1024) (k : Fin 32) :
    shapeCast S1024x32 (extractStridedSlice S1x1024x32 ![o, 0, 0] X hs) hc (ix2 n k) = X (ix3 b n k) :=
  (shapeCast_1ab_ab_apply _ hc n k).trans (extractStridedSlice_apply _ X hs _ _ (fun a => by
    match a with
    | ⟨0, _⟩ => show b.val = o + 0; rw [hb, Nat.add_zero]
    | ⟨1, _⟩ => exact (Nat.zero_add _).symm
    | ⟨2, _⟩ => exact (Nat.zero_add _).symm))

/-- The last layer's weights `[32, 1]` flattened read, at `k`, the weights at `(k, 0)`. -/
theorem flatw_at {α : Type} (X : S32x1.Idx → α) (hc : S32x1.ShapeCasts S32) (k : Fin 32) :
    shapeCast S32 X hc (ix1 k) = X (ix2 k (0 : Fin 1)) :=
  shapeCast_apply X hc _ _ (by
    rw [Shape.rowMajor_val_two, Shape.rowMajor_val_one]
    show k.val * 1 + 0 = k.val
    omega)

/-- The first table's projections, as the second call takes them. -/
theorem v67_at (V : Valuation τ sig (Elt Ideal)) (n : Fin 1024) (k : Fin 32) :
    (StableHlo.after (hostOps1 (F := Ideal)) V (Proc.devRef .tc main_v67) : S1024x32.Idx → EReal) (ix2 n k)
      = (V (Proc.devRef .tc main_v65) : S2x1024x32.Idx → EReal) (ix3 (0 : Fin 2) n k) := by
  open StableHlo in after_results
  exact half_at 0 _ _ _ 0 rfl n k

/-- The second table's projections, transposed, as the second call takes them. -/
theorem v70_at (V : Valuation τ sig (Elt Ideal)) (n : Fin 1024) (k : Fin 32) :
    (StableHlo.after (hostOps1 (F := Ideal)) V (Proc.devRef .tc main_v70) : S32x1024.Idx → EReal) (ix2 k n)
      = (V (Proc.devRef .tc main_v65) : S2x1024x32.Idx → EReal) (ix3 (1 : Fin 2) n k) := by
  open StableHlo in after_results
  exact (transpose_ix2_apply _ transposes_S1024x32_S32x1024_1_0 k n).trans (half_at 1 _ _ _ 1 rfl n k)

/-- The last layer's weights, flattened, as the second call takes them. -/
theorem v71_at (V : Valuation τ sig (Elt Ideal)) (k : Fin 32) :
    (StableHlo.after (hostOps1 (F := Ideal)) V (Proc.devRef .tc main_v71) : S32.Idx → EReal) (ix1 k)
      = (V (Proc.devRef .tc main_arg9) : S32x1.Idx → EReal) (ix2 k (0 : Fin 1)) := by
  open StableHlo in after_results
  exact flatw_at _ _ k

end Cert.KernelIdeal.Glue

end
-- ==== Proof.KernelValue.lean ====
/-
  The kernel program's result array, on the extended reals, as the specification's function of the launch memory.

  @main selects the two tables' channel vectors and stacks them (the first stretch of host operations), the projection
  kernel takes each stacked vector through the two rectified layers and the third layer's linear part, the second
  stretch slices the two halves apart, transposes the second and flattens the last weights, and the pairwise kernel
  writes, at `(i, j)`, `∑ k, w4[k] · max (a1[i, k] − a2[j, k] + b3[k]) 0 + b4` of the two projected halves. Read back
  through the fold of buffer contents along @main, that is the similarity in its projected form (`simProj`) of the
  arrays as launched.
-/
import proofs.«156606_j7370163880501_2_alg».proof.Proof.IdealRun
import proofs.«156606_j7370163880501_2_alg».proof.Proof.PairBlocks
import proofs.«156606_j7370163880501_2_alg».proof.Proof.ProjBlocks
import proofs.«156606_j7370163880501_2_alg».proof.Proof.KernelGlue
import proofs.«156606_j7370163880501_2_alg».proof.Proof.Spec

noncomputable section

namespace Cert.KernelIdeal.Value

open Cert.KernelIdeal Cert.KernelIdeal.Gen Cert.KernelIdeal.Fr
open Idealize.ShloMosaic Idealize.ShloMosaic.TcCoe Idealize.ShloMosaic.ValueIdx Idealize.SL.Sem
open Cert.PairSim (row feats proj simProj)
open Cert.KernelIdeal.PairValue (pairSim g1 G1 final1)

/-! ## The assembly, over arrays alone -/

/-- The pairwise similarity of the arrays the second region finds is the projected-form similarity of the launch
    arrays, given what each intermediate array holds: the stacked selection `v64` holds the two tables' selected
    vectors, the projection's result `v65` the projected features of each stacked vector under the weights as the first
    region finds them (`y3 … y7`, equal to the launch's), the two slices `v67` and `v70` its two halves, the second
    transposed, `v71` the last weights flattened, and the bias arrays `v8`, `v10` the launch's. -/
theorem assemble
    (x0 : S2x256x360x360.Idx → EReal) (x1 x2 : S3x1024.Idx → BitVec 32) (x3 : S256x256.Idx → EReal) (x4 : S256.Idx → EReal)
    (x5 : S256x128.Idx → EReal) (x6 : S128.Idx → EReal) (x7 : S128x32.Idx → EReal) (x8 : S32.Idx → EReal) (x9 : S32x1.Idx → EReal)
    (x10 : S1.Idx → EReal)
    (y3 : S256x256.Idx → EReal) (y4 : S256.Idx → EReal) (y5 : S256x128.Idx → EReal) (y6 : S128.Idx → EReal) (y7 : S128x32.Idx → EReal)
    (v64 : S2x1024x256.Idx → EReal) (v65 : S2x1024x32.Idx → EReal) (v67 : S1024x32.Idx → EReal) (v70 : S32x1024.Idx → EReal)
    (v71 : S32.Idx → EReal) (v8 : S32.Idx → EReal) (v10 : S1.Idx → EReal)
    (e3 : y3 = x3) (e4 : y4 = x4) (e5 : y5 = x5) (e6 : y6 = x6) (e7 : y7 = x7) (e8 : v8 = x8) (e10 : v10 = x10)
    (h64_0 : ∀ n e, v64 (ix3 (0 : Fin 2) n e) = row x0 x1 n e) (h64_1 : ∀ n e, v64 (ix3 (1 : Fin 2) n e) = row x0 x2 n e)
    (h65 : ∀ (s : Fin 2) n k, v65 (ix3 s n k) = proj (feats (fun n e => v64 (ix3 s n e)) y3 y4 y5 y6) y7 n k)
    (h67 : ∀ n k, v67 (ix2 n k) = v65 (ix3 (0 : Fin 2) n k)) (h70 : ∀ k n, v70 (ix2 k n) = v65 (ix3 (1 : Fin 2) n k))
    (h71 : ∀ k, v71 (ix1 k) = x9 (ix2 k (0 : Fin 1))) (i j : Fin 1024) :
    pairSim v67 v70 v8 v71 v10 i j
      = simProj (proj (feats (row x0 x1) x3 x4 x5 x6) x7) (proj (feats (row x0 x2) x3 x4 x5 x6) x7) x8 x9 x10 i j := by
  subst e3 e4 e5 e6 e7 e8 e10
  have r0 : (fun n e => v64 (ix3 (0 : Fin 2) n e)) = row x0 x1 := funext fun n => funext fun e => h64_0 n e
  have r1 : (fun n e => v64 (ix3 (1 : Fin 2) n e)) = row x0 x2 := funext fun n => funext fun e => h64_1 n e
  unfold pairSim simProj
  simp only [h67, h70, h71, h65, r0, r1]

/-! ## The arguments as each boundary finds them -/

variable (m : (ℓ : Loc nD τ sig) → Buf (Elt Ideal) ℓ) (c : Dev nD)

/-- The first stretch writes no argument: region 0 finds argument 3 as launched. -/
theorem E0_main_arg3 : E0 m c main_arg3 = m ((c.tc : Thread nD τ).loc main_arg3) :=
  StableHlo.after_of_writes_sub (r := main_arg3) _ _ hostOps0_writes (by decide)
/-- The first stretch writes no argument: region 0 finds argument 4 as launched. -/
theorem E0_main_arg4 : E0 m c main_arg4 = m ((c.tc : Thread nD τ).loc main_arg4) :=
  StableHlo.after_of_writes_sub (r := main_arg4) _ _ hostOps0_writes (by decide)
/-- The first stretch writes no argument: region 0 finds argument 5 as launched. -/
theorem E0_main_arg5 : E0 m c main_arg5 = m ((c.tc : Thread nD τ).loc main_arg5) :=
  StableHlo.after_of_writes_sub (r := main_arg5) _ _ hostOps0_writes (by decide)
/-- The first stretch writes no argument: region 0 finds argument 6 as launched. -/
theorem E0_main_arg6 : E0 m c main_arg6 = m ((c.tc : Thread nD τ).loc main_arg6) :=
  StableHlo.after_of_writes_sub (r := main_arg6) _ _ hostOps0_writes (by decide)
/-- The first stretch writes no argument: region 0 finds argument 7 as launched. -/
theorem E0_main_arg7 : E0 m c main_arg7 = m ((c.tc : Thread nD τ).loc main_arg7) :=
  StableHlo.after_of_writes_sub (r := main_arg7) _ _ hostOps0_writes (by decide)

/-- Neither stretch writes argument 8 and region 0 does not touch it: region 1's entry finds it as launched. -/
theorem E1_main_arg8 : E1 m c main_arg8 = m ((c.tc : Thread nD τ).loc main_arg8) :=
  calc E1 m c main_arg8
    _ = X2 m c (Proc.devRef .tc main_arg8) := StableHlo.after_of_writes_sub (r := main_arg8) _ _ hostOps1_writes (by decide)
    _ = X1 m c (Proc.devRef .tc main_arg8) := X2_of_ne m c main_arg8 (by decide)
    _ = X0 m c (Proc.devRef .tc main_arg8) := StableHlo.after_of_writes_sub (r := main_arg8) _ _ hostOps0_writes (by decide)
    _ = m ((c.tc : Thread nD τ).loc main_arg8) := rfl
/-- and so does the second stretch. -/
theorem X2_main_arg8 : X2 m c (Proc.devRef .tc main_arg8) = m ((c.tc : Thread nD τ).loc main_arg8) :=
  calc X2 m c (Proc.devRef .tc main_arg8)
    _ = X1 m c (Proc.devRef .tc main_arg8) := X2_of_ne m c main_arg8 (by decide)
    _ = X0 m c (Proc.devRef .tc main_arg8) := StableHlo.after_of_writes_sub (r := main_arg8) _ _ hostOps0_writes (by decide)
    _ = m ((c.tc : Thread nD τ).loc main_arg8) := rfl
/-- Neither stretch writes argument 9 and region 0 does not touch it: region 1's entry finds it as launched. -/
theorem E1_main_arg9 : E1 m c main_arg9 = m ((c.tc : Thread nD τ).loc main_arg9) :=
  calc E1 m c main_arg9
    _ = X2 m c (Proc.devRef .tc main_arg9) := StableHlo.after_of_writes_sub (r := main_arg9) _ _ hostOps1_writes (by decide)
    _ = X1 m c (Proc.devRef .tc main_arg9) := X2_of_ne m c main_arg9 (by decide)
    _ = X0 m c (Proc.devRef .tc main_arg9) := StableHlo.after_of_writes_sub (r := main_arg9) _ _ hostOps0_writes (by decide)
    _ = m ((c.tc : Thread nD τ).loc main_arg9) := rfl
/-- and so does the second stretch. -/
theorem X2_main_arg9 : X2 m c (Proc.devRef .tc main_arg9) = m ((c.tc : Thread nD τ).loc main_arg9) :=
  calc X2 m c (Proc.devRef .tc main_arg9)
    _ = X1 m c (Proc.devRef .tc main_arg9) := X2_of_ne m c main_arg9 (by decide)
    _ = X0 m c (Proc.devRef .tc main_arg9) := StableHlo.after_of_writes_sub (r := main_arg9) _ _ hostOps0_writes (by decide)
    _ = m ((c.tc : Thread nD τ).loc main_arg9) := rfl
/-- Neither stretch writes argument 10 and region 0 does not touch it: region 1's entry finds it as launched. -/
theorem E1_main_arg10 : E1 m c main_arg10 = m ((c.tc : Thread nD τ).loc main_arg10) :=
  calc E1 m c main_arg10
    _ = X2 m c (Proc.devRef .tc main_arg10) := StableHlo.after_of_writes_sub (r := main_arg10) _ _ hostOps1_writes (by decide)
    _ = X1 m c (Proc.devRef .tc main_arg10) := X2_of_ne m c main_arg10 (by decide)
    _ = X0 m c (Proc.devRef .tc main_arg10) := StableHlo.after_of_writes_sub (r := main_arg10) _ _ hostOps0_writes (by decide)
    _ = m ((c.tc : Thread nD τ).loc main_arg10) := rfl
/-- and so does the second stretch. -/
theorem X2_main_arg10 : X2 m c (Proc.devRef .tc main_arg10) = m ((c.tc : Thread nD τ).loc main_arg10) :=
  calc X2 m c (Proc.devRef .tc main_arg10)
    _ = X1 m c (Proc.devRef .tc main_arg10) := X2_of_ne m c main_arg10 (by decide)
    _ = X0 m c (Proc.devRef .tc main_arg10) := StableHlo.after_of_writes_sub (r := main_arg10) _ _ hostOps0_writes (by decide)
    _ = m ((c.tc : Thread nD τ).loc main_arg10) := rfl

/-! ## The result array -/

/-- THE KERNEL'S RESULT: at the end of @main the result array holds, at `(i, j)`, the projected-form similarity of
    point `i` of the first table and point `j` of the second, computed from the arrays as launched. The last region
    leaves the pairwise similarity of the arrays it finds; those are the second stretch's slices of the projection's
    result, which the first region leaves at the projected features of the stacked selection, which the first stretch
    builds from the launch arrays; no stretch and no region writes an argument. -/
theorem result_eq : (Xend m c (Proc.devRef .tc main_v72) : S1024x1024.Idx → EReal)
    = fun ij => simProj (proj (feats (row (m ((c.tc : Thread nD τ).loc main_arg0)) (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)))
        (proj (feats (row (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)))
        (m ((c.tc : Thread nD τ).loc main_arg8)) (m ((c.tc : Thread nD τ).loc main_arg9)) (m ((c.tc : Thread nD τ).loc main_arg10)) (ij 0) (ij 1) := by
  refine ((Xend_arr m c 5).trans (final1 (E1 m) c)).trans ?_
  funext ij
  have h65 : X2 m c (Proc.devRef .tc main_v65) = Cert.KernelIdeal.ProjValue.G0 (E0 m) c :=
    (X2_arr m c 6).trans (Cert.KernelIdeal.ProjValue.final0 (E0 m) c)
  exact assemble (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (E0 m c main_arg3) (E0 m c main_arg4) (E0 m c main_arg5) (E0 m c main_arg6) (E0 m c main_arg7)
    (E0 m c main_v64) (X2 m c (Proc.devRef .tc main_v65)) (E1 m c main_v67) (E1 m c main_v70) (E1 m c main_v71)
    (E1 m c main_arg8) (E1 m c main_arg10)
    (E0_main_arg3 m c) (E0_main_arg4 m c) (E0_main_arg5 m c) (E0_main_arg6 m c) (E0_main_arg7 m c)
    (E1_main_arg8 m c) (E1_main_arg10 m c)
    (fun n e => Cert.KernelIdeal.Glue.v64_at_0 (X0 m c) n e) (fun n e => Cert.KernelIdeal.Glue.v64_at_1 (X0 m c) n e)
    (fun s n k => by rw [h65]; rfl)
    (fun n k => Cert.KernelIdeal.Glue.v67_at (X2 m c) n k) (fun k n => Cert.KernelIdeal.Glue.v70_at (X2 m c) n k)
    (fun k => (Cert.KernelIdeal.Glue.v71_at (X2 m c) k).trans (congrFun (X2_main_arg9 m c) _)) _ _

end Cert.KernelIdeal.Value

end
-- ==== Proof.RefGather.lean ====
/-
  The reference program's selection of channel vectors, read at an index. The program transposes the feature map to
  `[2, 360, 360, 256]`, cuts the index table into its three rows, wraps each word (a negative one has the axis' extent
  added), joins the three wrapped columns into a `[1024, 3]` table of start indices and gathers, per row of that table,
  the 256 channels at the start index, each component read signed and clamped so that the unit slice fits
  (`[0, 1]`, `[0, 359]`, `[0, 359]`). Read at `(n, ch)` this is the specification's `row`.
-/
import proofs.«156606_j7370163880501_2_alg».proof.Proof.Gen.ReferenceIdeal.Read
import proofs.«156606_j7370163880501_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.PairSim (clampTo wrap row)

/-- The gather's dimension numbers: start index map `[0, 1, 2]`, those three axes collapsed, the channel axis the one
    offset axis, unit slices on the three and the whole of the fourth. -/
abbrev gd := gather_S2x360x360x256_S1024x3_S1024x256_1_012_n_n_012_1_111256

/-- The gather read at `(n, ch)`: the operand at the three start words of row `n` of the table, each read signed and
    clamped into its axis, and at channel `ch` on the offset axis. -/
theorem gather_apply {α : Type} (x : S2x360x360x256.Idx → α) (idx : IVec S1024x3 32) (n : Fin 1024) (ch : Fin 256) :
    Host.gather gd x idx (ix2 n ch)
      = x (ix4 (clampTo 1 (idx (ix2 n (0 : Fin 3)))) (clampTo 359 (idx (ix2 n (1 : Fin 3))))
          (clampTo 359 (idx (ix2 n (2 : Fin 3)))) ch) := by
  unfold Host.gather
  congr 1
  funext a
  refine Fin.ext ?_
  show gd.start (ix2 n ch) idx a + gd.batchCoord (ix2 n ch) a + gd.offCoord (ix2 n ch) a = _
  rw [GatherDims.batchCoord_eq_zero _ _ _ List.not_mem_nil]
  match a with
  | ⟨0, _⟩ =>
    rw [GatherDims.offCoord_eq_zero _ _ _ (fun h => ((GatherDims.mem_sKept _ _).mp h).1
      (show (⟨0, by decide⟩ : Fin 4) ∈ gd.collapsedSliceDims by decide))]
    simp only [Nat.add_zero]
    unfold GatherDims.start
    rw [dif_pos (show (⟨0, by decide⟩ : Fin 4) ∈ gd.startIndexMap by decide)]
    have hsi : gd.siIdx (ix2 n ch) ⟨List.idxOf (⟨0, by decide⟩ : Fin 4) gd.startIndexMap,
        List.idxOf_lt_length_iff.2 (by decide)⟩ = ix2 n (0 : Fin 3) := by
      funext b; refine Fin.ext ?_
      match b with
      | ⟨0, _⟩ => rfl
      | ⟨1, _⟩ => rfl
    rw [hsi]
    rfl
  | ⟨1, _⟩ =>
    rw [GatherDims.offCoord_eq_zero _ _ _ (fun h => ((GatherDims.mem_sKept _ _).mp h).1
      (show (⟨1, by decide⟩ : Fin 4) ∈ gd.collapsedSliceDims by decide))]
    simp only [Nat.add_zero]
    unfold GatherDims.start
    rw [dif_pos (show (⟨1, by decide⟩ : Fin 4) ∈ gd.startIndexMap by decide)]
    have hsi : gd.siIdx (ix2 n ch) ⟨List.idxOf (⟨1, by decide⟩ : Fin 4) gd.startIndexMap,
        List.idxOf_lt_length_iff.2 (by decide)⟩ = ix2 n (1 : Fin 3) := by
      funext b; refine Fin.ext ?_
      match b with
      | ⟨0, _⟩ => rfl
      | ⟨1, _⟩ => rfl
    rw [hsi]
    rfl
  | ⟨2, _⟩ =>
    rw [GatherDims.offCoord_eq_zero _ _ _ (fun h => ((GatherDims.mem_sKept _ _).mp h).1
      (show (⟨2, by decide⟩ : Fin 4) ∈ gd.collapsedSliceDims by decide))]
    simp only [Nat.add_zero]
    unfold GatherDims.start
    rw [dif_pos (show (⟨2, by decide⟩ : Fin 4) ∈ gd.startIndexMap by decide)]
    have hsi : gd.siIdx (ix2 n ch) ⟨List.idxOf (⟨2, by decide⟩ : Fin 4) gd.startIndexMap,
        List.idxOf_lt_length_iff.2 (by decide)⟩ = ix2 n (2 : Fin 3) := by
      funext b; refine Fin.ext ?_
      match b with
      | ⟨0, _⟩ => rfl
      | ⟨1, _⟩ => rfl
    rw [hsi]
    rfl
  | ⟨3, _⟩ =>
    unfold GatherDims.start
    rw [dif_neg (show ¬ (⟨3, by decide⟩ : Fin 4) ∈ gd.startIndexMap by decide)]
    unfold GatherDims.offCoord
    rw [dif_pos (show (⟨3, by decide⟩ : Fin 4) ∈ gd.sKept by decide), Nat.zero_add]
    rfl

/-- The table of start words read at a row: column `k` is the `k`-th joined piece at that row. -/
theorem concat3_apply_0 {α : Type} (u0 u1 u2 : S1024x1.Idx → α)
    (h : Shape.Concatenates ([(⟨S1024x1, u0⟩ : (s : Shape) × (s.Idx → α)), ⟨S1024x1, u1⟩, ⟨S1024x1, u2⟩].map (·.1)) S1024x3 1)
    (n : Fin 1024) :
    concatenate S1024x3 1 [⟨S1024x1, u0⟩, ⟨S1024x1, u1⟩, ⟨S1024x1, u2⟩] h (ix2 n (0 : Fin 3)) = u0 (ix2 n (0 : Fin 1)) :=
  concatenate_apply_piece (1 : Fin S1024x3.rank) _ h (ix2 n (0 : Fin 3)) 0 (show 0 < 3 by decide) S1024x1 u0 rfl rfl 0 rfl (ix2 n (0 : Fin 1))
    (fun b hb => by
      match b with
      | ⟨0, _⟩ => rfl
      | ⟨1, _⟩ => exact absurd rfl hb) rfl

theorem concat3_apply_1 {α : Type} (u0 u1 u2 : S1024x1.Idx → α)
    (h : Shape.Concatenates ([(⟨S1024x1, u0⟩ : (s : Shape) × (s.Idx → α)), ⟨S1024x1, u1⟩, ⟨S1024x1, u2⟩].map (·.1)) S1024x3 1)
    (n : Fin 1024) :
    concatenate S1024x3 1 [⟨S1024x1, u0⟩, ⟨S1024x1, u1⟩, ⟨S1024x1, u2⟩] h (ix2 n (1 : Fin 3)) = u1 (ix2 n (0 : Fin 1)) :=
  concatenate_apply_piece (1 : Fin S1024x3.rank) _ h (ix2 n (1 : Fin 3)) 1 (show 1 < 3 by decide) S1024x1 u1 rfl rfl 1 rfl (ix2 n (0 : Fin 1))
    (fun b hb => by
      match b with
      | ⟨0, _⟩ => rfl
      | ⟨1, _⟩ => exact absurd rfl hb) rfl

theorem concat3_apply_2 {α : Type} (u0 u1 u2 : S1024x1.Idx → α)
    (h : Shape.Concatenates ([(⟨S1024x1, u0⟩ : (s : Shape) × (s.Idx → α)), ⟨S1024x1, u1⟩, ⟨S1024x1, u2⟩].map (·.1)) S1024x3 1)
    (n : Fin 1024) :
    concatenate S1024x3 1 [⟨S1024x1, u0⟩, ⟨S1024x1, u1⟩, ⟨S1024x1, u2⟩] h (ix2 n (2 : Fin 3)) = u2 (ix2 n (0 : Fin 1)) :=
  concatenate_apply_piece (1 : Fin S1024x3.rank) _ h (ix2 n (2 : Fin 3)) 2 (show 2 < 3 by decide) S1024x1 u2 rfl rfl 2 rfl (ix2 n (0 : Fin 1))
    (fun b hb => by
      match b with
      | ⟨0, _⟩ => rfl
      | ⟨1, _⟩ => exact absurd rfl hb) rfl

/-! ## The three wrapped columns -/

/-- Row `r` of the index table, cut out and flattened, read at `n`. -/
theorem v2_at {F : FTy → Type} [FloatOps F] (x1 : (⟨S3x1024, .i32⟩ : BufTy).Contents (Elt F)) (n : Fin 1024) :
    val_main_v2 (F := F) x1 (ix1 n) = x1 (ix2 (0 : Fin 3) n) := by
  rw [val_main_v2_apply, val_main_v1_apply]
  congr 1
  funext a
  match a with
  | ⟨0, _⟩ => rfl
  | ⟨1, _⟩ => exact Fin.ext (Nat.mod_eq_of_lt n.isLt)

theorem v4_at {F : FTy → Type} [FloatOps F] (x1 : (⟨S3x1024, .i32⟩ : BufTy).Contents (Elt F)) (n : Fin 1024) :
    val_main_v4 (F := F) x1 (ix1 n) = x1 (ix2 (1 : Fin 3) n) := by
  rw [val_main_v4_apply, val_main_v3_apply]
  congr 1
  funext a
  match a with
  | ⟨0, _⟩ => rfl
  | ⟨1, _⟩ => exact Fin.ext (Nat.mod_eq_of_lt n.isLt)

theorem v6_at {F : FTy → Type} [FloatOps F] (x1 : (⟨S3x1024, .i32⟩ : BufTy).Contents (Elt F)) (n : Fin 1024) :
    val_main_v6 (F := F) x1 (ix1 n) = x1 (ix2 (2 : Fin 3) n) := by
  rw [val_main_v6_apply, val_main_v5_apply]
  congr 1
  funext a
  match a with
  | ⟨0, _⟩ => rfl
  | ⟨1, _⟩ => exact Fin.ext (Nat.mod_eq_of_lt n.isLt)

/-- The wrapped image word of point `n`. -/
theorem v11_at {F : FTy → Type} [FloatOps F] (x1 : (⟨S3x1024, .i32⟩ : BufTy).Contents (Elt F)) (n : Fin 1024) :
    val_main_v11 (F := F) x1 (ix1 n) = wrap 2#32 (x1 (ix2 (0 : Fin 3) n)) := by
  rw [val_main_v11_apply, val_main_v8_apply, val_main_v10_apply, val_main_v7_apply, val_main_c_apply, val_main_v9_apply,
    val_main_c_0_apply, v2_at]
  rfl

/-- The wrapped height word of point `n`. -/
theorem v16_at {F : FTy → Type} [FloatOps F] (x1 : (⟨S3x1024, .i32⟩ : BufTy).Contents (Elt F)) (n : Fin 1024) :
    val_main_v16 (F := F) x1 (ix1 n) = wrap 360#32 (x1 (ix2 (1 : Fin 3) n)) := by
  rw [val_main_v16_apply, val_main_v13_apply, val_main_v15_apply, val_main_v12_apply, val_main_c_1_apply, val_main_v14_apply,
    val_main_c_2_apply, v4_at]
  rfl

/-- The wrapped width word of point `n`. -/
theorem v21_at {F : FTy → Type} [FloatOps F] (x1 : (⟨S3x1024, .i32⟩ : BufTy).Contents (Elt F)) (n : Fin 1024) :
    val_main_v21 (F := F) x1 (ix1 n) = wrap 360#32 (x1 (ix2 (2 : Fin 3) n)) := by
  rw [val_main_v21_apply, val_main_v18_apply, val_main_v20_apply, val_main_v17_apply, val_main_c_3_apply, val_main_v19_apply,
    val_main_c_4_apply, v6_at]
  rfl

/-- A column `[1024, 1]` made from a vector reads the vector's entry. -/
theorem col_idx (n : Fin 1024) : idx_main_v22 (ix2 n (0 : Fin 1)) = ix1 n := by
  funext a
  match a with
  | ⟨0, _⟩ => rfl

/-- The table of start indices, column by column. -/
theorem v25_at_0 {F : FTy → Type} [FloatOps F] (x1 : (⟨S3x1024, .i32⟩ : BufTy).Contents (Elt F)) (n : Fin 1024) :
    val_main_v25 (F := F) x1 (ix2 n (0 : Fin 3)) = wrap 2#32 (x1 (ix2 (0 : Fin 3) n)) := by
  unfold val_main_v25
  rw [concat3_apply_0, val_main_v22_apply, col_idx, v11_at]

theorem v25_at_1 {F : FTy → Type} [FloatOps F] (x1 : (⟨S3x1024, .i32⟩ : BufTy).Contents (Elt F)) (n : Fin 1024) :
    val_main_v25 (F := F) x1 (ix2 n (1 : Fin 3)) = wrap 360#32 (x1 (ix2 (1 : Fin 3) n)) := by
  unfold val_main_v25
  rw [concat3_apply_1, val_main_v23_apply]
  exact (congrArg _ (col_idx n)).trans (v16_at x1 n)

theorem v25_at_2 {F : FTy → Type} [FloatOps F] (x1 : (⟨S3x1024, .i32⟩ : BufTy).Contents (Elt F)) (n : Fin 1024) :
    val_main_v25 (F := F) x1 (ix2 n (2 : Fin 3)) = wrap 360#32 (x1 (ix2 (2 : Fin 3) n)) := by
  unfold val_main_v25
  rw [concat3_apply_2, val_main_v24_apply]
  exact (congrArg _ (col_idx n)).trans (v21_at x1 n)

/-! ## The selected channel vector -/

/-- The transposed feature map at `(b, h, w, ch)` is the feature map at `(b, ch, h, w)`. -/
theorem v0_at {F : FTy → Type} [FloatOps F] (x0 : (⟨S2x256x360x360, .f32⟩ : BufTy).Contents (Elt F))
    (b : Fin 2) (h w : Fin 360) (ch : Fin 256) :
    val_main_v0 (F := F) x0 (ix4 b h w ch) = x0 (ix4 b ch h w) := by
  rw [val_main_v0_apply]
  congr 1
  funext a
  match a with
  | ⟨0, _⟩ => rfl
  | ⟨1, _⟩ => rfl
  | ⟨2, _⟩ => rfl
  | ⟨3, _⟩ => rfl

/-- THE ROW GATHER: the first table's selected vectors are the specification's `row`. -/
theorem v26_at (x0 : (⟨S2x256x360x360, .f32⟩ : BufTy).Contents (Elt Ideal)) (x1 : (⟨S3x1024, .i32⟩ : BufTy).Contents (Elt Ideal))
    (n : Fin 1024) (ch : Fin 256) :
    val_main_v26 (F := Ideal) x0 x1 (ix2 n ch) = row x0 x1 n ch := by
  unfold val_main_v26
  rw [gather_apply, v25_at_0, v25_at_1, v25_at_2]
  exact v0_at x0 _ _ _ _

end Cert.ReferenceIdeal.RefValue

end
-- ==== Proof.RefLayers.lean ====
/-
  The reference program's two rectified dense layers, read at an index: on the selected channel vectors they are the
  specification's `feats`, for the first index table and for the second (whose operations are the first's, applied to
  the other table).
-/
import proofs.«156606_j7370163880501_2_alg».proof.Proof.RefGather

noncomputable section

namespace Cert.ReferenceIdeal.RefValue

open Cert.ReferenceIdeal Cert.ReferenceIdeal.Gen Cert.ReferenceIdeal.Read Idealize.ShloMosaic Idealize.ShloMosaic.ValueIdx
open Cert.PairSim (row layer feats)

/-- The first layer on the first table's vectors: `max (∑ e, row n e · w1[e, c] + b1[c]) 0`. -/
theorem v31_at (x0 : (⟨S2x256x360x360, .f32⟩ : BufTy).Contents (Elt Ideal)) (x1 : (⟨S3x1024, .i32⟩ : BufTy).Contents (Elt Ideal))
    (x3 : (⟨S256x256, .f32⟩ : BufTy).Contents (Elt Ideal)) (x4 : (⟨S256, .f32⟩ : BufTy).Contents (Elt Ideal))
    (n : Fin 1024) (c : Fin 256) :
    val_main_v31 (F := Ideal) x0 x1 x3 x4 (ix2 n c) = layer (row x0 x1) x3 x4 n c := by
  rw [val_main_v31_apply, val_main_v30_apply, val_main_v27_apply, val_main_v29_apply, val_main_v28_apply,
    val_main_call0_v0_apply, val_main_call0_cst_apply]
  have hs : ∀ k : Fin 256, val_main_v26 (F := Ideal) x0 x1 (lidx_main_v27 (ix2 n c) k) * x3 (ridx_main_v27 (ix2 n c) k)
      = row x0 x1 n k * x3 (ix2 k c) := fun k => by
    rw [show lidx_main_v27 (ix2 n c) k = ix2 n k from funext fun a => by
          match a with
          | ⟨0, _⟩ => rfl
          | ⟨1, _⟩ => rfl,
      show ridx_main_v27 (ix2 n c) k = ix2 k c from funext fun a => by
          match a with
          | ⟨0, _⟩ => rfl
          | ⟨1, _⟩ => rfl,
      v26_at]
  have hb : idx_main_v28 (idx_main_v29 (ix2 n c)) = ix1 c := funext fun a => by
    match a with
    | ⟨0, _⟩ => rfl
  rw [Finset.sum_congr rfl (fun k _ => hs k), hb, Ideal.maximumf_def, Ideal.addf_def, Ideal.ofBits_def, Ideal.ofBits_zero_f32]
  rfl

/-- The second layer on top: the first table's 128 features are the specification's `feats` of its rows. -/
theorem v36_at (x0 : (⟨S2x256x360x360, .f32⟩ : BufTy).Contents (Elt Ideal)) (x1 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (n : Fin 1024) (c : Fin 128) :
    val_main_v36 (F := Ideal) x0 x1 x3 x4 x5 x6 (ix2 n c) = feats (row x0 x1) x3 x4 x5 x6 n c := by
  rw [val_main_v36_apply, val_main_v35_apply, val_main_v32_apply, val_main_v34_apply, val_main_v33_apply,
    val_main_call1_v0_apply, val_main_call1_cst_apply]
  have hs : ∀ k : Fin 256, val_main_v31 (F := Ideal) x0 x1 x3 x4 (lidx_main_v32 (ix2 n c) k) * x5 (ridx_main_v32 (ix2 n c) k)
      = layer (row x0 x1) x3 x4 n k * x5 (ix2 k c) := fun k => by
    rw [show lidx_main_v32 (ix2 n c) k = ix2 n k from funext fun a => by
          match a with
          | ⟨0, _⟩ => rfl
          | ⟨1, _⟩ => rfl,
      show ridx_main_v32 (ix2 n c) k = ix2 k c from funext fun a => by
          match a with
          | ⟨0, _⟩ => rfl
          | ⟨1, _⟩ => rfl,
      v31_at]
  have hb : idx_main_v33 (idx_main_v34 (ix2 n c)) = ix1 c := funext fun a => by
    match a with
    | ⟨0, _⟩ => rfl
  rw [Finset.sum_congr rfl (fun k _ => hs k), hb, Ideal.maximumf_def, Ideal.addf_def, Ideal.ofBits_def, Ideal.ofBits_zero_f32]
  rfl

/-- The second table goes through the same operations as the first: its feature array is the first's function at the
    second table. -/
theorem v72_eq_v36 {F : FTy → Type} [FloatOps F] (x0 : (⟨S2x256x360x360, .f32⟩ : BufTy).Contents (Elt F))
    (x2 : (⟨S3x1024, .i32⟩ : BufTy).Contents (Elt F))
    (x3 : (⟨S256x256, .f32⟩ : BufTy).Contents (Elt F)) (x4 : (⟨S256, .f32⟩ : BufTy).Contents (Elt F))
    (x5 : (⟨S256x128, .f32⟩ : BufTy).Contents (Elt F)) (x6 : (⟨S128, .f32⟩ : BufTy).Contents (Elt F)) :
    val_main_v72 (F := F) x0 x2 x3 x4 x5 x6 = val_main_v36 (F := F) x0 x2 x3 x4 x5 x6 := rfl

/-- The second table's 128 features are the specification's `feats` of its rows. -/
theorem v72_at (x0 : (⟨S2x256x360x360, .f32⟩ : BufTy).Contents (Elt Ideal)) (x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (n : Fin 1024) (c : Fin 128) :
    val_main_v72 (F := Ideal) x0 x2 x3 x4 x5 x6 (ix2 n c) = feats (row x0 x2) x3 x4 x5 x6 n c :=
  (congrFun (v72_eq_v36 x0 x2 x3 x4 x5 x6) (ix2 n c)).trans (v36_at x0 x2 x3 x4 x5 x6 n c)

end Cert.ReferenceIdeal.RefValue

end
-- ==== Proof.RefTail.lean ====
/-
  The reference program's tail, read at an index: the outer difference of the two feature arrays, the third dense layer
  with its rectifier, the fourth layer and the final reshape are the specification's `simDiff` of the two tables'
  features; hence the whole result array (`result_eq`).
-/
import proofs.«156606_j7370163880501_2_alg».proof.Proof.RefLayers

noncomputable section

namespace Cert.ReferenceIdeal.RefValue

open Cert.ReferenceIdeal Cert.ReferenceIdeal.Gen Cert.ReferenceIdeal.Read Idealize.ShloMosaic Idealize.ShloMosaic.ValueIdx
open Cert.PairSim (row layer feats simDiff)

/-- The outer difference at `(i, j, d)`: feature `d` of point `i` of the first table less that of point `j` of the second. -/
theorem v77_at (x0 : (⟨S2x256x360x360, .f32⟩ : BufTy).Contents (Elt Ideal)) (x1 x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (i j : Fin 1024) (d : Fin 128) :
    val_main_v77 (F := Ideal) x0 x1 x2 x3 x4 x5 x6 (ix3 i j d) = feats (row x0 x1) x3 x4 x5 x6 i d - feats (row x0 x2) x3 x4 x5 x6 j d := by
  rw [val_main_v77_apply, val_main_v75_apply, val_main_v73_apply, val_main_v76_apply, val_main_v74_apply,
    show idx_main_v73 (idx_main_v75 (ix3 i j d)) = ix2 i d from funext fun a => by
      match a with
      | ⟨0, _⟩ => rfl
      | ⟨1, _⟩ => rfl,
    show idx_main_v74 (idx_main_v76 (ix3 i j d)) = ix2 j d from funext fun a => by
      match a with
      | ⟨0, _⟩ => rfl
      | ⟨1, _⟩ => rfl,
    v36_at, v72_at]
  rfl

/-- The third layer's linear part on the difference. -/
theorem v78_at (x0 : (⟨S2x256x360x360, .f32⟩ : BufTy).Contents (Elt Ideal)) (x1 x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x32, .f32⟩ : BufTy).Contents (Elt Ideal)) (i j : Fin 1024) (k : Fin 32) :
    val_main_v78 (F := Ideal) x0 x1 x2 x3 x4 x5 x6 x7 (ix3 i j k)
      = ∑ d : Fin 128, (feats (row x0 x1) x3 x4 x5 x6 i d - feats (row x0 x2) x3 x4 x5 x6 j d) * x7 (ix2 d k) := by
  rw [val_main_v78_apply]
  refine Finset.sum_congr rfl fun d _ => ?_
  rw [show lidx_main_v78 (ix3 i j k) d = ix3 i j d from funext fun a => by
      match a with
      | ⟨0, _⟩ => rfl
      | ⟨1, _⟩ => rfl
      | ⟨2, _⟩ => rfl,
    show ridx_main_v78 (ix3 i j k) d = ix2 d k from funext fun a => by
      match a with
      | ⟨0, _⟩ => rfl
      | ⟨1, _⟩ => rfl,
    v77_at]

/-- The third layer with its bias and rectifier. -/
theorem v82_at (x0 : (⟨S2x256x360x360, .f32⟩ : BufTy).Contents (Elt Ideal)) (x1 x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x32, .f32⟩ : BufTy).Contents (Elt Ideal)) (x8 : (⟨S32, .f32⟩ : BufTy).Contents (Elt Ideal))
    (i j : Fin 1024) (k : Fin 32) :
    val_main_v82 (F := Ideal) x0 x1 x2 x3 x4 x5 x6 x7 x8 (ix3 i j k)
      = max ((∑ d : Fin 128, (feats (row x0 x1) x3 x4 x5 x6 i d - feats (row x0 x2) x3 x4 x5 x6 j d) * x7 (ix2 d k)) + x8 (ix1 k)) 0 := by
  rw [val_main_v82_apply, val_main_v81_apply, v78_at, val_main_v80_apply, val_main_v79_apply, val_main_call4_v0_apply,
    val_main_call4_cst_apply,
    show idx_main_v79 (idx_main_v80 (ix3 i j k)) = ix1 k from funext fun a => by
      match a with
      | ⟨0, _⟩ => rfl,
    Ideal.maximumf_def, Ideal.addf_def, Ideal.ofBits_def, Ideal.ofBits_zero_f32]

/-- The fourth layer with its bias: the similarity of points `i` and `j`. -/
theorem v86_at (x0 : (⟨S2x256x360x360, .f32⟩ : BufTy).Contents (Elt Ideal)) (x1 x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x32, .f32⟩ : BufTy).Contents (Elt Ideal)) (x8 : (⟨S32, .f32⟩ : BufTy).Contents (Elt Ideal))
    (x9 : (⟨S32x1, .f32⟩ : BufTy).Contents (Elt Ideal)) (x10 : (⟨S1, .f32⟩ : BufTy).Contents (Elt Ideal))
    (i j : Fin 1024) :
    val_main_v86 (F := Ideal) x0 x1 x2 x3 x4 x5 x6 x7 x8 x9 x10 (ix3 i j (0 : Fin 1))
      = simDiff (feats (row x0 x1) x3 x4 x5 x6) (feats (row x0 x2) x3 x4 x5 x6) x7 x8 x9 x10 i j := by
  rw [val_main_v86_apply, val_main_v83_apply, val_main_v85_apply, val_main_v84_apply]
  have hs : ∀ k : Fin 32, val_main_v82 (F := Ideal) x0 x1 x2 x3 x4 x5 x6 x7 x8 (lidx_main_v83 (ix3 i j (0 : Fin 1)) k)
        * x9 (ridx_main_v83 (ix3 i j (0 : Fin 1)) k)
      = max ((∑ d : Fin 128, (feats (row x0 x1) x3 x4 x5 x6 i d - feats (row x0 x2) x3 x4 x5 x6 j d) * x7 (ix2 d k)) + x8 (ix1 k)) 0 * x9 (ix2 k (0 : Fin 1)) := fun k => by
    rw [show lidx_main_v83 (ix3 i j (0 : Fin 1)) k = ix3 i j k from funext fun a => by
        match a with
        | ⟨0, _⟩ => rfl
        | ⟨1, _⟩ => rfl
        | ⟨2, _⟩ => rfl,
      show ridx_main_v83 (ix3 i j (0 : Fin 1)) k = ix2 k (0 : Fin 1) from funext fun a => by
        match a with
        | ⟨0, _⟩ => rfl
        | ⟨1, _⟩ => rfl,
      v82_at]
  have hb : idx_main_v84 (idx_main_v85 (ix3 i j (0 : Fin 1))) = ix1 (0 : Fin 1) := funext fun a => by
    match a with
    | ⟨0, _⟩ => rfl
  rw [Finset.sum_congr rfl (fun k _ => hs k), hb, Ideal.addf_def]
  rfl

/-- The result array at `(i, j)`. -/
theorem v87_at (x0 : (⟨S2x256x360x360, .f32⟩ : BufTy).Contents (Elt Ideal)) (x1 x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x32, .f32⟩ : BufTy).Contents (Elt Ideal)) (x8 : (⟨S32, .f32⟩ : BufTy).Contents (Elt Ideal))
    (x9 : (⟨S32x1, .f32⟩ : BufTy).Contents (Elt Ideal)) (x10 : (⟨S1, .f32⟩ : BufTy).Contents (Elt Ideal))
    (i j : Fin 1024) :
    val_main_v87 (F := Ideal) x0 x1 x2 x3 x4 x5 x6 x7 x8 x9 x10 (ix2 i j)
      = simDiff (feats (row x0 x1) x3 x4 x5 x6) (feats (row x0 x2) x3 x4 x5 x6) x7 x8 x9 x10 i j := by
  rw [val_main_v87_apply,
    show idx_main_v87 (ix2 i j) = ix3 i j (0 : Fin 1) from funext fun a => by
      have hi := i.isLt
      have hj := j.isLt
      match a with
      | ⟨0, _⟩ => exact Fin.ext (by show (i.val * 1024 + j.val) / 1024 = i.val; omega)
      | ⟨1, _⟩ => exact Fin.ext (by show (i.val * 1024 + j.val) / 1 % 1024 = j.val; omega)
      | ⟨2, _⟩ => rfl,
    v86_at]

/-- THE REFERENCE'S RESULT IS THE SPECIFICATION: entry `(i, j)` of the result array is `simDiff` of the two tables'
    features at `i` and `j`. -/
theorem result_eq (x0 : (⟨S2x256x360x360, .f32⟩ : BufTy).Contents (Elt Ideal)) (x1 x2 : (⟨S3x1024, .i32⟩ : BufTy).Contents (Elt Ideal))
    (x3 : (⟨S256x256, .f32⟩ : BufTy).Contents (Elt Ideal)) (x4 : (⟨S256, .f32⟩ : BufTy).Contents (Elt Ideal))
    (x5 : (⟨S256x128, .f32⟩ : BufTy).Contents (Elt Ideal)) (x6 : (⟨S128, .f32⟩ : BufTy).Contents (Elt Ideal))
    (x7 : (⟨S128x32, .f32⟩ : BufTy).Contents (Elt Ideal)) (x8 : (⟨S32, .f32⟩ : BufTy).Contents (Elt Ideal))
    (x9 : (⟨S32x1, .f32⟩ : BufTy).Contents (Elt Ideal)) (x10 : (⟨S1, .f32⟩ : BufTy).Contents (Elt Ideal)) :
    val_main_v87 (F := Ideal) x0 x1 x2 x3 x4 x5 x6 x7 x8 x9 x10
      = fun ij => simDiff (feats (row x0 x1) x3 x4 x5 x6) (feats (row x0 x2) x3 x4 x5 x6) x7 x8 x9 x10 (ij 0) (ij 1) := by
  funext ij
  exact (congrArg (val_main_v87 (F := Ideal) x0 x1 x2 x3 x4 x5 x6 x7 x8 x9 x10) (eq_ix2 ij)).trans
    (v87_at x0 x1 x2 x3 x4 x5 x6 x7 x8 x9 x10 (ij 0) (ij 1))

end Cert.ReferenceIdeal.RefValue

end
-- ==== Proof.RefRun.lean ====
/-
  The reference program's run, stated by the specification: every weakly fair execution of the reference terminates with
  its result array holding, at `(i, j)`, the similarity `simDiff` of the features of point `i` of the first index
  table and point `j` of the second, and with its eleven argument arrays unchanged.
-/
import proofs.«156606_j7370163880501_2_alg».proof.Proof.RefTail

noncomputable section

namespace Cert.ReferenceIdeal.RefValue

open Cert.ReferenceIdeal Cert.ReferenceIdeal.Gen Idealize.ShloMosaic Idealize.ShloMosaic.TcCoe Idealize.SL.Sem
open Cert.PairSim (row feats simDiff)

/-- The specification's function of a memory's argument arrays on device `c`. -/
def spec (m' : (ℓ : Loc nD τ sig) → Buf (Elt Ideal) ℓ) (c : Dev nD) : Buf (Elt Ideal) ((c.tc : Thread nD τ).loc main_v87) :=
  fun ij => simDiff (feats (row (m' ((c.tc : Thread nD τ).loc main_arg0)) (m' ((c.tc : Thread nD τ).loc main_arg1))) (m' ((c.tc : Thread nD τ).loc main_arg3)) (m' ((c.tc : Thread nD τ).loc main_arg4)) (m' ((c.tc : Thread nD τ).loc main_arg5)) (m' ((c.tc : Thread nD τ).loc main_arg6)))
    (feats (row (m' ((c.tc : Thread nD τ).loc main_arg0)) (m' ((c.tc : Thread nD τ).loc main_arg2))) (m' ((c.tc : Thread nD τ).loc main_arg3)) (m' ((c.tc : Thread nD τ).loc main_arg4)) (m' ((c.tc : Thread nD τ).loc main_arg5)) (m' ((c.tc : Thread nD τ).loc main_arg6)))
    (m' ((c.tc : Thread nD τ).loc main_arg7)) (m' ((c.tc : Thread nD τ).loc main_arg8)) (m' ((c.tc : Thread nD τ).loc main_arg9)) (m' ((c.tc : Thread nD τ).loc main_arg10)) (ij 0) (ij 1)

/-- THE REFERENCE RUNS TO THE SPECIFICATION, its arguments unchanged. -/
theorem run_spec (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v87) = spec m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10) :=
  (θ_run defs _ _).mono
    (fun _ h c => ⟨(h c).1.trans ((Cert.ReferenceIdeal.Read.val_main_v87_eq m' c).trans (result_eq _ _ _ _ _ _ _ _ _ _ _)), (h c).2⟩)
    (Cert.ReferenceIdeal.Value.run (F := Ideal) m' ρ')

end Cert.ReferenceIdeal.RefValue

end
-- ==== Proof.Algebra.lean ====
/-
  The algebra of the value claim over the extended reals.

  An extended real is REAL when it is the image of a real number; on real data the extended reals'
  addition, subtraction and multiplication are the reals' own, so the ring laws hold there. Two things are
  shown. (1) The selected vectors, and the features two rectified dense layers make of them, are real
  when the arrays are. (2) The law of the third layer: it is linear before its rectifier, so applied to the
  difference of two real feature vectors it gives the difference of its values on each — the similarity
  from projected features equals the similarity on the difference.
-/
import proofs.«156606_j7370163880501_2_alg».proof.Proof.Spec
import Mathlib.Data.EReal.Operations

noncomputable section

namespace Cert.PairSim

open Idealize.ShloMosaic Idealize.ShloMosaic.ValueIdx

/-- The coercion of the reals into the extended reals commutes with a finite sum. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The maximum of two reals is real. -/
theorem real_max {x y : EReal} (hx : ∃ r : ℝ, x = (r : EReal)) (hy : ∃ r : ℝ, y = (r : EReal)) :
    ∃ r : ℝ, max x y = (r : EReal) := by
  rcases max_choice x y with h | h <;> rw [h] <;> assumption

/-- A finite sum of products of reals is real. -/
theorem real_sum_mul {ι : Type} (s : Finset ι) (p q : ι → EReal) (hp : ∀ i, ∃ r : ℝ, p i = (r : EReal))
    (hq : ∀ i, ∃ r : ℝ, q i = (r : EReal)) : ∃ r : ℝ, ∑ i ∈ s, p i * q i = (r : EReal) := by
  choose rp hrp using hp
  choose rq hrq using hq
  refine ⟨∑ i ∈ s, rp i * rq i, ?_⟩
  rw [coe_sum]
  refine Finset.sum_congr rfl fun i _ => ?_
  rw [hrp, hrq, EReal.coe_mul]

/-- One rectified dense layer of real data with real weights and offsets is real. -/
theorem layer_real {N K C : Nat} (x : Fin N → Fin K → EReal) (w : (⟨2, ![K, C]⟩ : Shape).Idx → EReal)
    (b : (⟨1, ![C]⟩ : Shape).Idx → EReal) (hx : ∀ n e, ∃ r : ℝ, x n e = (r : EReal))
    (hw : ∀ i, ∃ r : ℝ, w i = (r : EReal)) (hb : ∀ i, ∃ r : ℝ, b i = (r : EReal)) (n : Fin N) (c : Fin C) :
    ∃ r : ℝ, layer x w b n c = (r : EReal) := by
  unfold layer
  refine real_max ?_ ⟨0, rfl⟩
  obtain ⟨s, hs⟩ := real_sum_mul Finset.univ (fun e => x n e) (fun e => w (ix2 e c)) (fun e => hx n e)
    (fun e => hw (ix2 e c))
  obtain ⟨t, ht⟩ := hb (ix1 c)
  exact ⟨s + t, by rw [hs, ht, EReal.coe_add]⟩

/-- The 128 features of real selected vectors under real weights and offsets are real. -/
theorem feats_real (x : Fin 1024 → Fin 256 → EReal) (w1 : (⟨2, ![256, 256]⟩ : Shape).Idx → EReal)
    (b1 : (⟨1, ![256]⟩ : Shape).Idx → EReal) (w2 : (⟨2, ![256, 128]⟩ : Shape).Idx → EReal)
    (b2 : (⟨1, ![128]⟩ : Shape).Idx → EReal) (hx : ∀ n e, ∃ r : ℝ, x n e = (r : EReal))
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) (n : Fin 1024) (c : Fin 128) :
    ∃ r : ℝ, feats x w1 b1 w2 b2 n c = (r : EReal) :=
  layer_real (layer x w1 b1) w2 b2 (fun n e => layer_real x w1 b1 hx hw1 hb1 n e) hw2 hb2 n c

/-- A vector selected from a real feature map is real. -/
theorem row_real (feat : (⟨4, ![2, 256, 360, 360]⟩ : Shape).Idx → EReal) (idx : (⟨2, ![3, 1024]⟩ : Shape).Idx → BitVec 32)
    (hfeat : ∀ i, ∃ r : ℝ, feat i = (r : EReal)) (n : Fin 1024) (ch : Fin 256) :
    ∃ r : ℝ, row feat idx n ch = (r : EReal) :=
  hfeat _

/-- THE LAW. On real features and real third-layer weights, the similarity computed from the two points'
    projected features equals the similarity with the third layer applied to the difference of their features:
    for every output `k`, `∑ d, (f1 i d - f2 j d) * w3[d, k] = (∑ d, f1 i d * w3[d, k]) - (∑ d, f2 j d * w3[d, k])`
    is the reals' distributive law, and the outer products differ by the commutativity of the product only.
    The offsets `b3`, `b4` and the last weights `w4` are arbitrary extended reals. -/
theorem simProj_eq_simDiff (f1 f2 : Fin 1024 → Fin 128 → EReal) (w3 : (⟨2, ![128, 32]⟩ : Shape).Idx → EReal)
    (b3 : (⟨1, ![32]⟩ : Shape).Idx → EReal) (w4 : (⟨2, ![32, 1]⟩ : Shape).Idx → EReal) (b4 : (⟨1, ![1]⟩ : Shape).Idx → EReal)
    (hf1 : ∀ n d, ∃ r : ℝ, f1 n d = (r : EReal)) (hf2 : ∀ n d, ∃ r : ℝ, f2 n d = (r : EReal))
    (hw3 : ∀ i, ∃ r : ℝ, w3 i = (r : EReal)) (i j : Fin 1024) :
    simProj (proj f1 w3) (proj f2 w3) b3 w4 b4 i j = simDiff f1 f2 w3 b3 w4 b4 i j := by
  choose r1 h1 using hf1
  choose r2 h2 using hf2
  choose r3 h3 using hw3
  have key : ∀ k : Fin 32, (∑ d : Fin 128, f1 i d * w3 (ix2 d k)) - (∑ d : Fin 128, f2 j d * w3 (ix2 d k))
      = ∑ d : Fin 128, (f1 i d - f2 j d) * w3 (ix2 d k) := by
    intro k
    have e1 : (∑ d : Fin 128, f1 i d * w3 (ix2 d k)) = ((∑ d : Fin 128, r1 i d * r3 (ix2 d k) : ℝ) : EReal) := by
      rw [coe_sum]; exact Finset.sum_congr rfl fun d _ => by rw [h1, h3, EReal.coe_mul]
    have e2 : (∑ d : Fin 128, f2 j d * w3 (ix2 d k)) = ((∑ d : Fin 128, r2 j d * r3 (ix2 d k) : ℝ) : EReal) := by
      rw [coe_sum]; exact Finset.sum_congr rfl fun d _ => by rw [h2, h3, EReal.coe_mul]
    have e3 : (∑ d : Fin 128, (f1 i d - f2 j d) * w3 (ix2 d k))
        = ((∑ d : Fin 128, (r1 i d - r2 j d) * r3 (ix2 d k) : ℝ) : EReal) := by
      rw [coe_sum]; exact Finset.sum_congr rfl fun d _ => by rw [h1, h2, h3, ← EReal.coe_sub, EReal.coe_mul]
    rw [e1, e2, e3, ← EReal.coe_sub, ← Finset.sum_sub_distrib]
    congr 1
    exact Finset.sum_congr rfl fun d _ => by rw [sub_mul]
  unfold simProj simDiff proj
  congr 1
  refine Finset.sum_congr rfl fun k _ => ?_
  rw [mul_comm, key k]

end Cert.PairSim

end
-- ==== Proof.Finite.lean ====
/-
  From the certificate's precondition to "every float entry is real".

  The precondition is the conjunction, over the nine float arrays, of "every entry's absolute value is below
  +∞". Its value 1 gives each conjunct the value 1; a conjunction over a whole array that is 1 has a 1 at every
  index; and an extended real `x` with `max x (-x) < ⊤` is neither `⊤` nor `⊥`, so it is a real number.
-/
import proofs.«156606_j7370163880501_2_alg».proof.Pre_finite_inputs
import Idealize.ShloMosaic.PureOps.Ideal
import Idealize.ShloMosaic.Lib.ReduceAll
import Idealize.ShloMosaic.Lib.ValueIdx

noncomputable section

namespace Cert.Pre_finite_inputs.Real

open Idealize.ShloMosaic Cert.Pre_finite_inputs

/-- The shape of rank zero has one index. -/
instance : Subsingleton S_.Idx := ⟨fun a b => funext fun d => d.elim0⟩

/-- One value: an extended real whose absolute value compares below the pattern of `+∞` is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One array: if the conjunction over all its entries of "the absolute value is below `+∞`" is 1, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : ∃ r : ℝ, (x i : EReal) = (r : EReal) :=
  real_of_abs_lt_inf (x i) (Host.reduce_andi_all _ _ hr hu _ e i)

/-- The precondition gives: every entry of the feature map and of the eight weight and offset arrays is a real number.
    (The two index tables are words; the precondition says nothing of them.) -/
theorem real_of_pre [Cert.Pre_finite_inputs.Facts] (x0 : FVec Ideal S2x256x360x360 .f32) (x1 x2 : IVec S3x1024 32)
    (x3 : FVec Ideal S256x256 .f32) (x4 : FVec Ideal S256 .f32) (x5 : FVec Ideal S256x128 .f32) (x6 : FVec Ideal S128 .f32)
    (x7 : FVec Ideal S128x32 .f32) (x8 : FVec Ideal S32 .f32) (x9 : FVec Ideal S32x1 .f32) (x10 : FVec Ideal S1 .f32)
    (h : Cert.Pre_finite_inputs.fn (F := Ideal) x0 x1 x2 x3 x4 x5 x6 x7 x8 x9 x10 = fun _ => 1#1) :
    (∀ i, ∃ r : ℝ, (x0 i : EReal) = (r : EReal)) ∧ (∀ i, ∃ r : ℝ, (x3 i : EReal) = (r : EReal))
      ∧ (∀ i, ∃ r : ℝ, (x4 i : EReal) = (r : EReal)) ∧ (∀ i, ∃ r : ℝ, (x5 i : EReal) = (r : EReal))
      ∧ (∀ i, ∃ r : ℝ, (x6 i : EReal) = (r : EReal)) ∧ (∀ i, ∃ r : ℝ, (x7 i : EReal) = (r : EReal))
      ∧ (∀ i, ∃ r : ℝ, (x8 i : EReal) = (r : EReal)) ∧ (∀ i, ∃ r : ℝ, (x9 i : EReal) = (r : EReal))
      ∧ (∀ i, ∃ r : ℝ, (x10 i : EReal) = (r : EReal)) := by
  have h0 := congrFun h ValueIdx.ix0
  dsimp only [fn, fn_part1, fn_part2, andi] at h0
  simp only [IntOp.andi_eq_one] at h0
  obtain ⟨⟨⟨⟨⟨⟨⟨⟨e0, e3⟩, e4⟩, e5⟩, e6⟩, e7⟩, e8⟩, e9⟩, e10⟩ := h0
  exact ⟨all_real x0 _ _ _ e0, all_real x3 _ _ _ e3, all_real x4 _ _ _ e4, all_real x5 _ _ _ e5, all_real x6 _ _ _ e6,
    all_real x7 _ _ _ e7, all_real x8 _ _ _ e8, all_real x9 _ _ _ e9, all_real x10 _ _ _ e10⟩

end Cert.Pre_finite_inputs.Real

end
-- ==== Proof.Law.lean ====
/-
  Under the precondition, the two forms of the similarity agree.

  The precondition makes every float entry real; the selected vectors and their features are then real, and on real
  features with real third-layer weights the third layer, linear before its rectifier, may be applied to each point's
  features or to their difference with the same result.
-/
import proofs.«156606_j7370163880501_2_alg».proof.Proof.Algebra
import proofs.«156606_j7370163880501_2_alg».proof.Proof.Finite

noncomputable section

namespace Cert.PairSim

open Idealize.ShloMosaic Idealize.ShloMosaic.ValueIdx Cert.Pre_finite_inputs

/-- Under the precondition, the two forms of the similarity agree on the features the arrays determine. -/
theorem law_of_pre [Cert.Pre_finite_inputs.Facts] (x0 : FVec Ideal S2x256x360x360 .f32) (x1 x2 : IVec S3x1024 32)
    (x3 : FVec Ideal S256x256 .f32) (x4 : FVec Ideal S256 .f32) (x5 : FVec Ideal S256x128 .f32) (x6 : FVec Ideal S128 .f32)
    (x7 : FVec Ideal S128x32 .f32) (x8 : FVec Ideal S32 .f32) (x9 : FVec Ideal S32x1 .f32) (x10 : FVec Ideal S1 .f32)
    (h : Cert.Pre_finite_inputs.fn (F := Ideal) x0 x1 x2 x3 x4 x5 x6 x7 x8 x9 x10 = fun _ => 1#1) (i j : Fin 1024) :
    simProj (proj (feats (row x0 x1) x3 x4 x5 x6) x7) (proj (feats (row x0 x2) x3 x4 x5 x6) x7) x8 x9 x10 i j
      = simDiff (feats (row x0 x1) x3 x4 x5 x6) (feats (row x0 x2) x3 x4 x5 x6) x7 x8 x9 x10 i j := by
  obtain ⟨r0, r3, r4, r5, r6, r7, -, -, -⟩ := Cert.Pre_finite_inputs.Real.real_of_pre x0 x1 x2 x3 x4 x5 x6 x7 x8 x9 x10 h
  exact simProj_eq_simDiff _ _ x7 x8 x9 x10
    (feats_real _ x3 x4 x5 x6 (row_real x0 x1 r0) r3 r4 r5 r6)
    (feats_real _ x3 x4 x5 x6 (row_real x0 x2 r0) r3 r4 r5 r6) r7 i j

end Cert.PairSim

end
-- ==== Proof.lean ====
/-
  The proof of `Cert.Claim`.

  What the two programs compute. From a feature map `[2, 256, 360, 360]` and two index tables `[3, 1024]`, each table
  selects 1024 channel vectors (image, height and width read off the table, a negative word wrapped by its axis'
  extent, then clamped into the axis). Two rectified dense layers take each selected vector to 128 features. The
  result `[1024, 1024]` holds, at `(i, j)`, a similarity of point `i` of the first table and point `j` of the second:
  a third dense layer (128 → 32, rectified) and a last one (32 → 1).

  The reference applies the third layer to the DIFFERENCE of the two points' features. The kernel applies the third
  layer's linear part to each point's features first — one pipelined region over the two stacked selections — and
  then, in a second pipelined region over a 4 x 4 grid of blocks, subtracts the projected features, adds the bias,
  rectifies, and contracts with the last weights.

  The law that joins them: a linear map of a difference is the difference of its values. On the extended reals this
  needs every term finite — a difference of infinities, or an infinity times zero, breaks it — and the precondition
  says every float argument is finite; the selected vectors and the features are then real, and the two forms agree.

  The parts. The frame of each program (it runs to the end, faults nowhere, leaves its arguments unchanged): the
  kernel's, at the word level and on the extended reals, from the run of @main as host stretches and two pipelined
  regions; the reference's from its run to the specification. The idealization rewrote nothing, so `preserves` is
  trivial. The value claim: the kernel's result array read back through @main is the projected form of the
  similarity of the launch arrays; the reference's is the difference form; the law, under the precondition, makes
  them equal index by index.
-/
import proofs.«156606_j7370163880501_2_alg».proof.Defs
import proofs.«156606_j7370163880501_2_alg».proof.Proof.Gen.Kernel
import proofs.«156606_j7370163880501_2_alg».proof.Proof.Gen.KernelIdeal
import proofs.«156606_j7370163880501_2_alg».proof.Proof.Gen.ReferenceIdeal
import proofs.«156606_j7370163880501_2_alg».proof.Proof.Gen.Pre_finite_inputs
import proofs.«156606_j7370163880501_2_alg».proof.Proof.BitsRun
import proofs.«156606_j7370163880501_2_alg».proof.Proof.IdealRun
import proofs.«156606_j7370163880501_2_alg».proof.Proof.KernelValue
import proofs.«156606_j7370163880501_2_alg».proof.Proof.RefRun
import proofs.«156606_j7370163880501_2_alg».proof.Proof.Law
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments as launched. -/
theorem frame_kernel : Cert.frame_Kernel := fun m g _ => Cert.Kernel.Fr.frame (F := Bits) m g

/-- So does its reading on the extended reals. -/
theorem frame_kernelIdeal : Cert.frame_KernelIdeal := fun m g _ => Cert.KernelIdeal.Fr.frame (F := Ideal) m g

/-- So does the reference: its run to the specification says in particular that the arguments end unchanged. -/
theorem frame_referenceIdeal : Cert.frame_ReferenceIdeal := fun m ρ _ =>
  (θ_run Cert.ReferenceIdeal.defs _ _).mono (fun _ h c => (h c).2) (Cert.ReferenceIdeal.RefValue.run_spec m ρ)

/-- The idealization rewrote no operation. -/
theorem preserves : Cert.preserves_Kernel_KernelIdeal := trivial

/-- On the extended reals, from memories that agree on the eleven arguments, both programs run to the end with their
    arguments unchanged and with equal result arrays: the kernel's holds the similarity in its projected form, the
    reference's the similarity with the third layer applied to the difference of the features, and on finite inputs
    the two forms agree. -/
theorem algebraic : Cert.algebraic_KernelIdeal_ReferenceIdeal := by
  intro m ρ m' ρ' hpre hagree
  refine ⟨fun c => Cert.KernelIdeal.Fr.Xend m c (Proc.devRef .tc Cert.KernelIdeal.main_v72), ?_, ?_⟩
  · exact (θ_run Cert.KernelIdeal.defs _ _).mono
      (fun _ h c => ⟨h c _ (Cert.KernelIdeal.Fr.mem_uc Cert.KernelIdeal.main_v72 (by decide)),
      (h c _ (Cert.KernelIdeal.Fr.mem_uc Cert.KernelIdeal.main_arg0 (by decide))).trans (Cert.KernelIdeal.Fr.Xend_main_arg0 m c),
      (h c _ (Cert.KernelIdeal.Fr.mem_uc Cert.KernelIdeal.main_arg1 (by decide))).trans (Cert.KernelIdeal.Fr.Xend_main_arg1 m c),
      (h c _ (Cert.KernelIdeal.Fr.mem_uc Cert.KernelIdeal.main_arg2 (by decide))).trans (Cert.KernelIdeal.Fr.Xend_main_arg2 m c),
      (h c _ (Cert.KernelIdeal.Fr.mem_uc Cert.KernelIdeal.main_arg3 (by decide))).trans (Cert.KernelIdeal.Fr.Xend_main_arg3 m c),
      (h c _ (Cert.KernelIdeal.Fr.mem_uc Cert.KernelIdeal.main_arg4 (by decide))).trans (Cert.KernelIdeal.Fr.Xend_main_arg4 m c),
      (h c _ (Cert.KernelIdeal.Fr.mem_uc Cert.KernelIdeal.main_arg5 (by decide))).trans (Cert.KernelIdeal.Fr.Xend_main_arg5 m c),
      (h c _ (Cert.KernelIdeal.Fr.mem_uc Cert.KernelIdeal.main_arg6 (by decide))).trans (Cert.KernelIdeal.Fr.Xend_main_arg6 m c),
      (h c _ (Cert.KernelIdeal.Fr.mem_uc Cert.KernelIdeal.main_arg7 (by decide))).trans (Cert.KernelIdeal.Fr.Xend_main_arg7 m c),
      (h c _ (Cert.KernelIdeal.Fr.mem_uc Cert.KernelIdeal.main_arg8 (by decide))).trans (Cert.KernelIdeal.Fr.Xend_main_arg8 m c),
      (h c _ (Cert.KernelIdeal.Fr.mem_uc Cert.KernelIdeal.main_arg9 (by decide))).trans (Cert.KernelIdeal.Fr.Xend_main_arg9 m c),
      (h c _ (Cert.KernelIdeal.Fr.mem_uc Cert.KernelIdeal.main_arg10 (by decide))).trans (Cert.KernelIdeal.Fr.Xend_main_arg10 m c)⟩)
      (Cert.KernelIdeal.Fr.run_all m ρ)
  · refine (θ_run Cert.ReferenceIdeal.defs _ _).mono (fun _ h c => ⟨(h c).1.trans ?_, (h c).2⟩)
      (Cert.ReferenceIdeal.RefValue.run_spec m' ρ')
    obtain ⟨a0, a1, a2, a3, a4, a5, a6, a7, a8, a9, a10⟩ := hagree c
    refine Eq.trans ?_ (Cert.KernelIdeal.Value.result_eq m c).symm
    unfold Cert.ReferenceIdeal.RefValue.spec
    rw [a0, a1, a2, a3, a4, a5, a6, a7, a8, a9, a10]
    funext ij
    exact (Cert.PairSim.law_of_pre _ _ _ _ _ _ _ _ _ _ _ (hpre c) (ij 0) (ij 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
